-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S4x256x1024 : Shape := ⟨3, ![4, 256, 1024]⟩
abbrev S4x256x1 : Shape := ⟨3, ![4, 256, 1]⟩
abbrev S4x256x256 : Shape := ⟨3, ![4, 256, 256]⟩
abbrev S4x256 : Shape := ⟨2, ![4, 256]⟩
abbrev S1x256x1024 : Shape := ⟨3, ![1, 256, 1024]⟩
abbrev S256x1024 : Shape := ⟨2, ![256, 1024]⟩
abbrev S1x256x1 : Shape := ⟨3, ![1, 256, 1]⟩
abbrev S256x1 : Shape := ⟨2, ![256, 1]⟩

abbrev nBuf : Space → Nat
  | .hbm => 30
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S16384x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S16384x1024, .bf16⟩
  | .hbm, ⟨23, _⟩ => ⟨S16384x1024, .bf16⟩
  | .hbm, ⟨24, _⟩ => ⟨S16384x1024, .bf16⟩
  | .hbm, ⟨25, _⟩ => ⟨S4x4096x1024, .bf16⟩
  | .hbm, ⟨26, _⟩ => ⟨S4x4096x1024, .bf16⟩
  | .hbm, ⟨27, _⟩ => ⟨S4x4096x1024, .bf16⟩
  | .hbm, ⟨28, _⟩ => ⟨S1x1024, .f32⟩
  | .hbm, ⟨29, _⟩ => ⟨S4x4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S4x256x1024, .bf16⟩
  | .local _ .vmem, ⟨15, _⟩ => ⟨S4x256x1024, .bf16⟩
  | .local _ .vmem, ⟨16, _⟩ => ⟨S4x256x1024, .bf16⟩
  | .local _ .vmem, ⟨17, _⟩ => ⟨S4x256x1024, .bf16⟩
  | .local _ .vmem, ⟨18, _⟩ => ⟨S4x256x1024, .bf16⟩
  | .local _ .vmem, ⟨19, _⟩ => ⟨S4x256x1024, .bf16⟩
  | .local _ .vmem, ⟨20, _⟩ => ⟨S1024x1024, .bf16⟩
  | .local _ .vmem, ⟨21, _⟩ => ⟨S1x1024, .f32⟩
  | .local _ .vmem, ⟨22, _⟩ => ⟨S4x256x1024, .f32⟩
  | .local _ .vmem, ⟨23, _⟩ => ⟨S4x256x1024, .f32⟩
  | .local _ .vmem, ⟨24, _⟩ => ⟨S4x256x1, .f32⟩
  | .local _ .vmem, ⟨25, _⟩ => ⟨S4x256x1, .f32⟩
  | .local _ .vmem, ⟨26, _⟩ => ⟨S4x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S4x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S4x4096x1024_S16384x1024 : S4x4096x1024.ShapeCasts S16384x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S16384x1024_S4x4096x1024 : S16384x1024.ShapeCasts S4x4096x1024
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  reduces_S4x256x256_S4x256 : S4x256x256.Reduces [2] S4x256
  shapeCasts_S4x256_S4x256x1 : S4x256.ShapeCasts S4x256x1
  broadcasts_S4x256x1_S4x256x256 : S4x256x1.Broadcasts S4x256x256
  broadcasts_S4x256x1_S4x256x1024 : S4x256x1.Broadcasts S4x256x1024
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  slices_S4x256x1_o0_0_0_S1x256x1 : S4x256x1.Slices ![0, 0, 0] S1x256x1
  shapeCasts_S1x256x1_S256x1 : S1x256x1.ShapeCasts S256x1
  broadcasts_S256x1_S256x1024 : S256x1.Broadcasts S256x1024
  broadcasts_S1x1024_S256x1024 : S1x1024.Broadcasts S256x1024
  shapeCasts_S256x1024_S1x256x1024 : S256x1024.ShapeCasts S1x256x1024
  inb_S4x256x1024_S1x256x1024_1_0_0 : ∀ a, (![1, 0, 0] : Fin 3 → Nat) a + S1x256x1024.size a ≤ S4x256x1024.size a
  slices_S4x256x1_o1_0_0_S1x256x1 : S4x256x1.Slices ![1, 0, 0] S1x256x1
  inb_S4x256x1024_S1x256x1024_2_0_0 : ∀ a, (![2, 0, 0] : Fin 3 → Nat) a + S1x256x1024.size a ≤ S4x256x1024.size a
  slices_S4x256x1_o2_0_0_S1x256x1 : S4x256x1.Slices ![2, 0, 0] S1x256x1
  inb_S4x256x1024_S1x256x1024_3_0_0 : ∀ a, (![3, 0, 0] : Fin 3 → Nat) a + S1x256x1024.size a ≤ S4x256x1024.size a
  slices_S4x256x1_o3_0_0_S1x256x1 : S4x256x1.Slices ![3, 0, 0] S1x256x1
  dot_S512x1024_S1024x1024_S512x1024_1_0_0_1_n_n_wf : DotDims.WF S512x1024 S1024x1024 S512x1024 [1] [0] [0] [1] [] []
  dot_S4x256x1024_S4x256x1024_S4x256x256_2_2_1_1_0_0_wf : DotDims.WF S4x256x1024 S4x256x1024 S4x256x256 [2] [2] [1] [1] [0] [0]
  dot_S4x256x256_S4x256x1024_S4x256x1024_2_1_1_2_0_0_wf : DotDims.WF S4x256x256 S4x256x1024 S4x256x1024 [2] [1] [1] [2] [0] [0]
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .bf16 = 32 ∨ (Rect.block (s := S16384x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .bf16 = 32 ∨ (Rect.block (s := S16384x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S16384x1024.size a
  hwx0_8 : ∀ i : grid0.Coords, EltTy.bits .bf16 = 32 ∨ (Rect.block (s := S16384x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S16384x1024.size a
  hwx0_9 : ∀ i : grid0.Coords, EltTy.bits .bf16 = 32 ∨ (Rect.block (s := S16384x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x1024.size a ≤ S4x4096x1024.size a
  hwx1_0 : ∀ i : grid1.Coords, EltTy.bits .bf16 = 32 ∨ (Rect.block (s := S4x4096x1024) S4x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x256x1024.size a ≤ S4x4096x1024.size a
  hwx1_1 : ∀ i : grid1.Coords, EltTy.bits .bf16 = 32 ∨ (Rect.block (s := S4x4096x1024) S4x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x256x1024.size a ≤ S4x4096x1024.size a
  hwx1_2 : ∀ i : grid1.Coords, EltTy.bits .bf16 = 32 ∨ (Rect.block (s := S4x4096x1024) S4x256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x256x1024.size a ≤ S4x4096x1024.size a
  hwx1_5 : ∀ i : grid1.Coords, EltTy.bits .f32 = 32 ∨ (Rect.block (s := S4x4096x1024) S4x256x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S4x256x1024_S4x256x1024_S4x256x256_2_2_1_1_0_0 : DotDims S4x256x1024 S4x256x1024 S4x256x256 where
  lhsContracting := [2]
  rhsContracting := [2]
  lhsNonContracting := [1]
  rhsNonContracting := [1]
  lhsBatch := [0]
  rhsBatch := [0]
  wf := dot_S4x256x1024_S4x256x1024_S4x256x256_2_2_1_1_0_0_wf
def dot_S4x256x256_S4x256x1024_S4x256x1024_2_1_1_2_0_0 : DotDims S4x256x256 S4x256x1024 S4x256x1024 where
  lhsContracting := [2]
  rhsContracting := [1]
  lhsNonContracting := [1]
  rhsNonContracting := [2]
  lhsBatch := [0]
  rhsBatch := [0]
  wf := dot_S4x256x256_S4x256x1024_S4x256x1024_2_1_1_2_0_0_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S4x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S4x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S4x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x4096x1024, .f32⟩
  | .hbm, ⟨10, _⟩ => ⟨S1x1x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S1x1x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x1024, .f32⟩
  | .hbm, ⟨40, _⟩ => ⟨S4x4096x1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.K.Proj.lean ====
/-
  The projection kernel (the first launch) at the buffer contents `V` it is entered from: at grid point `t` it is
  handed rows 512·t … 512·t+511 of the input matrix and the three weight matrices and bias rows whole, and it stores
  into each of its three result blocks the product of the input rows with one weight matrix plus that bias row.
  Here: each operand's block as a function of `V`, what the three stores leave in the result buffers, the body's
  triple, the per-point bookkeeping of the launch, and the obligation that at every point the body takes the
  buffers from the one state to the other.
-/
import proofs.«125791_j3195455668383_2_alg».proof.Proof.Gen.Kernel.Launch
import proofs.«125791_j3195455668383_2_alg».proof.Proof.Gen.Kernel.Skeleton
import proofs.«125791_j3195455668383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`: the rows (or the whole matrix, or the bias row) the launch hands the body. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input operand 0 is at its block at every point, whether the launch fetched it there or kept it from the point before. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- Input operand 1 is at its block at every point, whether the launch fetched it there or kept it from the point before. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- Input operand 2 is at its block at every point, whether the launch fetched it there or kept it from the point before. -/
theorem projBefore2_of {c : Dev nD} (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)

/-- Input operand 3 is at its block at every point, whether the launch fetched it there or kept it from the point before. -/
theorem projBefore3_of {c : Dev nD} (dat : Dat τ (Elt F) Unit ℕ (UR sig nD τ) ℕ cfg0 c) (hA : dat.A 3 = V c (Pipeline.arrRef spec0 3))
    (hafter : ∀ t, dat.after 3 t = projBlk V c 3 t) (t : Fin cfg0.N) (d) : dat.before 3 t d = projBlk V c 3 t :=
  (dat.before_in_eq_fetched 3 rfl (fun _ => rfl) (fun _ _ _ => rfl) (fun t => by rw [hafter]; unfold Dat.blockOf projBlk; rw [hA]; try rfl) t d).trans
    (by unfold Dat.fetched Dat.blockOf projBlk; rw [hA]; try rfl)

/-- Input operand 4 is at its block at every point, whether the launch fetched it there or kept it from the point before. -/
theorem projBefore4_of {c : Dev nD} (dat : Dat τ (Elt F) Unit ℕ (UR sig nD τ) ℕ cfg0 c) (hA : dat.A 4 = V c (Pipeline.arrRef spec0 4))
    (hafter : ∀ t, dat.after 4 t = projBlk V c 4 t) (t : Fin cfg0.N) (d) : dat.before 4 t d = projBlk V c 4 t :=
  (dat.before_in_eq_fetched 4 rfl (fun _ => rfl) (fun _ _ _ => rfl) (fun t => by rw [hafter]; unfold Dat.blockOf projBlk; rw [hA]; try rfl) t d).trans
    (by unfold Dat.fetched Dat.blockOf projBlk; rw [hA]; try rfl)

/-- Input operand 5 is at its block at every point, whether the launch fetched it there or kept it from the point before. -/
theorem projBefore5_of {c : Dev nD} (dat : Dat τ (Elt F) Unit ℕ (UR sig nD τ) ℕ cfg0 c) (hA : dat.A 5 = V c (Pipeline.arrRef spec0 5))
    (hafter : ∀ t, dat.after 5 t = projBlk V c 5 t) (t : Fin cfg0.N) (d) : dat.before 5 t d = projBlk V c 5 t :=
  (dat.before_in_eq_fetched 5 rfl (fun _ => rfl) (fun _ _ _ => rfl) (fun t => by rw [hafter]; unfold Dat.blockOf projBlk; rw [hA]; try rfl) t d).trans
    (by unfold Dat.fetched Dat.blockOf projBlk; rw [hA]; try rfl)

/-- Input operand 6 is at its block at every point, whether the launch fetched it there or kept it from the point before. -/
theorem projBefore6_of {c : Dev nD} (dat : Dat τ (Elt F) Unit ℕ (UR sig nD τ) ℕ cfg0 c) (hA : dat.A 6 = V c (Pipeline.arrRef spec0 6))
    (hafter : ∀ t, dat.after 6 t = projBlk V c 6 t) (t : Fin cfg0.N) (d) : dat.before 6 t d = projBlk V c 6 t :=
  (dat.before_in_eq_fetched 6 rfl (fun _ => rfl) (fun _ _ _ => rfl) (fun t => by rw [hafter]; unfold Dat.blockOf projBlk; rw [hA]; try rfl) t d).trans
    (by unfold Dat.fetched Dat.blockOf projBlk; rw [hA]; try rfl)

/-- The whole-buffer rectangles the body loads and stores through. -/
abbrev rRows : Rect S512x1024 := Rect.unit (s := S512x1024) ![0, 0] S512x1024.size inb_S512x1024_S512x1024_0_0
abbrev rMat : Rect S1024x1024 := Rect.unit (s := S1024x1024) ![0, 0] S1024x1024.size inb_S1024x1024_S1024x1024_0_0
abbrev rBias : Rect S1x1024 := Rect.unit (s := S1x1024) ![0, 0] S1x1024.size inb_S1x1024_S1x1024_0_0

/-- What the body leaves in the three result buffers: rows·Wq + bq, rows·Wk + bk, rows·Wv + bv, each one whole store. -/
def projOutQ (x0 : Vec F S512x1024 .bf16) (x1 : Vec F S1024x1024 .bf16) (x4 : Vec F S1x1024 .f32) : Vec F S512x1024 .bf16 :=
  View.canon [⟨rRows, k0_pay2 (View.ld x0 rRows) (View.ld x1 rMat) (View.ld x4 rBias)⟩]
def projOutK (x0 : Vec F S512x1024 .bf16) (x2 : Vec F S1024x1024 .bf16) (x5 : Vec F S1x1024 .f32) : Vec F S512x1024 .bf16 :=
  View.canon [⟨rRows, k0_pay3 (View.ld x0 rRows) (View.ld x2 rMat) (View.ld x5 rBias)⟩]
def projOutV (x0 : Vec F S512x1024 .bf16) (x3 : Vec F S1024x1024 .bf16) (x6 : Vec F S1x1024 .f32) : Vec F S512x1024 .bf16 :=
  View.canon [⟨rRows, k0_pay4 (View.ld x0 rRows) (View.ld x3 rMat) (View.ld x6 rBias)⟩]

/-- One whole store covers the buffer. -/
theorem projCover (p0 : Vec F S512x1024 .bf16) (y : S512x1024.Idx) :
    ∃ pc ∈ ([⟨rRows, p0⟩] : List (View.Piece (Elt F) S512x1024 .bf16)), y ∈ pc.1.set :=
  View.cover_of_tiled [⟨rRows, p0⟩] S512x1024.size (by rfl) y

set_option maxHeartbeats 4000000 in
/-- The body on whole buffers, the seven inputs at their contents and the three results at anything, runs to its
    return with the inputs as they were and the results at the three products. -/
theorem projKernel (c : Dev nD) (E : Set ℕ) (i : grid0.Coords)
    (a1 : Memref sig .tc .vmem S512x1024 .bf16) (h1 : a1.IsWhole) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1x1024 .f32) (h6 : a6.IsWhole)
    (a7 : Memref sig .tc .vmem S1x1024 .f32) (h7 : a7.IsWhole) (a8 : Memref sig .tc .vmem S512x1024 .bf16) (h8 : a8.IsWhole)
    (a9 : Memref sig .tc .vmem S512x1024 .bf16) (h9 : a9.IsWhole) (a10 : Memref sig .tc .vmem S512x1024 .bf16) (h10 : a10.IsWhole)
    (x0 : Vec F S512x1024 .bf16) (x1 x2 x3 : Vec F S1024x1024 .bf16) (x4 x5 x6 : Vec F S1x1024 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
        ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6
            ∗ owns (c : Thread nD τ) a8 fullShare (projOutQ x0 x1 x4) ∗ owns (c : Thread nD τ) a9 fullShare (projOutK x0 x2 x5)
            ∗ owns (c : Thread nD τ) a10 fullShare (projOutV x0 x3 x6)) -∗ K ⟨⟩))
      ⊢ wp frame (wpE (defs₀ (F := F)) Variants.none c none) E (cc0__qkv_kernel i a1 h1 a2 h2 a3 h3 a4 h4 a5 h5 a6 h6 a7 h7 a8 h8 a9 h9 a10 h10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (projCover _)
  isplitl [H8]
  · iexists _; isplitr
    swap; · iexact H8
    ipureintro
    exact View.read_writes_eq_canon _ _ _ (projCover _)
  iexists _; isplitr
  swap; · iexact H9
  ipureintro
  exact View.read_writes_eq_canon _ _ _ (projCover _)

/-- The launch's bookkeeping on core `c`: the ten arrays as the launch finds them; after the body at point `t` every
    input buffer at its block and the three result buffers at the three products of the point's blocks; between points
    nothing of the kernel's own is kept; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projBlk V c 3 t
    | ⟨4, _⟩ => projBlk V c 4 t
    | ⟨5, _⟩ => projBlk V c 5 t
    | ⟨6, _⟩ => projBlk V c 6 t
    | ⟨7, _⟩ => projOutQ (projBlk V c 0 t) (projBlk V c 1 t) (projBlk V c 4 t)
    | ⟨8, _⟩ => projOutK (projBlk V c 0 t) (projBlk V c 2 t) (projBlk V c 5 t)
    | ⟨9, _⟩ => projOutV (projBlk V c 0 t) (projBlk V c 3 t) (projBlk V c 6 t)
  Φ _ := Pipeline.ΦA spec0 c
  q _ := fullShare
  owed _ := 0

theorem projA_eq (c : Dev nD) (w : Fin cfg0.W) : (projDat V c).A w = V c (Pipeline.arrRef spec0 w) := by
  dsimp only [projDat]

theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projBlk V c 2 t := by dsimp only [projDat]
theorem projAfter3 (c : Dev nD) (t : Fin cfg0.N) : (projDat V c).after 3 t = projBlk V c 3 t := by dsimp only [projDat]
theorem projAfter4 (c : Dev nD) (t : Fin cfg0.N) : (projDat V c).after 4 t = projBlk V c 4 t := by dsimp only [projDat]
theorem projAfter5 (c : Dev nD) (t : Fin cfg0.N) : (projDat V c).after 5 t = projBlk V c 5 t := by dsimp only [projDat]
theorem projAfter6 (c : Dev nD) (t : Fin cfg0.N) : (projDat V c).after 6 t = projBlk V c 6 t := by dsimp only [projDat]
theorem projAfter7 (c : Dev nD) (t : Fin cfg0.N) : (projDat V c).after 7 t = projOutQ (projBlk V c 0 t) (projBlk V c 1 t) (projBlk V c 4 t) := by dsimp only [projDat]
theorem projAfter8 (c : Dev nD) (t : Fin cfg0.N) : (projDat V c).after 8 t = projOutK (projBlk V c 0 t) (projBlk V c 2 t) (projBlk V c 5 t) := by dsimp only [projDat]
theorem projAfter9 (c : Dev nD) (t : Fin cfg0.N) : (projDat V c).after 9 t = projOutV (projBlk V c 0 t) (projBlk V c 3 t) (projBlk V c 6 t) := by dsimp only [projDat]

theorem projBefore0 (c : Dev nD) (t : Fin cfg0.N) (d) : (projDat V c).before 0 t d = projBlk V c 0 t :=
  projBefore0_of V (projDat V c) (projA_eq V c 0) (projAfter0 V c) t d
theorem projBefore1 (c : Dev nD) (t : Fin cfg0.N) (d) : (projDat V c).before 1 t d = projBlk V c 1 t :=
  projBefore1_of V (projDat V c) (projA_eq V c 1) (projAfter1 V c) t d
theorem projBefore2 (c : Dev nD) (t : Fin cfg0.N) (d) : (projDat V c).before 2 t d = projBlk V c 2 t :=
  projBefore2_of V (projDat V c) (projA_eq V c 2) (projAfter2 V c) t d
theorem projBefore3 (c : Dev nD) (t : Fin cfg0.N) (d) : (projDat V c).before 3 t d = projBlk V c 3 t :=
  projBefore3_of V (projDat V c) (projA_eq V c 3) (projAfter3 V c) t d
theorem projBefore4 (c : Dev nD) (t : Fin cfg0.N) (d) : (projDat V c).before 4 t d = projBlk V c 4 t :=
  projBefore4_of V (projDat V c) (projA_eq V c 4) (projAfter4 V c) t d
theorem projBefore5 (c : Dev nD) (t : Fin cfg0.N) (d) : (projDat V c).before 5 t d = projBlk V c 5 t :=
  projBefore5_of V (projDat V c) (projA_eq V c 5) (projAfter5 V c) t d
theorem projBefore6 (c : Dev nD) (t : Fin cfg0.N) (d) : (projDat V c).before 6 t d = projBlk V c 6 t :=
  projBefore6_of V (projDat V c) (projA_eq V c 6) (projAfter6 V c) t d

/-- What the body is called with at point `t`, the operands one by one, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d))
    ∗ (∃ d, owns (c : Thread nD τ) (st0_4 t) fullShare ((projDat V c).before 4 t d))
    ∗ (∃ d, owns (c : Thread nD τ) (st0_5 t) fullShare ((projDat V c).before 5 t d))
    ∗ (∃ d, owns (c : Thread nD τ) (st0_6 t) fullShare ((projDat V c).before 6 t d))
    ∗ (∃ d, owns (c : Thread nD τ) (st0_7 t) fullShare ((projDat V c).before 7 t d))
    ∗ (∃ d, owns (c : Thread nD τ) (st0_8 t) fullShare ((projDat V c).before 8 t d))
    ∗ (∃ d, owns (c : Thread nD τ) (st0_9 t) fullShare ((projDat V c).before 9 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t)
    ∗ owns (c : Thread nD τ) (st0_4 t) fullShare ((projDat V c).after 4 t)
    ∗ owns (c : Thread nD τ) (st0_5 t) fullShare ((projDat V c).after 5 t)
    ∗ owns (c : Thread nD τ) (st0_6 t) fullShare ((projDat V c).after 6 t)
    ∗ owns (c : Thread nD τ) (st0_7 t) fullShare ((projDat V c).after 7 t)
    ∗ owns (c : Thread nD τ) (st0_8 t) fullShare ((projDat V c).after 8 t)
    ∗ owns (c : Thread nD τ) (st0_9 t) fullShare ((projDat V c).after 9 t))

/-- The body at any point: the inputs hold their blocks, so the triple applies; what is kept between points and the
    core's dues pass through unread. -/
theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1, projBefore2, projBefore3, projBefore4, projBefore5, projBefore6]
  rw [show (projDat V c).Φ t.succ = (projDat V c).Φ t.castSucc from rfl,
    show (projDat V c).owesAt () t.succ = (projDat V c).owesAt () t.castSucc from rfl,
    projAfter0, projAfter1, projAfter2, projAfter3, projAfter4, projAfter5, projAfter6, projAfter7, projAfter8, projAfter9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (projKernel c Set.univ _ _ _ _ _ _ _ _ _ _ _ _ _ _ _ _ _ _ _ _ _ (projBlk V c 0 t) (projBlk V c 1 t) (projBlk V c 2 t) (projBlk V c 3 t) (projBlk V c 4 t) (projBlk V c 5 t) (projBlk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the launch theorem asks for, at every point. -/
theorem projObligation (c : Dev nD) : BodyObligation (projDat (F := F) V c) (defs₀ (F := F)) Variants.none () Set.univ := fun t => by
  rw [bigSep_W0, bigSep_W0]
  exact projBody V c t

end Cert.Kernel.Gen

end
-- ==== Proof.K.AttnBase.lean ====
/-
  The attention kernel (the second launch): what its three control cases are stated over. Its grid is 16 query
  blocks by 16 key blocks, walked key block fastest; at the first key block of a query block the running maximum,
  the running sum and the running weighted sum are reset, at every key block they are updated, and at the last key
  block the weighted sum is divided by the sum, projected and stored. Here: the two branch conditions in closed
  form over the grid, where the result window is idle, the buffers the body is called with, and each input
  operand's block as a function of the contents the launch is entered from.
-/
import proofs.«125791_j3195455668383_2_alg».proof.Proof.Gen.Kernel.Launch
import proofs.«125791_j3195455668383_2_alg».proof.Proof.Gen.Kernel.Skeleton
import proofs.«125791_j3195455668383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first key block": the body's first conditional, from the grid coordinates. -/
abbrev isFirstKey (i : grid1.Coords) : Prop := (Scalar.cmpi .ne (Scalar.extui (Scalar.cmpi .eq (BitVec.ofNat 32 (i 1).val) 0#32)) 0#32) = 1#1
/-- It holds at the points ≡ 0 (mod 16). -/
theorem isFirstKey_iff : ∀ t : Fin cfg1.N, isFirstKey (grid1.coords t) ↔ t.val % 16 = 0 :=
  (by decide +kernel : ∀ t : Fin grid1.N, isFirstKey (grid1.coords t) ↔ t.val % 16 = 0)

/-- "This is the last key block": the body's second conditional. -/
abbrev isLastKey (i : grid1.Coords) : Prop := k1_cond2 i = 1#1
/-- It holds at the points ≡ 15 (mod 16). -/
theorem isLastKey_iff : ∀ t : Fin cfg1.N, isLastKey (grid1.coords t) ↔ t.val % 16 = 15 :=
  (by decide +kernel : ∀ t : Fin grid1.N, isLastKey (grid1.coords t) ↔ t.val % 16 = 15)

/-! ## Where the windows are idle -/

theorem attnLive0 : ∀ t : Fin cfg1.N, cfg1.idle 0 (grid1.coords t) = false := by decide +kernel
theorem attnLive1 : ∀ t : Fin cfg1.N, cfg1.idle 1 (grid1.coords t) = false := by decide +kernel
theorem attnLive2 : ∀ t : Fin cfg1.N, cfg1.idle 2 (grid1.coords t) = false := by decide +kernel
theorem attnLive3 : ∀ t : Fin cfg1.N, cfg1.idle 3 (grid1.coords t) = false := by decide +kernel
theorem attnLive4 : ∀ t : Fin cfg1.N, cfg1.idle 4 (grid1.coords t) = false := by decide +kernel
/-- Away from the last key block the result window is idle and is not written back. -/
theorem attnIdleOut : ∀ t : Fin cfg1.N, ¬isLastKey (grid1.coords t) → cfg1.idle 5 (grid1.coords t) = true := by decide +kernel
theorem attnNoFlushOut : ∀ t : Fin cfg1.N, ¬isLastKey (grid1.coords t) → (cfg1.win 5).flush t = false := by decide +kernel
/-- At the last key block it is live. -/
theorem attnLiveOut : ∀ t : Fin cfg1.N, isLastKey (grid1.coords t) → cfg1.idle 5 (grid1.coords t) = false := by decide +kernel

/-! ## The buffers the body is called with -/

abbrev aq (t : Fin cfg1.N) : Memref sig .tc .vmem S4x256x1024 .bf16 := win1_0.stage (cfg1.slots t 0)
abbrev haq (t : Fin cfg1.N) : (aq t).IsWhole := hstage1_0 ((cfg1.slots t 0).cast nbuf1_0)
abbrev ak (t : Fin cfg1.N) : Memref sig .tc .vmem S4x256x1024 .bf16 := win1_1.stage (cfg1.slots t 1)
abbrev hak (t : Fin cfg1.N) : (ak t).IsWhole := hstage1_1 ((cfg1.slots t 1).cast nbuf1_1)
abbrev av (t : Fin cfg1.N) : Memref sig .tc .vmem S4x256x1024 .bf16 := win1_2.stage (cfg1.slots t 2)
abbrev hav (t : Fin cfg1.N) : (av t).IsWhole := hstage1_2 ((cfg1.slots t 2).cast nbuf1_2)
abbrev awo (t : Fin cfg1.N) : Memref sig .tc .vmem S1024x1024 .bf16 := win1_3.stage (cfg1.slots t 3)
abbrev hawo (t : Fin cfg1.N) : (awo t).IsWhole := hstage1_3 ((cfg1.slots t 3).cast nbuf1_3)
abbrev abo (t : Fin cfg1.N) : Memref sig .tc .vmem S1x1024 .f32 := win1_4.stage (cfg1.slots t 4)
abbrev habo (t : Fin cfg1.N) : (abo t).IsWhole := hstage1_4 ((cfg1.slots t 4).cast nbuf1_4)
abbrev aout (t : Fin cfg1.N) : Memref sig .tc .vmem S4x256x1024 .f32 := win1_5.stage (cfg1.slots t 5)
abbrev haout (t : Fin cfg1.N) : (aout t).IsWhole := hstage1_5 ((cfg1.slots t 5).cast nbuf1_5)
/-- The three buffers the kernel keeps between points: running maximum, running sum, running weighted sum. -/
abbrev runMax : Memref sig .tc .vmem S4x256x1 .f32 := Memref.whole cc1_scratch0
abbrev runSum : Memref sig .tc .vmem S4x256x1 .f32 := Memref.whole cc1_scratch1
abbrev runAcc : Memref sig .tc .vmem S4x256x1024 .f32 := Memref.whole cc1_scratch2
/-- As views: what they hold is stated through them. -/
abbrev vMax : View sig .tc .vmem S4x256x1 .f32 := runMax.view
abbrev vSum : View sig .tc .vmem S4x256x1 .f32 := runSum.view
abbrev vAcc : View sig .tc .vmem S4x256x1024 .f32 := runAcc.view
/-- One buffer of the result window, through which its contents are stated. -/
abbrev vOut : View sig .tc .vmem S4x256x1024 .f32 := (Memref.whole cc1_stg5_0 : Memref sig .tc .vmem S4x256x1024 .f32).view

/-- What the launch hands the kernel beside its windows: the other launch's staging buffers at anything, the three
    kept buffers at anything, the generator register at some state. -/
theorem attnRest_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) runMax fullShare d) ∗ (∃ d, owns (c : Thread nD τ) runSum fullShare d) ∗ (∃ d, owns (c : Thread nD τ) runAcc fullShare d)) ∗ (∃ r, prngReg c r)) := by
  unfold Pipeline.ΦA; rw [scopedRest1_eq]; simp only [runMax, runSum, runAcc, owns_whole]; try rfl

/-! ## The input operands' blocks -/

variable (V : (c : Dev nD) → (b : Ref sig .tc) → Buf (Elt F) ((c : Thread nD τ).loc b))

/-- Operand `w`'s block at grid point `t`, read off its array as the launch finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

theorem attnBefore3_of {c : Dev nD} (dat : Dat τ (Elt F) Unit ℕ (UR sig nD τ) ℕ cfg1 c) (hA : dat.A 3 = V c (Pipeline.arrRef spec1 3))
    (hafter : ∀ t, dat.after 3 t = attnBlk V c 3 t) (t : Fin cfg1.N) (d) : dat.before 3 t d = attnBlk V c 3 t :=
  (dat.before_in_eq_fetched 3 rfl (fun _ => rfl) (fun _ _ _ => rfl) (fun t => by rw [hafter]; unfold Dat.blockOf attnBlk; rw [hA]; try rfl) t d).trans
    (by unfold Dat.fetched Dat.blockOf attnBlk; rw [hA]; try rfl)

theorem attnBefore4_of {c : Dev nD} (dat : Dat τ (Elt F) Unit ℕ (UR sig nD τ) ℕ cfg1 c) (hA : dat.A 4 = V c (Pipeline.arrRef spec1 4))
    (hafter : ∀ t, dat.after 4 t = attnBlk V c 4 t) (t : Fin cfg1.N) (d) : dat.before 4 t d = attnBlk V c 4 t :=
  (dat.before_in_eq_fetched 4 rfl (fun _ => rfl) (fun _ _ _ => rfl) (fun t => by rw [hafter]; unfold Dat.blockOf attnBlk; rw [hA]; try rfl) t d).trans
    (by unfold Dat.fetched Dat.blockOf attnBlk; rw [hA]; try rfl)

end Cert.Kernel.Gen

end
-- ==== Proof.K.AttnRunFirst.lean ====
/-
  The attention kernel's body at the first key block of a query block (the three kept buffers reset, then updated; nothing stored into the result window): its triple, with the pieces each written buffer ends with found by running it.
-/
import proofs.«125791_j3195455668383_2_alg».proof.Proof.K.AttnBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the five inputs at their contents, the result window's buffer at contents handed back untouched, the three kept
    buffers at anything — the body runs to its return with the inputs as they were and every buffer it stored into
    holding its stores, listed last first. -/
noncomputable def attnRunFirst (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : isFirstKey i) (hc1 : ¬isLastKey i)
    (x0 x1 x2 : Vec F S4x256x1024 .bf16) (x3 : Vec F S1024x1024 .bf16) (x4 : Vec F S1x1024 .f32) :
    Σ' (LS0 : List (View.Piece (Elt F) S4x256x1 .f32)) (LS1 : List (View.Piece (Elt F) S4x256x1 .f32)), { LS2 : List (View.Piece (Elt F) S4x256x1024 .f32) //
      ∀ (xi5 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_out_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__flash_out_kernel_eq_skeleton]; unfold cc1__flash_out_kernel_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Gen

end
-- ==== Proof.K.AttnRunMid.lean ====
/-
  The attention kernel's body at a key block that is neither first nor last (the three kept buffers updated from what the point before left; nothing stored into the result window): its triple, with the pieces each written buffer ends with found by running it.
-/
import proofs.«125791_j3195455668383_2_alg».proof.Proof.K.AttnRunFirst

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the five inputs at their contents, the result window's buffer at contents handed back untouched, the three kept
    buffers at what the point before left — the body runs to its return with the inputs as they were and every buffer it stored into
    holding its stores, listed last first. -/
noncomputable def attnRunMid (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬isFirstKey i) (hc1 : ¬isLastKey i)
    (x0 x1 x2 : Vec F S4x256x1024 .bf16) (x3 : Vec F S1024x1024 .bf16) (x4 : Vec F S1x1024 .f32) (xs0 xs1 : Vec F S4x256x1 .f32) (xs2 : Vec F S4x256x1024 .f32) :
    Σ' (LS0 : List (View.Piece (Elt F) S4x256x1 .f32)) (LS1 : List (View.Piece (Elt F) S4x256x1 .f32)), { LS2 : List (View.Piece (Elt F) S4x256x1024 .f32) //
      ∀ (xi5 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_out_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__flash_out_kernel_eq_skeleton]; unfold cc1__flash_out_kernel_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Gen

end
-- ==== Proof.K.AttnRunLast.lean ====
/-
  The attention kernel's body at the last key block (the three kept buffers updated, then the weighted sum divided by the sum, projected and stored into the result window in four slabs): its triple, with the pieces each written buffer ends with found by running it.
-/
import proofs.«125791_j3195455668383_2_alg».proof.Proof.K.AttnRunMid

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the five inputs at their contents, the result window's buffer at anything, the three kept
    buffers at what the point before left — the body runs to its return with the inputs as they were and every buffer it stored into
    holding its stores, listed last first. -/
noncomputable def attnRunLast (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬isFirstKey i) (hc1 : isLastKey i)
    (x0 x1 x2 : Vec F S4x256x1024 .bf16) (x3 : Vec F S1024x1024 .bf16) (x4 : Vec F S1x1024 .f32) (xs0 xs1 : Vec F S4x256x1 .f32) (xs2 : Vec F S4x256x1024 .f32) :
    Σ' (L5 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_out_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__flash_out_kernel_eq_skeleton]; unfold cc1__flash_out_kernel_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Gen

end
-- ==== Proof.K.Attn.lean ====
/-
  The attention kernel (the second launch) at the buffer contents `V` it is entered from. What the running maximum,
  running sum and running weighted sum hold after each grid point is a recursion on the point: at a first key
  block they are what the reset-and-update leaves, at any other key block what the update leaves of what the point
  before left. Between points the kernel keeps exactly these three buffers at those contents. The result window
  holds the projected quotient after a last key block and is idle elsewhere. Here: that recursion, the state kept
  between points, the launch's bookkeeping, and the obligation that at every point the body takes the one state
  to the next.
-/
import proofs.«125791_j3195455668383_2_alg».proof.Proof.K.AttnRunLast

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the three kept buffers hold: running maximum, running sum, running weighted sum. -/
abbrev Kept (F : FTy → Type) [FloatOps F] : Type := Vec F S4x256x1 .f32 × Vec F S4x256x1 .f32 × Vec F S4x256x1024 .f32

/-! ## The body's run at a grid point, case by case -/

noncomputable def runFirstAt (c : Dev nD) (t : Fin cfg1.N) (h0 : t.val % 16 = 0) (x0 x1 x2 : Vec F S4x256x1024 .bf16) (x3 : Vec F S1024x1024 .bf16) (x4 : Vec F S1x1024 .f32) :=
  attnRunFirst (F := F) c (grid1.coords t) (aq t) (haq t) (ak t) (hak t) (av t) (hav t) (awo t) (hawo t) (abo t) (habo t) (aout t) (haout t) runMax (Memref.isWhole_whole _) runSum (Memref.isWhole_whole _) runAcc (Memref.isWhole_whole _) ((isFirstKey_iff t).mpr h0) (fun h => absurd ((isLastKey_iff t).mp h) (by omega)) x0 x1 x2 x3 x4

noncomputable def runMidAt (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) :=
  attnRunMid (F := F) c (grid1.coords t) (aq t) (haq t) (ak t) (hak t) (av t) (hav t) (awo t) (hawo t) (abo t) (habo t) (aout t) (haout t) runMax (Memref.isWhole_whole _) runSum (Memref.isWhole_whole _) runAcc (Memref.isWhole_whole _) (fun h => h0 ((isFirstKey_iff t).mp h)) (fun h => h1 ((isLastKey_iff t).mp h)) x0 x1 x2 x3 x4 xs.1 xs.2.1 xs.2.2

noncomputable def runLastAt (c : Dev nD) (t : Fin cfg1.N) (h1 : t.val % 16 = 15) (x0 x1 x2 : Vec F S4x256x1024 .bf16) (x3 : Vec F S1024x1024 .bf16) (x4 : Vec F S1x1024 .f32) (xs : Kept F) :=
  attnRunLast (F := F) c (grid1.coords t) (aq t) (haq t) (ak t) (hak t) (av t) (hav t) (awo t) (hawo t) (abo t) (habo t) (aout t) (haout t) runMax (Memref.isWhole_whole _) runSum (Memref.isWhole_whole _) runAcc (Memref.isWhole_whole _) (fun h => absurd ((isFirstKey_iff t).mp h) (by omega)) ((isLastKey_iff t).mpr h1) x0 x1 x2 x3 x4 xs.1 xs.2.1 xs.2.2

/-- What a first key block leaves in the three kept buffers. -/
def keptFirst (c : Dev nD) (t : Fin cfg1.N) (h0 : t.val % 16 = 0) (x0 x1 x2 : Vec F S4x256x1024 .bf16) (x3 : Vec F S1024x1024 .bf16) (x4 : Vec F S1x1024 .f32) : Kept F :=
  (vMax.read (Elt F) (vMax.writes (Elt F) vMax.junk (runFirstAt c t h0 x0 x1 x2 x3 x4).1),
   vSum.read (Elt F) (vSum.writes (Elt F) vSum.junk (runFirstAt c t h0 x0 x1 x2 x3 x4).2.1),
   vAcc.read (Elt F) (vAcc.writes (Elt F) vAcc.junk (runFirstAt c t h0 x0 x1 x2 x3 x4).2.2.1))
/-- What a middle key block leaves in them, of what the point before left. -/
def keptMid (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) : Kept F :=
  (vMax.read (Elt F) (vMax.writes (Elt F) vMax.junk (runMidAt c t h0 h1 x0 x1 x2 x3 x4 xs).1),
   vSum.read (Elt F) (vSum.writes (Elt F) vSum.junk (runMidAt c t h0 h1 x0 x1 x2 x3 x4 xs).2.1),
   vAcc.read (Elt F) (vAcc.writes (Elt F) vAcc.junk (runMidAt c t h0 h1 x0 x1 x2 x3 x4 xs).2.2.1))
/-- What a last key block leaves in them, -/
def keptLast (c : Dev nD) (t : Fin cfg1.N) (h1 : t.val % 16 = 15) (x0 x1 x2 : Vec F S4x256x1024 .bf16) (x3 : Vec F S1024x1024 .bf16) (x4 : Vec F S1x1024 .f32) (xs : Kept F) : Kept F :=
  (vMax.read (Elt F) (vMax.writes (Elt F) vMax.junk (runLastAt c t h1 x0 x1 x2 x3 x4 xs).2.1),
   vSum.read (Elt F) (vSum.writes (Elt F) vSum.junk (runLastAt c t h1 x0 x1 x2 x3 x4 xs).2.2.1),
   vAcc.read (Elt F) (vAcc.writes (Elt F) vAcc.junk (runLastAt c t h1 x0 x1 x2 x3 x4 xs).2.2.2.1))
/-- and in the result window's buffer. -/
def outLast (c : Dev nD) (t : Fin cfg1.N) (h1 : t.val % 16 = 15) (x0 x1 x2 : Vec F S4x256x1024 .bf16) (x3 : Vec F S1024x1024 .bf16) (x4 : Vec F S1x1024 .f32) (xs : Kept F) : Vec F S4x256x1024 .f32 :=
  vOut.read (Elt F) (vOut.writes (Elt F) vOut.junk (runLastAt c t h1 x0 x1 x2 x3 x4 xs).1)

/-! ## Every written buffer is covered by its stores -/

theorem coverMaxFirst (c : Dev nD) (t : Fin cfg1.N) (h0 : t.val % 16 = 0) (x0 x1 x2 : Vec F S4x256x1024 .bf16) (x3 : Vec F S1024x1024 .bf16) (x4 : Vec F S1x1024 .f32) (y : S4x256x1.Idx) :
    ∃ pc ∈ (runFirstAt c t h0 x0 x1 x2 x3 x4).1, y ∈ pc.1.set :=
  View.cover_of_tiledL (runFirstAt c t h0 x0 x1 x2 x3 x4).1 S4x256x1.size (by sl_kernel_rfl) y
theorem coverSumFirst (c : Dev nD) (t : Fin cfg1.N) (h0 : t.val % 16 = 0) (x0 x1 x2 : Vec F S4x256x1024 .bf16) (x3 : Vec F S1024x1024 .bf16) (x4 : Vec F S1x1024 .f32) (y : S4x256x1.Idx) :
    ∃ pc ∈ (runFirstAt c t h0 x0 x1 x2 x3 x4).2.1, y ∈ pc.1.set :=
  View.cover_of_tiledL (runFirstAt c t h0 x0 x1 x2 x3 x4).2.1 S4x256x1.size (by sl_kernel_rfl) y
theorem coverAccFirst (c : Dev nD) (t : Fin cfg1.N) (h0 : t.val % 16 = 0) (x0 x1 x2 : Vec F S4x256x1024 .bf16) (x3 : Vec F S1024x1024 .bf16) (x4 : Vec F S1x1024 .f32) (y : S4x256x1024.Idx) :
    ∃ pc ∈ (runFirstAt c t h0 x0 x1 x2 x3 x4).2.2.1, y ∈ pc.1.set :=
  View.cover_of_tiledL (runFirstAt c t h0 x0 x1 x2 x3 x4).2.2.1 S4x256x1024.size (by sl_kernel_rfl) y
theorem coverMaxMid (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) (y : S4x256x1.Idx) :
    ∃ pc ∈ (runMidAt c t h0 h1 x0 x1 x2 x3 x4 xs).1, y ∈ pc.1.set :=
  View.cover_of_tiledL (runMidAt c t h0 h1 x0 x1 x2 x3 x4 xs).1 S4x256x1.size (by sl_kernel_rfl) y
theorem coverSumMid (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) (y : S4x256x1.Idx) :
    ∃ pc ∈ (runMidAt c t h0 h1 x0 x1 x2 x3 x4 xs).2.1, y ∈ pc.1.set :=
  View.cover_of_tiledL (runMidAt c t h0 h1 x0 x1 x2 x3 x4 xs).2.1 S4x256x1.size (by sl_kernel_rfl) y
theorem coverAccMid (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) (y : S4x256x1024.Idx) :
    ∃ pc ∈ (runMidAt c t h0 h1 x0 x1 x2 x3 x4 xs).2.2.1, y ∈ pc.1.set :=
  View.cover_of_tiledL (runMidAt c t h0 h1 x0 x1 x2 x3 x4 xs).2.2.1 S4x256x1024.size (by sl_kernel_rfl) y
theorem coverOutLast (c : Dev nD) (t : Fin cfg1.N) (h1 : t.val % 16 = 15) (x0 x1 x2 : Vec F S4x256x1024 .bf16) (x3 : Vec F S1024x1024 .bf16) (x4 : Vec F S1x1024 .f32) (xs : Kept F) (y : S4x256x1024.Idx) :
    ∃ pc ∈ (runLastAt c t h1 x0 x1 x2 x3 x4 xs).1, y ∈ pc.1.set :=
  View.cover_of_tiledL (runLastAt c t h1 x0 x1 x2 x3 x4 xs).1 S1x256x1024.size (by sl_kernel_rfl) y
theorem coverMaxLast (c : Dev nD) (t : Fin cfg1.N) (h1 : t.val % 16 = 15) (x0 x1 x2 : Vec F S4x256x1024 .bf16) (x3 : Vec F S1024x1024 .bf16) (x4 : Vec F S1x1024 .f32) (xs : Kept F) (y : S4x256x1.Idx) :
    ∃ pc ∈ (runLastAt c t h1 x0 x1 x2 x3 x4 xs).2.1, y ∈ pc.1.set :=
  View.cover_of_tiledL (runLastAt c t h1 x0 x1 x2 x3 x4 xs).2.1 S4x256x1.size (by sl_kernel_rfl) y
theorem coverSumLast (c : Dev nD) (t : Fin cfg1.N) (h1 : t.val % 16 = 15) (x0 x1 x2 : Vec F S4x256x1024 .bf16) (x3 : Vec F S1024x1024 .bf16) (x4 : Vec F S1x1024 .f32) (xs : Kept F) (y : S4x256x1.Idx) :
    ∃ pc ∈ (runLastAt c t h1 x0 x1 x2 x3 x4 xs).2.2.1, y ∈ pc.1.set :=
  View.cover_of_tiledL (runLastAt c t h1 x0 x1 x2 x3 x4 xs).2.2.1 S4x256x1.size (by sl_kernel_rfl) y
theorem coverAccLast (c : Dev nD) (t : Fin cfg1.N) (h1 : t.val % 16 = 15) (x0 x1 x2 : Vec F S4x256x1024 .bf16) (x3 : Vec F S1024x1024 .bf16) (x4 : Vec F S1x1024 .f32) (xs : Kept F) (y : S4x256x1024.Idx) :
    ∃ pc ∈ (runLastAt c t h1 x0 x1 x2 x3 x4 xs).2.2.2.1, y ∈ pc.1.set :=
  View.cover_of_tiledL (runLastAt c t h1 x0 x1 x2 x3 x4 xs).2.2.2.1 S4x256x1024.size (by sl_kernel_rfl) y

/-! ## What the kept buffers hold after each point -/

/-- The recursion: after point `n` the three kept buffers hold what that point's case leaves, a key block other
    than the first starting from what point `n - 1` left. -/
def keptAt (c : Dev nD) : (n : ℕ) → n < cfg1.N → Kept F
  | 0, hn => keptFirst c ⟨0, hn⟩ (Nat.zero_mod _) (attnBlk V c 0 ⟨0, hn⟩) (attnBlk V c 1 ⟨0, hn⟩) (attnBlk V c 2 ⟨0, hn⟩) (attnBlk V c 3 ⟨0, hn⟩) (attnBlk V c 4 ⟨0, hn⟩)
  | n + 1, hn =>
    if h0 : (n + 1) % 16 = 0 then
      keptFirst c ⟨n + 1, hn⟩ h0 (attnBlk V c 0 ⟨n + 1, hn⟩) (attnBlk V c 1 ⟨n + 1, hn⟩) (attnBlk V c 2 ⟨n + 1, hn⟩) (attnBlk V c 3 ⟨n + 1, hn⟩) (attnBlk V c 4 ⟨n + 1, hn⟩)
    else if h1 : (n + 1) % 16 = 15 then
      keptLast c ⟨n + 1, hn⟩ h1 (attnBlk V c 0 ⟨n + 1, hn⟩) (attnBlk V c 1 ⟨n + 1, hn⟩) (attnBlk V c 2 ⟨n + 1, hn⟩) (attnBlk V c 3 ⟨n + 1, hn⟩) (attnBlk V c 4 ⟨n + 1, hn⟩) (keptAt c n (Nat.lt_of_succ_lt hn))
    else
      keptMid c ⟨n + 1, hn⟩ h0 h1 (attnBlk V c 0 ⟨n + 1, hn⟩) (attnBlk V c 1 ⟨n + 1, hn⟩) (attnBlk V c 2 ⟨n + 1, hn⟩) (attnBlk V c 3 ⟨n + 1, hn⟩) (attnBlk V c 4 ⟨n + 1, hn⟩) (keptAt c n (Nat.lt_of_succ_lt hn))

theorem keptAt_first (c : Dev nD) (t : Fin cfg1.N) (h0 : t.val % 16 = 0) :
    keptAt V c t.val t.isLt = keptFirst c t h0 (attnBlk V c 0 t) (attnBlk V c 1 t) (attnBlk V c 2 t) (attnBlk V c 3 t) (attnBlk V c 4 t) := by
  obtain ⟨n, hn⟩ := t
  cases n with
  | zero => rfl
  | succ n => exact (dif_pos h0).trans rfl

theorem keptAt_mid (c : Dev nD) (t : Fin cfg1.N) (h0 : ¬t.val % 16 = 0) (h1 : ¬t.val % 16 = 15) :
    keptAt V c t.val t.isLt = keptMid c t h0 h1 (attnBlk V c 0 t) (attnBlk V c 1 t) (attnBlk V c 2 t) (attnBlk V c 3 t) (attnBlk V c 4 t) (keptAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem keptAt_last (c : Dev nD) (t : Fin cfg1.N) (h1 : t.val % 16 = 15) :
    keptAt V c t.val t.isLt = keptLast c t h1 (attnBlk V c 0 t) (attnBlk V c 1 t) (attnBlk V c 2 t) (attnBlk V c 3 t) (attnBlk V c 4 t) (keptAt V c (t.val - 1) (Nat.lt_of_le_of_lt (Nat.sub_le _ _) t.isLt)) := by
  obtain ⟨n, hn⟩ := t
  cases n with
  | zero => exact absurd (show (0 : ℕ) % 16 = 15 from h1) (by decide)
  | succ n =>
    have h1' : (n + 1) % 16 = 15 := h1
    exact (dif_neg (show ¬(n + 1) % 16 = 0 by omega)).trans ((dif_pos h1').trans rfl)

/-- What the result window's buffer holds after point `t`: at a last key block the projected quotient, elsewhere
    nothing anyone reads (the window is idle there). -/
def outAt (c : Dev nD) (t : Fin cfg1.N) : Vec F S4x256x1024 .f32 :=
  if h1 : t.val % 16 = 15 then
    outLast c t h1 (attnBlk V c 0 t) (attnBlk V c 1 t) (attnBlk V c 2 t) (attnBlk V c 3 t) (attnBlk V c 4 t) (keptAt V c (t.val - 1) (Nat.lt_of_le_of_lt (Nat.sub_le _ _) t.isLt))
  else vOut.read (Elt F) vOut.junk

/-! ## The state kept between points -/

/-- The other launch's staging buffers: scoped buffers this kernel never touches, each at anything. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

theorem attnRest_split (c : Dev nD) :
    (Pipeline.ΦA spec1 c : sProp 𝕄) ⊢ iprop(otherStaging c ∗ (∃ d, owns (c : Thread nD τ) runMax fullShare d) ∗ (∃ d, owns (c : Thread nD τ) runSum fullShare d) ∗ (∃ d, owns (c : Thread nD τ) runAcc fullShare d) ∗ (∃ r, prngReg c r)) := by
  rw [attnRest_eq]; unfold otherStaging
  iintro ⟨⟨B0, B1, B2, B3, B4, B5, B6, B7, B8, B9, B10, B11, B12, B13, HS0, HS1, HS2⟩, Hg⟩
  isplitl [B0 B1 B2 B3 B4 B5 B6 B7 B8 B9 B10 B11 B12 B13]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  isplitl [HS0]; · iexact HS0
  isplitl [HS1]; · iexact HS1
  isplitl [HS2]; · iexact HS2
  iexact Hg

theorem attnRest_join (c : Dev nD) :
    iprop(otherStaging c ∗ (∃ d, owns (c : Thread nD τ) runMax fullShare d) ∗ (∃ d, owns (c : Thread nD τ) runSum fullShare d) ∗ (∃ d, owns (c : Thread nD τ) runAcc fullShare d) ∗ (∃ r, prngReg c r)) ⊢ (Pipeline.ΦA spec1 c : sProp 𝕄) := by
  rw [attnRest_eq]; unfold otherStaging
  iintro ⟨⟨B0, B1, B2, B3, B4, B5, B6, B7, B8, B9, B10, B11, B12, B13⟩, HS0, HS1, HS2, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [HS0]; · iexact HS0
    isplitl [HS1]; · iexact HS1
    iexact HS2
  iexact Hg

/-- Before point `n`: before the first point whatever the launch hands over; afterwards the three kept buffers at what
    point `n - 1` left, the untouched buffers at anything, the generator register at some state. -/
def attnInv (c : Dev nD) : (n : ℕ) → n ≤ cfg1.N → sProp 𝕄
  | 0, _ => Pipeline.ΦA spec1 c
  | n + 1, hn => iprop(otherStaging c ∗ owns (c : Thread nD τ) runMax fullShare (keptAt V c n hn).1 ∗ owns (c : Thread nD τ) runSum fullShare (keptAt V c n hn).2.1 ∗ owns (c : Thread nD τ) runAcc fullShare (keptAt V c n hn).2.2 ∗ (∃ r, prngReg c r))

theorem attnInv_zero (c : Dev nD) (n : ℕ) (h : n ≤ cfg1.N) (hz : n = 0) : attnInv V c n h = Pipeline.ΦA spec1 c := by
  subst hz; rfl
theorem attnInv_succ (c : Dev nD) (n : ℕ) (hn : n < cfg1.N) :
    attnInv V c (n + 1) hn = iprop(otherStaging c ∗ owns (c : Thread nD τ) runMax fullShare (keptAt V c n hn).1 ∗ owns (c : Thread nD τ) runSum fullShare (keptAt V c n hn).2.1 ∗ owns (c : Thread nD τ) runAcc fullShare (keptAt V c n hn).2.2 ∗ (∃ r, prngReg c r)) := rfl
theorem attnInv_pos (c : Dev nD) (n : ℕ) (h : n ≤ cfg1.N) (hz : n ≠ 0) :
    attnInv V c n h = iprop(otherStaging c ∗ owns (c : Thread nD τ) runMax fullShare (keptAt V c (n - 1) (by omega)).1 ∗ owns (c : Thread nD τ) runSum fullShare (keptAt V c (n - 1) (by omega)).2.1 ∗ owns (c : Thread nD τ) runAcc fullShare (keptAt V c (n - 1) (by omega)).2.2 ∗ (∃ r, prngReg c r)) := by
  cases n with
  | zero => exact absurd rfl hz
  | succ n => rfl

/-! ## The launch's bookkeeping -/

def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnBlk V c 3 t
    | ⟨4, _⟩ => attnBlk V c 4 t
    | ⟨5, _⟩ => outAt V c t
  Φ t := attnInv V c t.val (Nat.le_of_lt_succ t.isLt)
  q _ := fullShare
  owed _ := 0

theorem attnA_eq (c : Dev nD) (w : Fin cfg1.W) : (attnDat V c).A w = V c (Pipeline.arrRef spec1 w) := by
  dsimp only [attnDat]
theorem attnInv_castSucc (c : Dev nD) (t : Fin cfg1.N) :
    (attnDat V c).Φ t.castSucc = attnInv V c t.val (Nat.le_of_lt t.isLt) := by
  dsimp only [attnDat]; simp only [Fin.coe_castSucc]

theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) : (attnDat V c).after 3 t = attnBlk V c 3 t := by dsimp only [attnDat]
theorem attnAfter4 (c : Dev nD) (t : Fin cfg1.N) : (attnDat V c).after 4 t = attnBlk V c 4 t := by dsimp only [attnDat]
theorem attnAfter5 (c : Dev nD) (t : Fin cfg1.N) : (attnDat V c).after 5 t = outAt V c t := by dsimp only [attnDat]

theorem attnBefore0 (c : Dev nD) (t : Fin cfg1.N) (d) : (attnDat V c).before 0 t d = attnBlk V c 0 t :=
  attnBefore0_of V (attnDat V c) (attnA_eq V c 0) (attnAfter0 V c) t d
theorem attnBefore1 (c : Dev nD) (t : Fin cfg1.N) (d) : (attnDat V c).before 1 t d = attnBlk V c 1 t :=
  attnBefore1_of V (attnDat V c) (attnA_eq V c 1) (attnAfter1 V c) t d
theorem attnBefore2 (c : Dev nD) (t : Fin cfg1.N) (d) : (attnDat V c).before 2 t d = attnBlk V c 2 t :=
  attnBefore2_of V (attnDat V c) (attnA_eq V c 2) (attnAfter2 V c) t d
theorem attnBefore3 (c : Dev nD) (t : Fin cfg1.N) (d) : (attnDat V c).before 3 t d = attnBlk V c 3 t :=
  attnBefore3_of V (attnDat V c) (attnA_eq V c 3) (attnAfter3 V c) t d
theorem attnBefore4 (c : Dev nD) (t : Fin cfg1.N) (d) : (attnDat V c).before 4 t d = attnBlk V c 4 t :=
  attnBefore4_of V (attnDat V c) (attnA_eq V c 4) (attnAfter4 V c) t d

/-! ## The obligation at a point -/

def attnPre (c : Dev nD) (t : Fin cfg1.N) : sProp 𝕄 :=
  iprop((attnDat V c).Φ t.castSucc ∗ (attnDat V c).owesAt () t.castSucc
    ∗ (∃ d, owns (c : Thread nD τ) (aq t) fullShare ((attnDat V c).before 0 t d))
    ∗ (∃ d, owns (c : Thread nD τ) (ak t) fullShare ((attnDat V c).before 1 t d))
    ∗ (∃ d, owns (c : Thread nD τ) (av t) fullShare ((attnDat V c).before 2 t d))
    ∗ (∃ d, owns (c : Thread nD τ) (awo t) fullShare ((attnDat V c).before 3 t d))
    ∗ (∃ d, owns (c : Thread nD τ) (abo t) fullShare ((attnDat V c).before 4 t d))
    ∗ (∃ d, owns (c : Thread nD τ) (aout t) fullShare ((attnDat V c).before 5 t d)))

def attnPost (c : Dev nD) (t : Fin cfg1.N) : sProp 𝕄 :=
  iprop((attnDat V c).Φ t.succ ∗ (attnDat V c).owesAt () t.succ
    ∗ (attnDat V c).leavesExact 0 t ∗ (attnDat V c).leavesExact 1 t ∗ (attnDat V c).leavesExact 2 t
    ∗ (attnDat V c).leavesExact 3 t ∗ (attnDat V c).leavesExact 4 t ∗ (attnDat V c).leavesExact 5 t)

set_option maxHeartbeats 8000000 in
/-- The body at any point: the closed forms say which case the point is in; the inputs hold their blocks; the kept
    buffers are handed over at what the point before left (at anything at the very first point) and taken back at
    this point's contents; the result window is handed back untouched away from a last key block. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore0, attnBefore1, attnBefore2, attnBefore3, attnBefore4]
  rw [show (attnDat V c).owesAt () t.succ = (attnDat V c).owesAt () t.castSucc from rfl]
  rw [show (attnDat V c).Φ t.succ = attnInv V c (t.val + 1) t.isLt from rfl, attnInv_succ]
  rw [show (attnDat V c).leavesExact 0 t = owns (c : Thread nD τ) (aq t) fullShare ((attnDat V c).after 0 t) from by
    unfold Dat.leavesExact; rw [attnLive0 t], attnAfter0]
  rw [show (attnDat V c).leavesExact 1 t = owns (c : Thread nD τ) (ak t) fullShare ((attnDat V c).after 1 t) from by
    unfold Dat.leavesExact; rw [attnLive1 t], attnAfter1]
  rw [show (attnDat V c).leavesExact 2 t = owns (c : Thread nD τ) (av t) fullShare ((attnDat V c).after 2 t) from by
    unfold Dat.leavesExact; rw [attnLive2 t], attnAfter2]
  rw [show (attnDat V c).leavesExact 3 t = owns (c : Thread nD τ) (awo t) fullShare ((attnDat V c).after 3 t) from by
    unfold Dat.leavesExact; rw [attnLive3 t], attnAfter3]
  rw [show (attnDat V c).leavesExact 4 t = owns (c : Thread nD τ) (abo t) fullShare ((attnDat V c).after 4 t) from by
    unfold Dat.leavesExact; rw [attnLive4 t], attnAfter4]
  have hN : t.val < 256 := lt_of_lt_of_eq t.isLt (show cfg1.N = 256 from N_1)
  by_cases h0 : t.val % 16 = 0
  · have h1 : ¬t.val % 16 = 15 := by omega
    rw [Dat.leavesExact_idle (attnDat V c) 5 t (attnIdleOut t (fun h => h1 ((isLastKey_iff t).mp h))) (attnNoFlushOut t (fun h => h1 ((isLastKey_iff t).mp h)))]
    rw [keptAt_first V c t h0]
    unfold keptFirst; dsimp only
    have hstart : attnInv V c t.val (Nat.le_of_lt t.isLt) ⊢ iprop(otherStaging c ∗ (∃ d, owns (c : Thread nD τ) runMax fullShare d) ∗ (∃ d, owns (c : Thread nD τ) runSum fullShare d) ∗ (∃ d, owns (c : Thread nD τ) runAcc fullShare d) ∗ (∃ r, prngReg c r)) := by
      by_cases hz : t.val = 0
      · rw [attnInv_zero V c _ _ hz]; exact attnRest_split c
      · rw [attnInv_pos V c _ _ hz]
        iintro ⟨HR, HS0, HS1, HS2, Hg⟩
        isplitl [HR]; · iexact HR
        isplitl [HS0]; · iexists _; iexact HS0
        isplitl [HS1]; · iexists _; iexact HS1
        isplitl [HS2]; · iexists _; iexact HS2
        iexact Hg
    rw [attnInv_castSucc V c t]
    iintro ⟨HΦ, Ho, ⟨%d0, H0⟩, ⟨%d1, H1⟩, ⟨%d2, H2⟩, ⟨%d3, H3⟩, ⟨%d4, H4⟩, ⟨%d5, H5⟩⟩
    ihave HΦ' := hstart $$ HΦ
    icases HΦ' with ⟨HR, HS0, HS1, HS2, Hg⟩
    iapply ((runFirstAt c t h0 (attnBlk V c 0 t) (attnBlk V c 1 t) (attnBlk V c 2 t) (attnBlk V c 3 t) (attnBlk V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (coverMaxFirst c t h0 _ _ _ _ _)
      isplitl [HS1]
      · unfold owns; iexists _; isplitr
        swap; · iexact HS1
        ipureintro; exact View.read_writes_of_cover _ _ _ _ _ (coverSumFirst c t h0 _ _ _ _ _)
      isplitl [HS2]
      · unfold owns; iexists _; isplitr
        swap; · iexact HS2
        ipureintro; exact View.read_writes_of_cover _ _ _ _ _ (coverAccFirst c t h0 _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    by_cases h1 : t.val % 16 = 15
    · rw [show (attnDat V c).leavesExact 5 t = owns (c : Thread nD τ) (aout t) fullShare ((attnDat V c).after 5 t) from by
        unfold Dat.leavesExact; rw [attnLiveOut t ((isLastKey_iff t).mpr h1)], attnAfter5]
      rw [keptAt_last V c t h1]
      unfold outAt; rw [dif_pos h1]
      unfold keptLast outLast; dsimp only
      rw [attnInv_castSucc V c t, attnInv_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((runLastAt c t h1 (attnBlk V c 0 t) (attnBlk V c 1 t) (attnBlk V c 2 t) (attnBlk V c 3 t) (attnBlk V c 4 t) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (coverMaxLast c t h1 _ _ _ _ _ _)
        isplitl [HS1]
        · unfold owns; iexists _; isplitr
          swap; · iexact HS1
          ipureintro; exact View.read_writes_of_cover _ _ _ _ _ (coverSumLast c t h1 _ _ _ _ _ _)
        isplitl [HS2]
        · unfold owns; iexists _; isplitr
          swap; · iexact HS2
          ipureintro; exact View.read_writes_of_cover _ _ _ _ _ (coverAccLast c t h1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOutLast c t h1 _ _ _ _ _ _)
    · rw [Dat.leavesExact_idle (attnDat V c) 5 t (attnIdleOut t (fun h => h1 ((isLastKey_iff t).mp h))) (attnNoFlushOut t (fun h => h1 ((isLastKey_iff t).mp h)))]
      rw [keptAt_mid V c t h0 h1]
      unfold keptMid; dsimp only
      rw [attnInv_castSucc V c t, attnInv_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((runMidAt c t h0 h1 (attnBlk V c 0 t) (attnBlk V c 1 t) (attnBlk V c 2 t) (attnBlk V c 3 t) (attnBlk V c 4 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (coverMaxMid c t h0 h1 _ _ _ _ _ _)
        isplitl [HS1]
        · unfold owns; iexists _; isplitr
          swap; · iexact HS1
          ipureintro; exact View.read_writes_of_cover _ _ _ _ _ (coverSumMid c t h0 h1 _ _ _ _ _ _)
        isplitl [HS2]
        · unfold owns; iexists _; isplitr
          swap; · iexact HS2
          ipureintro; exact View.read_writes_of_cover _ _ _ _ _ (coverAccMid c t h0 h1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The obligation the launch theorem asks for, at every point. -/
theorem attnObligation (c : Dev nD) : BodyObligation (attnDat (F := F) V c) (defs₀ (F := F)) Variants.none () Set.univ := fun t => by
  rw [bigSep_W1, bigSep_W1]
  exact attnBody V c t

/-- What the launch hands the kernel is the state before the first point. -/
theorem attnIn (c : Dev nD) : Pipeline.ΦA spec1 c ⊢ (attnDat V c).Φ 0 := by
  rw [show (attnDat V c).Φ 0 = attnInv V c 0 (Nat.zero_le _) from rfl, attnInv_zero V c 0 _ rfl]

/-- After any point the kept buffers' contents may be forgotten again. -/
theorem attnForget (c : Dev nD) (t : Fin (cfg1.N + 1)) (ht : t.val ≠ 0) : (attnDat V c).Φ t ⊢ Pipeline.ΦA spec1 c := by
  have hlt : t.val < cfg1.N + 1 := t.isLt
  rw [show (attnDat V c).Φ t = attnInv V c t.val (Nat.le_of_lt_succ t.isLt) from rfl, attnInv_pos V c _ _ ht]
  have hweak : (iprop(otherStaging c ∗ owns (c : Thread nD τ) runMax fullShare (keptAt V c (t.val - 1) (by omega)).1 ∗ owns (c : Thread nD τ) runSum fullShare (keptAt V c (t.val - 1) (by omega)).2.1 ∗ owns (c : Thread nD τ) runAcc fullShare (keptAt V c (t.val - 1) (by omega)).2.2 ∗ (∃ r, prngReg c r)) : sProp 𝕄)
      ⊢ iprop(otherStaging c ∗ (∃ d, owns (c : Thread nD τ) runMax fullShare d) ∗ (∃ d, owns (c : Thread nD τ) runSum fullShare d) ∗ (∃ d, owns (c : Thread nD τ) runAcc fullShare d) ∗ (∃ r, prngReg c r)) := by
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg
  exact hweak.trans (attnRest_join c)

/-- In particular after the last point. -/
theorem attnOut (c : Dev nD) : (attnDat V c).Φ (Fin.last cfg1.N) ⊢ Pipeline.ΦA spec1 c :=
  attnForget V c _ (by rw [Fin.val_last]; have : cfg1.N = 256 := N_1; omega)

end Cert.Kernel.Gen

end
-- ==== Proof.K.Run.lean ====
/-
  The whole program's run: the contents of every buffer at each boundary of @main — the launch memory, then the
  host operations before the first launch, the first launch's three results written back block by block, the four
  reshapes, the second launch's result written back — and, from the two launches' obligations, that every weakly fair
  execution ends, nothing faulting, with every unscoped buffer at the last boundary's contents. The argument arrays
  are written by nothing on the way.
-/
import proofs.«125791_j3195455668383_2_alg».proof.Proof.K.Proj
import proofs.«125791_j3195455668383_2_alg».proof.Proof.K.Attn
import proofs.«125791_j3195455668383_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev bnd0 : Dev nD → Valuation τ sig (Elt F) := fun c b => m (c, b)
/-- After the thirteen host operations before the first launch. -/
abbrev bnd1 : Dev nD → Valuation τ sig (Elt F) := fun c => StableHlo.after hostOps0 (bnd0 m c)
abbrev at1 : (c : Dev nD) → (b : Ref sig .tc) → Buf (Elt F) ((c : Thread nD τ).loc b) := fun c b => bnd1 m c b
/-- After the first launch: its arrays at what its write-backs leave, every other buffer as entered. -/
def bnd2 (c : Dev nD) : Valuation τ sig (Elt F) :=
  Pipeline.withArrays spec0 c (bnd1 m c) fun w => (projDat (at1 m) c).arrAt w cfg0.N
theorem bnd2_arr (c : Dev nD) (w : Fin cfg0.W) :
    bnd2 m c (Proc.devRef .tc (Pipeline.arrRef spec0 w)) = (projDat (at1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
abbrev at2 : (c : Dev nD) → (b : Ref sig .tc) → Buf (Elt F) ((c : Thread nD τ).loc b) := fun c b => bnd2 m c b
theorem leaves0 (c : Dev nD) (w : Fin cfg0.W) : (projDat (at1 m) c).arrAt w cfg0.N = at2 m c (Pipeline.arrRef spec0 w) :=
  (bnd2_arr m c w).symm
theorem keeps0 (c : Dev nD) : ∀ b, b ∉ Finset.univ.image (Pipeline.arrRef spec0) → at2 m c b = at1 m c b :=
  fun b hb => bnd2_of_ne m c b fun w e => hb (Finset.mem_image.mpr ⟨w, Finset.mem_univ _, e⟩)

/-- After the four reshapes between the launches. -/
abbrev bnd3 : Dev nD → Valuation τ sig (Elt F) := fun c => StableHlo.after hostOps1 (bnd2 m c)
abbrev at3 : (c : Dev nD) → (b : Ref sig .tc) → Buf (Elt F) ((c : Thread nD τ).loc b) := fun c b => bnd3 m c b
/-- After the second launch. -/
def bnd4 (c : Dev nD) : Valuation τ sig (Elt F) :=
  Pipeline.withArrays spec1 c (bnd3 m c) fun w => (attnDat (at3 m) c).arrAt w cfg1.N
theorem bnd4_arr (c : Dev nD) (w : Fin cfg1.W) :
    bnd4 m c (Proc.devRef .tc (Pipeline.arrRef spec1 w)) = (attnDat (at3 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb
abbrev at4 : (c : Dev nD) → (b : Ref sig .tc) → Buf (Elt F) ((c : Thread nD τ).loc b) := fun c b => bnd4 m c b
theorem leaves1 (c : Dev nD) (w : Fin cfg1.W) : (attnDat (at3 m) c).arrAt w cfg1.N = at4 m c (Pipeline.arrRef spec1 w) :=
  (bnd4_arr m c w).symm
theorem keeps1 (c : Dev nD) : ∀ b, b ∉ Finset.univ.image (Pipeline.arrRef spec1) → at4 m c b = at3 m c b :=
  fun b hb => bnd4_of_ne m c b fun w e => hb (Finset.mem_image.mpr ⟨w, Finset.mem_univ _, e⟩)

/-! ## The arguments end as launched -/

/-- Argument 0 is written by no host operation and is no launch's array: it ends as launched. -/
theorem endsAs_main_arg0 (c : Dev nD) : bnd4 m c (Proc.devRef .tc main_arg0) = m ((c : Thread nD τ).loc main_arg0) :=
  calc bnd4 m c (Proc.devRef .tc main_arg0)
    _ = bnd3 m c (Proc.devRef .tc main_arg0) := bnd4_of_ne m c main_arg0 (by decide)
    _ = bnd2 m c (Proc.devRef .tc main_arg0) := StableHlo.after_of_writes_sub hostOps1 _ hostOps1_writes (r := main_arg0) (by decide)
    _ = bnd1 m c (Proc.devRef .tc main_arg0) := bnd2_of_ne m c main_arg0 (by decide)
    _ = bnd0 m c (Proc.devRef .tc main_arg0) := StableHlo.after_of_writes_sub hostOps0 _ hostOps0_writes (r := main_arg0) (by decide)
    _ = m ((c : Thread nD τ).loc main_arg0) := rfl
/-- Argument 1 is written by no host operation and is no launch's array: it ends as launched. -/
theorem endsAs_main_arg1 (c : Dev nD) : bnd4 m c (Proc.devRef .tc main_arg1) = m ((c : Thread nD τ).loc main_arg1) :=
  calc bnd4 m c (Proc.devRef .tc main_arg1)
    _ = bnd3 m c (Proc.devRef .tc main_arg1) := bnd4_of_ne m c main_arg1 (by decide)
    _ = bnd2 m c (Proc.devRef .tc main_arg1) := StableHlo.after_of_writes_sub hostOps1 _ hostOps1_writes (r := main_arg1) (by decide)
    _ = bnd1 m c (Proc.devRef .tc main_arg1) := bnd2_of_ne m c main_arg1 (by decide)
    _ = bnd0 m c (Proc.devRef .tc main_arg1) := StableHlo.after_of_writes_sub hostOps0 _ hostOps0_writes (r := main_arg1) (by decide)
    _ = m ((c : Thread nD τ).loc main_arg1) := rfl
/-- Argument 2 is written by no host operation and is no launch's array: it ends as launched. -/
theorem endsAs_main_arg2 (c : Dev nD) : bnd4 m c (Proc.devRef .tc main_arg2) = m ((c : Thread nD τ).loc main_arg2) :=
  calc bnd4 m c (Proc.devRef .tc main_arg2)
    _ = bnd3 m c (Proc.devRef .tc main_arg2) := bnd4_of_ne m c main_arg2 (by decide)
    _ = bnd2 m c (Proc.devRef .tc main_arg2) := StableHlo.after_of_writes_sub hostOps1 _ hostOps1_writes (r := main_arg2) (by decide)
    _ = bnd1 m c (Proc.devRef .tc main_arg2) := bnd2_of_ne m c main_arg2 (by decide)
    _ = bnd0 m c (Proc.devRef .tc main_arg2) := StableHlo.after_of_writes_sub hostOps0 _ hostOps0_writes (r := main_arg2) (by decide)
    _ = m ((c : Thread nD τ).loc main_arg2) := rfl
/-- Argument 3 is written by no host operation and is no launch's array: it ends as launched. -/
theorem endsAs_main_arg3 (c : Dev nD) : bnd4 m c (Proc.devRef .tc main_arg3) = m ((c : Thread nD τ).loc main_arg3) :=
  calc bnd4 m c (Proc.devRef .tc main_arg3)
    _ = bnd3 m c (Proc.devRef .tc main_arg3) := bnd4_of_ne m c main_arg3 (by decide)
    _ = bnd2 m c (Proc.devRef .tc main_arg3) := StableHlo.after_of_writes_sub hostOps1 _ hostOps1_writes (r := main_arg3) (by decide)
    _ = bnd1 m c (Proc.devRef .tc main_arg3) := bnd2_of_ne m c main_arg3 (by decide)
    _ = bnd0 m c (Proc.devRef .tc main_arg3) := StableHlo.after_of_writes_sub hostOps0 _ hostOps0_writes (r := main_arg3) (by decide)
    _ = m ((c : Thread nD τ).loc main_arg3) := rfl
/-- Argument 4 is written by no host operation and is no launch's array: it ends as launched. -/
theorem endsAs_main_arg4 (c : Dev nD) : bnd4 m c (Proc.devRef .tc main_arg4) = m ((c : Thread nD τ).loc main_arg4) :=
  calc bnd4 m c (Proc.devRef .tc main_arg4)
    _ = bnd3 m c (Proc.devRef .tc main_arg4) := bnd4_of_ne m c main_arg4 (by decide)
    _ = bnd2 m c (Proc.devRef .tc main_arg4) := StableHlo.after_of_writes_sub hostOps1 _ hostOps1_writes (r := main_arg4) (by decide)
    _ = bnd1 m c (Proc.devRef .tc main_arg4) := bnd2_of_ne m c main_arg4 (by decide)
    _ = bnd0 m c (Proc.devRef .tc main_arg4) := StableHlo.after_of_writes_sub hostOps0 _ hostOps0_writes (r := main_arg4) (by decide)
    _ = m ((c : Thread nD τ).loc main_arg4) := rfl
/-- Argument 5 is written by no host operation and is no launch's array: it ends as launched. -/
theorem endsAs_main_arg5 (c : Dev nD) : bnd4 m c (Proc.devRef .tc main_arg5) = m ((c : Thread nD τ).loc main_arg5) :=
  calc bnd4 m c (Proc.devRef .tc main_arg5)
    _ = bnd3 m c (Proc.devRef .tc main_arg5) := bnd4_of_ne m c main_arg5 (by decide)
    _ = bnd2 m c (Proc.devRef .tc main_arg5) := StableHlo.after_of_writes_sub hostOps1 _ hostOps1_writes (r := main_arg5) (by decide)
    _ = bnd1 m c (Proc.devRef .tc main_arg5) := bnd2_of_ne m c main_arg5 (by decide)
    _ = bnd0 m c (Proc.devRef .tc main_arg5) := StableHlo.after_of_writes_sub hostOps0 _ hostOps0_writes (r := main_arg5) (by decide)
    _ = m ((c : Thread nD τ).loc main_arg5) := rfl
/-- Argument 6 is written by no host operation and is no launch's array: it ends as launched. -/
theorem endsAs_main_arg6 (c : Dev nD) : bnd4 m c (Proc.devRef .tc main_arg6) = m ((c : Thread nD τ).loc main_arg6) :=
  calc bnd4 m c (Proc.devRef .tc main_arg6)
    _ = bnd3 m c (Proc.devRef .tc main_arg6) := bnd4_of_ne m c main_arg6 (by decide)
    _ = bnd2 m c (Proc.devRef .tc main_arg6) := StableHlo.after_of_writes_sub hostOps1 _ hostOps1_writes (r := main_arg6) (by decide)
    _ = bnd1 m c (Proc.devRef .tc main_arg6) := bnd2_of_ne m c main_arg6 (by decide)
    _ = bnd0 m c (Proc.devRef .tc main_arg6) := StableHlo.after_of_writes_sub hostOps0 _ hostOps0_writes (r := main_arg6) (by decide)
    _ = m ((c : Thread nD τ).loc main_arg6) := rfl
/-- Argument 7 is written by no host operation and is no launch's array: it ends as launched. -/
theorem endsAs_main_arg7 (c : Dev nD) : bnd4 m c (Proc.devRef .tc main_arg7) = m ((c : Thread nD τ).loc main_arg7) :=
  calc bnd4 m c (Proc.devRef .tc main_arg7)
    _ = bnd3 m c (Proc.devRef .tc main_arg7) := bnd4_of_ne m c main_arg7 (by decide)
    _ = bnd2 m c (Proc.devRef .tc main_arg7) := StableHlo.after_of_writes_sub hostOps1 _ hostOps1_writes (r := main_arg7) (by decide)
    _ = bnd1 m c (Proc.devRef .tc main_arg7) := bnd2_of_ne m c main_arg7 (by decide)
    _ = bnd0 m c (Proc.devRef .tc main_arg7) := StableHlo.after_of_writes_sub hostOps0 _ hostOps0_writes (r := main_arg7) (by decide)
    _ = m ((c : Thread nD τ).loc main_arg7) := rfl
/-- Argument 8 is written by no host operation and is no launch's array: it ends as launched. -/
theorem endsAs_main_arg8 (c : Dev nD) : bnd4 m c (Proc.devRef .tc main_arg8) = m ((c : Thread nD τ).loc main_arg8) :=
  calc bnd4 m c (Proc.devRef .tc main_arg8)
    _ = bnd3 m c (Proc.devRef .tc main_arg8) := bnd4_of_ne m c main_arg8 (by decide)
    _ = bnd2 m c (Proc.devRef .tc main_arg8) := StableHlo.after_of_writes_sub hostOps1 _ hostOps1_writes (r := main_arg8) (by decide)
    _ = bnd1 m c (Proc.devRef .tc main_arg8) := bnd2_of_ne m c main_arg8 (by decide)
    _ = bnd0 m c (Proc.devRef .tc main_arg8) := StableHlo.after_of_writes_sub hostOps0 _ hostOps0_writes (r := main_arg8) (by decide)
    _ = m ((c : Thread nD τ).loc main_arg8) := rfl

/-! ## The two launches as regions -/

abbrev noTables : (p : Fin 2) → (pcfgs (F := F) p).Adm := fun p => (cfgs p).toPCfg_adm
/-- Both launches' bookkeeping, each at the contents its launch is entered from. -/
def pdats : (p : Fin 2) → (c : Dev nD) → Dat τ (Elt F) Unit ℕ (UR sig nD τ) ℕ (Pipeline.pin (pcfgs (F := F)) noTables p) c
  | ⟨0, _⟩ => fun c => projDat (at1 m) c
  | ⟨1, _⟩ => fun c => attnDat (at3 m) c
abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state beside the core owing nothing. -/
abbrev Tend (c : Dev nD) : sProp 𝕄 := iprop(StableHlo.held (c : Thread nD τ) (Pipeline.ucRefs τ sig) (bnd4 m c) ∗ ∃ r, prngReg c r)

set_option backward.isDefEq.respectTransparency.types false in
/-- Launch 0 over the thread state "every unscoped buffer at the boundary's contents, the generator register at some
    state, nothing owed": its arrays are split out of the unscoped buffers on entry and put back at the exit contents. -/
def region0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (projObligation (at1 m) c).loose
  hwaits := Pipeline.hwaits_of_owed_zero _ _ _ _ L lv 0 fun _ _ => rfl
  pre c := iprop(StableHlo.held (c : Thread nD τ) (Pipeline.ucRefs τ sig) (bnd1 m c) ∗ R c)
  post c := iprop(StableHlo.held (c : Thread nD τ) (Pipeline.ucRefs τ sig) (bnd2 m c) ∗ R c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (at1 m c) (at2 m c) ((pdats m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state "every unscoped buffer at the boundary's contents, the generator register at some
    state, nothing owed": its arrays are split out of the unscoped buffers on entry and put back at the exit contents. -/
def region1 : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (attnObligation (at3 m) c).loose
  hwaits := Pipeline.hwaits_of_owed_zero _ _ _ _ L lv 1 fun _ _ => rfl
  pre c := iprop(StableHlo.held (c : Thread nD τ) (Pipeline.ucRefs τ sig) (bnd3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at3 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (at3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (noTables (F := F) 1).1 ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h.trans (attnIn (at3 m) c)
  hout c := by
    rw [Pipeline.ownSems0_none]
    have h : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (attnOut (at3 m) c).trans h
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (at3 m c) (at4 m c) ((pdats m 1 c).arrAt · cfg1.N) (leaves1 m c) (keeps1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev mainSegs : List (Pipeline.Seg (pcfgs (F := F)) noTables (pdats m) () defs₀ 𝒱₀ L lv) :=
  [ .host (hseg hostOps0 hostOps0_sub hostOps0_fresh (bnd0 m)),
    .region (region0 m),
    .host (hseg hostOps1 hostOps1_sub hostOps1_fresh (bnd2 m)),
    .region (region1 m) ]
theorem main_is_segs (c : Dev nD) : main (F := F) c = Pipeline.Seg.run (mainSegs m) := (main_chain c).trans (by chain_rfl)

set_option backward.isDefEq.respectTransparency.types false in
/-- Every weakly fair execution of @main from memory `m` with zero counters ends, nothing faulting, with every unscoped
    buffer of every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = bnd4 m c b) :=
  Pipeline.θ_run_regions_kit (pcfgs (F := F)) noTables (pdats m) () cellOf_inj emb₁ defs₀ 𝒱₀ L lv m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m c b)
    (hfin := fun c s' => by
      iintro ⟨⟨Hh, -⟩, HSI⟩
      unfold StableHlo.held
      imodintro
      iapply (pointsTo_read_all (Pipeline.ucRefs τ sig) (fun b => (((c : Thread nD τ)).1, b)) (bnd4 m c) s')
      isplitl [Hh] <;> iassumption)
    (hQ := fun _ h => h)

/-- An unscoped TensorCore reference is among those the run's post speaks of. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_unscoped main_arg0 (by decide))).trans (endsAs_main_arg0 m c),
    (h c _ (mem_unscoped main_arg1 (by decide))).trans (endsAs_main_arg1 m c),
    (h c _ (mem_unscoped main_arg2 (by decide))).trans (endsAs_main_arg2 m c),
    (h c _ (mem_unscoped main_arg3 (by decide))).trans (endsAs_main_arg3 m c),
    (h c _ (mem_unscoped main_arg4 (by decide))).trans (endsAs_main_arg4 m c),
    (h c _ (mem_unscoped main_arg5 (by decide))).trans (endsAs_main_arg5 m c),
    (h c _ (mem_unscoped main_arg6 (by decide))).trans (endsAs_main_arg6 m c),
    (h c _ (mem_unscoped main_arg7 (by decide))).trans (endsAs_main_arg7 m c),
    (h c _ (mem_unscoped main_arg8 (by decide))).trans (endsAs_main_arg8 m c)⟩) (run_all m ρ)

end Cert.Kernel.Gen

end
-- ==== Proof.KI.AttnBase.lean ====
/-
  The attention kernel (the second launch): what its three control cases are stated over. Its grid is 16 query
  blocks by 16 key blocks, walked key block fastest; at the first key block of a query block the running maximum,
  the running sum and the running weighted sum are reset, at every key block they are updated, and at the last key
  block the weighted sum is divided by the sum, projected and stored. Here: the two branch conditions in closed
  form over the grid, where the result window is idle, the buffers the body is called with, and each input
  operand's block as a function of the contents the launch is entered from.
-/
import proofs.«125791_j3195455668383_2_alg».proof.Proof.Gen.KernelIdeal.Launch
import proofs.«125791_j3195455668383_2_alg».proof.Proof.Gen.KernelIdeal.Skeleton
import proofs.«125791_j3195455668383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first key block": the body's first conditional, from the grid coordinates. -/
abbrev isFirstKey (i : grid1.Coords) : Prop := (Scalar.cmpi .ne (Scalar.extui (Scalar.cmpi .eq (BitVec.ofNat 32 (i 1).val) 0#32)) 0#32) = 1#1
/-- It holds at the points ≡ 0 (mod 16). -/
theorem isFirstKey_iff : ∀ t : Fin cfg1.N, isFirstKey (grid1.coords t) ↔ t.val % 16 = 0 :=
  (by decide +kernel : ∀ t : Fin grid1.N, isFirstKey (grid1.coords t) ↔ t.val % 16 = 0)

/-- "This is the last key block": the body's second conditional. -/
abbrev isLastKey (i : grid1.Coords) : Prop := k1_cond2 i = 1#1
/-- It holds at the points ≡ 15 (mod 16). -/
theorem isLastKey_iff : ∀ t : Fin cfg1.N, isLastKey (grid1.coords t) ↔ t.val % 16 = 15 :=
  (by decide +kernel : ∀ t : Fin grid1.N, isLastKey (grid1.coords t) ↔ t.val % 16 = 15)

/-! ## Where the windows are idle -/

theorem attnLive0 : ∀ t : Fin cfg1.N, cfg1.idle 0 (grid1.coords t) = false := by decide +kernel
theorem attnLive1 : ∀ t : Fin cfg1.N, cfg1.idle 1 (grid1.coords t) = false := by decide +kernel
theorem attnLive2 : ∀ t : Fin cfg1.N, cfg1.idle 2 (grid1.coords t) = false := by decide +kernel
theorem attnLive3 : ∀ t : Fin cfg1.N, cfg1.idle 3 (grid1.coords t) = false := by decide +kernel
theorem attnLive4 : ∀ t : Fin cfg1.N, cfg1.idle 4 (grid1.coords t) = false := by decide +kernel
/-- Away from the last key block the result window is idle and is not written back. -/
theorem attnIdleOut : ∀ t : Fin cfg1.N, ¬isLastKey (grid1.coords t) → cfg1.idle 5 (grid1.coords t) = true := by decide +kernel
theorem attnNoFlushOut : ∀ t : Fin cfg1.N, ¬isLastKey (grid1.coords t) → (cfg1.win 5).flush t = false := by decide +kernel
/-- At the last key block it is live. -/
theorem attnLiveOut : ∀ t : Fin cfg1.N, isLastKey (grid1.coords t) → cfg1.idle 5 (grid1.coords t) = false := by decide +kernel

/-! ## The buffers the body is called with -/

abbrev aq (t : Fin cfg1.N) : Memref sig .tc .vmem S4x256x1024 .bf16 := win1_0.stage (cfg1.slots t 0)
abbrev haq (t : Fin cfg1.N) : (aq t).IsWhole := hstage1_0 ((cfg1.slots t 0).cast nbuf1_0)
abbrev ak (t : Fin cfg1.N) : Memref sig .tc .vmem S4x256x1024 .bf16 := win1_1.stage (cfg1.slots t 1)
abbrev hak (t : Fin cfg1.N) : (ak t).IsWhole := hstage1_1 ((cfg1.slots t 1).cast nbuf1_1)
abbrev av (t : Fin cfg1.N) : Memref sig .tc .vmem S4x256x1024 .bf16 := win1_2.stage (cfg1.slots t 2)
abbrev hav (t : Fin cfg1.N) : (av t).IsWhole := hstage1_2 ((cfg1.slots t 2).cast nbuf1_2)
abbrev awo (t : Fin cfg1.N) : Memref sig .tc .vmem S1024x1024 .bf16 := win1_3.stage (cfg1.slots t 3)
abbrev hawo (t : Fin cfg1.N) : (awo t).IsWhole := hstage1_3 ((cfg1.slots t 3).cast nbuf1_3)
abbrev abo (t : Fin cfg1.N) : Memref sig .tc .vmem S1x1024 .f32 := win1_4.stage (cfg1.slots t 4)
abbrev habo (t : Fin cfg1.N) : (abo t).IsWhole := hstage1_4 ((cfg1.slots t 4).cast nbuf1_4)
abbrev aout (t : Fin cfg1.N) : Memref sig .tc .vmem S4x256x1024 .f32 := win1_5.stage (cfg1.slots t 5)
abbrev haout (t : Fin cfg1.N) : (aout t).IsWhole := hstage1_5 ((cfg1.slots t 5).cast nbuf1_5)
/-- The three buffers the kernel keeps between points: running maximum, running sum, running weighted sum. -/
abbrev runMax : Memref sig .tc .vmem S4x256x1 .f32 := Memref.whole cc1_scratch0
abbrev runSum : Memref sig .tc .vmem S4x256x1 .f32 := Memref.whole cc1_scratch1
abbrev runAcc : Memref sig .tc .vmem S4x256x1024 .f32 := Memref.whole cc1_scratch2
/-- As views: what they hold is stated through them. -/
abbrev vMax : View sig .tc .vmem S4x256x1 .f32 := runMax.view
abbrev vSum : View sig .tc .vmem S4x256x1 .f32 := runSum.view
abbrev vAcc : View sig .tc .vmem S4x256x1024 .f32 := runAcc.view
/-- One buffer of the result window, through which its contents are stated. -/
abbrev vOut : View sig .tc .vmem S4x256x1024 .f32 := (Memref.whole cc1_stg5_0 : Memref sig .tc .vmem S4x256x1024 .f32).view

/-- What the launch hands the kernel beside its windows: the other launch's staging buffers at anything, the three
    kept buffers at anything, the generator register at some state. -/
theorem attnRest_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) runMax fullShare d) ∗ (∃ d, owns (c : Thread nD τ) runSum fullShare d) ∗ (∃ d, owns (c : Thread nD τ) runAcc fullShare d)) ∗ (∃ r, prngReg c r)) := by
  unfold Pipeline.ΦA; rw [scopedRest1_eq]; simp only [runMax, runSum, runAcc, owns_whole]; try rfl

/-! ## The input operands' blocks -/

variable (V : (c : Dev nD) → (b : Ref sig .tc) → Buf (Elt F) ((c : Thread nD τ).loc b))

/-- Operand `w`'s block at grid point `t`, read off its array as the launch finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

theorem attnBefore3_of {c : Dev nD} (dat : Dat τ (Elt F) Unit ℕ (UR sig nD τ) ℕ cfg1 c) (hA : dat.A 3 = V c (Pipeline.arrRef spec1 3))
    (hafter : ∀ t, dat.after 3 t = attnBlk V c 3 t) (t : Fin cfg1.N) (d) : dat.before 3 t d = attnBlk V c 3 t :=
  (dat.before_in_eq_fetched 3 rfl (fun _ => rfl) (fun _ _ _ => rfl) (fun t => by rw [hafter]; unfold Dat.blockOf attnBlk; rw [hA]; try rfl) t d).trans
    (by unfold Dat.fetched Dat.blockOf attnBlk; rw [hA]; try rfl)

theorem attnBefore4_of {c : Dev nD} (dat : Dat τ (Elt F) Unit ℕ (UR sig nD τ) ℕ cfg1 c) (hA : dat.A 4 = V c (Pipeline.arrRef spec1 4))
    (hafter : ∀ t, dat.after 4 t = attnBlk V c 4 t) (t : Fin cfg1.N) (d) : dat.before 4 t d = attnBlk V c 4 t :=
  (dat.before_in_eq_fetched 4 rfl (fun _ => rfl) (fun _ _ _ => rfl) (fun t => by rw [hafter]; unfold Dat.blockOf attnBlk; rw [hA]; try rfl) t d).trans
    (by unfold Dat.fetched Dat.blockOf attnBlk; rw [hA]; try rfl)

end Cert.KernelIdeal.Gen

end
-- ==== Proof.KI.AttnRunFirst.lean ====
/-
  The attention kernel's body at the first key block of a query block (the three kept buffers reset, then updated; nothing stored into the result window): its triple, with the pieces each written buffer ends with found by running it.
-/
import proofs.«125791_j3195455668383_2_alg».proof.Proof.KI.AttnBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the five inputs at their contents, the result window's buffer at contents handed back untouched, the three kept
    buffers at anything — the body runs to its return with the inputs as they were and every buffer it stored into
    holding its stores, listed last first. -/
noncomputable def attnRunFirst (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : isFirstKey i) (hc1 : ¬isLastKey i)
    (x0 x1 x2 : Vec F S4x256x1024 .bf16) (x3 : Vec F S1024x1024 .bf16) (x4 : Vec F S1x1024 .f32) :
    Σ' (LS0 : List (View.Piece (Elt F) S4x256x1 .f32)) (LS1 : List (View.Piece (Elt F) S4x256x1 .f32)), { LS2 : List (View.Piece (Elt F) S4x256x1024 .f32) //
      ∀ (xi5 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_out_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__flash_out_kernel_eq_skeleton]; unfold cc1__flash_out_kernel_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Gen

end
-- ==== Proof.KI.AttnRunMid.lean ====
/-
  The attention kernel's body at a key block that is neither first nor last (the three kept buffers updated from what the point before left; nothing stored into the result window): its triple, with the pieces each written buffer ends with found by running it.
-/
import proofs.«125791_j3195455668383_2_alg».proof.Proof.KI.AttnRunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the five inputs at their contents, the result window's buffer at contents handed back untouched, the three kept
    buffers at what the point before left — the body runs to its return with the inputs as they were and every buffer it stored into
    holding its stores, listed last first. -/
noncomputable def attnRunMid (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬isFirstKey i) (hc1 : ¬isLastKey i)
    (x0 x1 x2 : Vec F S4x256x1024 .bf16) (x3 : Vec F S1024x1024 .bf16) (x4 : Vec F S1x1024 .f32) (xs0 xs1 : Vec F S4x256x1 .f32) (xs2 : Vec F S4x256x1024 .f32) :
    Σ' (LS0 : List (View.Piece (Elt F) S4x256x1 .f32)) (LS1 : List (View.Piece (Elt F) S4x256x1 .f32)), { LS2 : List (View.Piece (Elt F) S4x256x1024 .f32) //
      ∀ (xi5 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_out_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__flash_out_kernel_eq_skeleton]; unfold cc1__flash_out_kernel_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Gen

end
-- ==== Proof.KI.AttnRunLast.lean ====
/-
  The attention kernel's body at the last key block (the three kept buffers updated, then the weighted sum divided by the sum, projected and stored into the result window in four slabs): its triple, with the pieces each written buffer ends with found by running it.
-/
import proofs.«125791_j3195455668383_2_alg».proof.Proof.KI.AttnRunMid

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole buffers — the five inputs at their contents, the result window's buffer at anything, the three kept
    buffers at what the point before left — the body runs to its return with the inputs as they were and every buffer it stored into
    holding its stores, listed last first. -/
noncomputable def attnRunLast (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬isFirstKey i) (hc1 : isLastKey i)
    (x0 x1 x2 : Vec F S4x256x1024 .bf16) (x3 : Vec F S1024x1024 .bf16) (x4 : Vec F S1x1024 .f32) (xs0 xs1 : Vec F S4x256x1 .f32) (xs2 : Vec F S4x256x1024 .f32) :
    Σ' (L5 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_out_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__flash_out_kernel_eq_skeleton]; unfold cc1__flash_out_kernel_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Gen

end
-- ==== Proof.KI.Attn.lean ====
/-
  The attention kernel (the second launch) at the buffer contents `V` it is entered from. What the running maximum,
  running sum and running weighted sum hold after each grid point is a recursion on the point: at a first key
  block they are what the reset-and-update leaves, at any other key block what the update leaves of what the point
  before left. Between points the kernel keeps exactly these three buffers at those contents. The result window
  holds the projected quotient after a last key block and is idle elsewhere. Here: that recursion, the state kept
  between points, the launch's bookkeeping, and the obligation that at every point the body takes the one state
  to the next.
-/
import proofs.«125791_j3195455668383_2_alg».proof.Proof.KI.AttnRunLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the three kept buffers hold: running maximum, running sum, running weighted sum. -/
abbrev Kept (F : FTy → Type) [FloatOps F] : Type := Vec F S4x256x1 .f32 × Vec F S4x256x1 .f32 × Vec F S4x256x1024 .f32

/-! ## The body's run at a grid point, case by case -/

noncomputable def runFirstAt (c : Dev nD) (t : Fin cfg1.N) (h0 : t.val % 16 = 0) (x0 x1 x2 : Vec F S4x256x1024 .bf16) (x3 : Vec F S1024x1024 .bf16) (x4 : Vec F S1x1024 .f32) :=
  attnRunFirst (F := F) c (grid1.coords t) (aq t) (haq t) (ak t) (hak t) (av t) (hav t) (awo t) (hawo t) (abo t) (habo t) (aout t) (haout t) runMax (Memref.isWhole_whole _) runSum (Memref.isWhole_whole _) runAcc (Memref.isWhole_whole _) ((isFirstKey_iff t).mpr h0) (fun h => absurd ((isLastKey_iff t).mp h) (by omega)) x0 x1 x2 x3 x4

noncomputable def runMidAt (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) :=
  attnRunMid (F := F) c (grid1.coords t) (aq t) (haq t) (ak t) (hak t) (av t) (hav t) (awo t) (hawo t) (abo t) (habo t) (aout t) (haout t) runMax (Memref.isWhole_whole _) runSum (Memref.isWhole_whole _) runAcc (Memref.isWhole_whole _) (fun h => h0 ((isFirstKey_iff t).mp h)) (fun h => h1 ((isLastKey_iff t).mp h)) x0 x1 x2 x3 x4 xs.1 xs.2.1 xs.2.2

noncomputable def runLastAt (c : Dev nD) (t : Fin cfg1.N) (h1 : t.val % 16 = 15) (x0 x1 x2 : Vec F S4x256x1024 .bf16) (x3 : Vec F S1024x1024 .bf16) (x4 : Vec F S1x1024 .f32) (xs : Kept F) :=
  attnRunLast (F := F) c (grid1.coords t) (aq t) (haq t) (ak t) (hak t) (av t) (hav t) (awo t) (hawo t) (abo t) (habo t) (aout t) (haout t) runMax (Memref.isWhole_whole _) runSum (Memref.isWhole_whole _) runAcc (Memref.isWhole_whole _) (fun h => absurd ((isFirstKey_iff t).mp h) (by omega)) ((isLastKey_iff t).mpr h1) x0 x1 x2 x3 x4 xs.1 xs.2.1 xs.2.2

/-- What a first key block leaves in the three kept buffers. -/
def keptFirst (c : Dev nD) (t : Fin cfg1.N) (h0 : t.val % 16 = 0) (x0 x1 x2 : Vec F S4x256x1024 .bf16) (x3 : Vec F S1024x1024 .bf16) (x4 : Vec F S1x1024 .f32) : Kept F :=
  (vMax.read (Elt F) (vMax.writes (Elt F) vMax.junk (runFirstAt c t h0 x0 x1 x2 x3 x4).1),
   vSum.read (Elt F) (vSum.writes (Elt F) vSum.junk (runFirstAt c t h0 x0 x1 x2 x3 x4).2.1),
   vAcc.read (Elt F) (vAcc.writes (Elt F) vAcc.junk (runFirstAt c t h0 x0 x1 x2 x3 x4).2.2.1))
/-- What a middle key block leaves in them, of what the point before left. -/
def keptMid (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) : Kept F :=
  (vMax.read (Elt F) (vMax.writes (Elt F) vMax.junk (runMidAt c t h0 h1 x0 x1 x2 x3 x4 xs).1),
   vSum.read (Elt F) (vSum.writes (Elt F) vSum.junk (runMidAt c t h0 h1 x0 x1 x2 x3 x4 xs).2.1),
   vAcc.read (Elt F) (vAcc.writes (Elt F) vAcc.junk (runMidAt c t h0 h1 x0 x1 x2 x3 x4 xs).2.2.1))
/-- What a last key block leaves in them, -/
def keptLast (c : Dev nD) (t : Fin cfg1.N) (h1 : t.val % 16 = 15) (x0 x1 x2 : Vec F S4x256x1024 .bf16) (x3 : Vec F S1024x1024 .bf16) (x4 : Vec F S1x1024 .f32) (xs : Kept F) : Kept F :=
  (vMax.read (Elt F) (vMax.writes (Elt F) vMax.junk (runLastAt c t h1 x0 x1 x2 x3 x4 xs).2.1),
   vSum.read (Elt F) (vSum.writes (Elt F) vSum.junk (runLastAt c t h1 x0 x1 x2 x3 x4 xs).2.2.1),
   vAcc.read (Elt F) (vAcc.writes (Elt F) vAcc.junk (runLastAt c t h1 x0 x1 x2 x3 x4 xs).2.2.2.1))
/-- and in the result window's buffer. -/
def outLast (c : Dev nD) (t : Fin cfg1.N) (h1 : t.val % 16 = 15) (x0 x1 x2 : Vec F S4x256x1024 .bf16) (x3 : Vec F S1024x1024 .bf16) (x4 : Vec F S1x1024 .f32) (xs : Kept F) : Vec F S4x256x1024 .f32 :=
  vOut.read (Elt F) (vOut.writes (Elt F) vOut.junk (runLastAt c t h1 x0 x1 x2 x3 x4 xs).1)

/-! ## Every written buffer is covered by its stores -/

theorem coverMaxFirst (c : Dev nD) (t : Fin cfg1.N) (h0 : t.val % 16 = 0) (x0 x1 x2 : Vec F S4x256x1024 .bf16) (x3 : Vec F S1024x1024 .bf16) (x4 : Vec F S1x1024 .f32) (y : S4x256x1.Idx) :
    ∃ pc ∈ (runFirstAt c t h0 x0 x1 x2 x3 x4).1, y ∈ pc.1.set :=
  View.cover_of_tiledL (runFirstAt c t h0 x0 x1 x2 x3 x4).1 S4x256x1.size (by sl_kernel_rfl) y
theorem coverSumFirst (c : Dev nD) (t : Fin cfg1.N) (h0 : t.val % 16 = 0) (x0 x1 x2 : Vec F S4x256x1024 .bf16) (x3 : Vec F S1024x1024 .bf16) (x4 : Vec F S1x1024 .f32) (y : S4x256x1.Idx) :
    ∃ pc ∈ (runFirstAt c t h0 x0 x1 x2 x3 x4).2.1, y ∈ pc.1.set :=
  View.cover_of_tiledL (runFirstAt c t h0 x0 x1 x2 x3 x4).2.1 S4x256x1.size (by sl_kernel_rfl) y
theorem coverAccFirst (c : Dev nD) (t : Fin cfg1.N) (h0 : t.val % 16 = 0) (x0 x1 x2 : Vec F S4x256x1024 .bf16) (x3 : Vec F S1024x1024 .bf16) (x4 : Vec F S1x1024 .f32) (y : S4x256x1024.Idx) :
    ∃ pc ∈ (runFirstAt c t h0 x0 x1 x2 x3 x4).2.2.1, y ∈ pc.1.set :=
  View.cover_of_tiledL (runFirstAt c t h0 x0 x1 x2 x3 x4).2.2.1 S4x256x1024.size (by sl_kernel_rfl) y
theorem coverMaxMid (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) (y : S4x256x1.Idx) :
    ∃ pc ∈ (runMidAt c t h0 h1 x0 x1 x2 x3 x4 xs).1, y ∈ pc.1.set :=
  View.cover_of_tiledL (runMidAt c t h0 h1 x0 x1 x2 x3 x4 xs).1 S4x256x1.size (by sl_kernel_rfl) y
theorem coverSumMid (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) (y : S4x256x1.Idx) :
    ∃ pc ∈ (runMidAt c t h0 h1 x0 x1 x2 x3 x4 xs).2.1, y ∈ pc.1.set :=
  View.cover_of_tiledL (runMidAt c t h0 h1 x0 x1 x2 x3 x4 xs).2.1 S4x256x1.size (by sl_kernel_rfl) y
theorem coverAccMid (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) (y : S4x256x1024.Idx) :
    ∃ pc ∈ (runMidAt c t h0 h1 x0 x1 x2 x3 x4 xs).2.2.1, y ∈ pc.1.set :=
  View.cover_of_tiledL (runMidAt c t h0 h1 x0 x1 x2 x3 x4 xs).2.2.1 S4x256x1024.size (by sl_kernel_rfl) y
theorem coverOutLast (c : Dev nD) (t : Fin cfg1.N) (h1 : t.val % 16 = 15) (x0 x1 x2 : Vec F S4x256x1024 .bf16) (x3 : Vec F S1024x1024 .bf16) (x4 : Vec F S1x1024 .f32) (xs : Kept F) (y : S4x256x1024.Idx) :
    ∃ pc ∈ (runLastAt c t h1 x0 x1 x2 x3 x4 xs).1, y ∈ pc.1.set :=
  View.cover_of_tiledL (runLastAt c t h1 x0 x1 x2 x3 x4 xs).1 S1x256x1024.size (by sl_kernel_rfl) y
theorem coverMaxLast (c : Dev nD) (t : Fin cfg1.N) (h1 : t.val % 16 = 15) (x0 x1 x2 : Vec F S4x256x1024 .bf16) (x3 : Vec F S1024x1024 .bf16) (x4 : Vec F S1x1024 .f32) (xs : Kept F) (y : S4x256x1.Idx) :
    ∃ pc ∈ (runLastAt c t h1 x0 x1 x2 x3 x4 xs).2.1, y ∈ pc.1.set :=
  View.cover_of_tiledL (runLastAt c t h1 x0 x1 x2 x3 x4 xs).2.1 S4x256x1.size (by sl_kernel_rfl) y
theorem coverSumLast (c : Dev nD) (t : Fin cfg1.N) (h1 : t.val % 16 = 15) (x0 x1 x2 : Vec F S4x256x1024 .bf16) (x3 : Vec F S1024x1024 .bf16) (x4 : Vec F S1x1024 .f32) (xs : Kept F) (y : S4x256x1.Idx) :
    ∃ pc ∈ (runLastAt c t h1 x0 x1 x2 x3 x4 xs).2.2.1, y ∈ pc.1.set :=
  View.cover_of_tiledL (runLastAt c t h1 x0 x1 x2 x3 x4 xs).2.2.1 S4x256x1.size (by sl_kernel_rfl) y
theorem coverAccLast (c : Dev nD) (t : Fin cfg1.N) (h1 : t.val % 16 = 15) (x0 x1 x2 : Vec F S4x256x1024 .bf16) (x3 : Vec F S1024x1024 .bf16) (x4 : Vec F S1x1024 .f32) (xs : Kept F) (y : S4x256x1024.Idx) :
    ∃ pc ∈ (runLastAt c t h1 x0 x1 x2 x3 x4 xs).2.2.2.1, y ∈ pc.1.set :=
  View.cover_of_tiledL (runLastAt c t h1 x0 x1 x2 x3 x4 xs).2.2.2.1 S4x256x1024.size (by sl_kernel_rfl) y

/-! ## What the kept buffers hold after each point -/

/-- The recursion: after point `n` the three kept buffers hold what that point's case leaves, a key block other
    than the first starting from what point `n - 1` left. -/
def keptAt (c : Dev nD) : (n : ℕ) → n < cfg1.N → Kept F
  | 0, hn => keptFirst c ⟨0, hn⟩ (Nat.zero_mod _) (attnBlk V c 0 ⟨0, hn⟩) (attnBlk V c 1 ⟨0, hn⟩) (attnBlk V c 2 ⟨0, hn⟩) (attnBlk V c 3 ⟨0, hn⟩) (attnBlk V c 4 ⟨0, hn⟩)
  | n + 1, hn =>
    if h0 : (n + 1) % 16 = 0 then
      keptFirst c ⟨n + 1, hn⟩ h0 (attnBlk V c 0 ⟨n + 1, hn⟩) (attnBlk V c 1 ⟨n + 1, hn⟩) (attnBlk V c 2 ⟨n + 1, hn⟩) (attnBlk V c 3 ⟨n + 1, hn⟩) (attnBlk V c 4 ⟨n + 1, hn⟩)
    else if h1 : (n + 1) % 16 = 15 then
      keptLast c ⟨n + 1, hn⟩ h1 (attnBlk V c 0 ⟨n + 1, hn⟩) (attnBlk V c 1 ⟨n + 1, hn⟩) (attnBlk V c 2 ⟨n + 1, hn⟩) (attnBlk V c 3 ⟨n + 1, hn⟩) (attnBlk V c 4 ⟨n + 1, hn⟩) (keptAt c n (Nat.lt_of_succ_lt hn))
    else
      keptMid c ⟨n + 1, hn⟩ h0 h1 (attnBlk V c 0 ⟨n + 1, hn⟩) (attnBlk V c 1 ⟨n + 1, hn⟩) (attnBlk V c 2 ⟨n + 1, hn⟩) (attnBlk V c 3 ⟨n + 1, hn⟩) (attnBlk V c 4 ⟨n + 1, hn⟩) (keptAt c n (Nat.lt_of_succ_lt hn))

theorem keptAt_first (c : Dev nD) (t : Fin cfg1.N) (h0 : t.val % 16 = 0) :
    keptAt V c t.val t.isLt = keptFirst c t h0 (attnBlk V c 0 t) (attnBlk V c 1 t) (attnBlk V c 2 t) (attnBlk V c 3 t) (attnBlk V c 4 t) := by
  obtain ⟨n, hn⟩ := t
  cases n with
  | zero => rfl
  | succ n => exact (dif_pos h0).trans rfl

theorem keptAt_mid (c : Dev nD) (t : Fin cfg1.N) (h0 : ¬t.val % 16 = 0) (h1 : ¬t.val % 16 = 15) :
    keptAt V c t.val t.isLt = keptMid c t h0 h1 (attnBlk V c 0 t) (attnBlk V c 1 t) (attnBlk V c 2 t) (attnBlk V c 3 t) (attnBlk V c 4 t) (keptAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem keptAt_last (c : Dev nD) (t : Fin cfg1.N) (h1 : t.val % 16 = 15) :
    keptAt V c t.val t.isLt = keptLast c t h1 (attnBlk V c 0 t) (attnBlk V c 1 t) (attnBlk V c 2 t) (attnBlk V c 3 t) (attnBlk V c 4 t) (keptAt V c (t.val - 1) (Nat.lt_of_le_of_lt (Nat.sub_le _ _) t.isLt)) := by
  obtain ⟨n, hn⟩ := t
  cases n with
  | zero => exact absurd (show (0 : ℕ) % 16 = 15 from h1) (by decide)
  | succ n =>
    have h1' : (n + 1) % 16 = 15 := h1
    exact (dif_neg (show ¬(n + 1) % 16 = 0 by omega)).trans ((dif_pos h1').trans rfl)

/-- What the result window's buffer holds after point `t`: at a last key block the projected quotient, elsewhere
    nothing anyone reads (the window is idle there). -/
def outAt (c : Dev nD) (t : Fin cfg1.N) : Vec F S4x256x1024 .f32 :=
  if h1 : t.val % 16 = 15 then
    outLast c t h1 (attnBlk V c 0 t) (attnBlk V c 1 t) (attnBlk V c 2 t) (attnBlk V c 3 t) (attnBlk V c 4 t) (keptAt V c (t.val - 1) (Nat.lt_of_le_of_lt (Nat.sub_le _ _) t.isLt))
  else vOut.read (Elt F) vOut.junk

/-! ## The state kept between points -/

/-- The other launch's staging buffers: scoped buffers this kernel never touches, each at anything. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

theorem attnRest_split (c : Dev nD) :
    (Pipeline.ΦA spec1 c : sProp 𝕄) ⊢ iprop(otherStaging c ∗ (∃ d, owns (c : Thread nD τ) runMax fullShare d) ∗ (∃ d, owns (c : Thread nD τ) runSum fullShare d) ∗ (∃ d, owns (c : Thread nD τ) runAcc fullShare d) ∗ (∃ r, prngReg c r)) := by
  rw [attnRest_eq]; unfold otherStaging
  iintro ⟨⟨B0, B1, B2, B3, B4, B5, B6, B7, B8, B9, B10, B11, B12, B13, HS0, HS1, HS2⟩, Hg⟩
  isplitl [B0 B1 B2 B3 B4 B5 B6 B7 B8 B9 B10 B11 B12 B13]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  isplitl [HS0]; · iexact HS0
  isplitl [HS1]; · iexact HS1
  isplitl [HS2]; · iexact HS2
  iexact Hg

theorem attnRest_join (c : Dev nD) :
    iprop(otherStaging c ∗ (∃ d, owns (c : Thread nD τ) runMax fullShare d) ∗ (∃ d, owns (c : Thread nD τ) runSum fullShare d) ∗ (∃ d, owns (c : Thread nD τ) runAcc fullShare d) ∗ (∃ r, prngReg c r)) ⊢ (Pipeline.ΦA spec1 c : sProp 𝕄) := by
  rw [attnRest_eq]; unfold otherStaging
  iintro ⟨⟨B0, B1, B2, B3, B4, B5, B6, B7, B8, B9, B10, B11, B12, B13⟩, HS0, HS1, HS2, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [HS0]; · iexact HS0
    isplitl [HS1]; · iexact HS1
    iexact HS2
  iexact Hg

/-- Before point `n`: before the first point whatever the launch hands over; afterwards the three kept buffers at what
    point `n - 1` left, the untouched buffers at anything, the generator register at some state. -/
def attnInv (c : Dev nD) : (n : ℕ) → n ≤ cfg1.N → sProp 𝕄
  | 0, _ => Pipeline.ΦA spec1 c
  | n + 1, hn => iprop(otherStaging c ∗ owns (c : Thread nD τ) runMax fullShare (keptAt V c n hn).1 ∗ owns (c : Thread nD τ) runSum fullShare (keptAt V c n hn).2.1 ∗ owns (c : Thread nD τ) runAcc fullShare (keptAt V c n hn).2.2 ∗ (∃ r, prngReg c r))

theorem attnInv_zero (c : Dev nD) (n : ℕ) (h : n ≤ cfg1.N) (hz : n = 0) : attnInv V c n h = Pipeline.ΦA spec1 c := by
  subst hz; rfl
theorem attnInv_succ (c : Dev nD) (n : ℕ) (hn : n < cfg1.N) :
    attnInv V c (n + 1) hn = iprop(otherStaging c ∗ owns (c : Thread nD τ) runMax fullShare (keptAt V c n hn).1 ∗ owns (c : Thread nD τ) runSum fullShare (keptAt V c n hn).2.1 ∗ owns (c : Thread nD τ) runAcc fullShare (keptAt V c n hn).2.2 ∗ (∃ r, prngReg c r)) := rfl
theorem attnInv_pos (c : Dev nD) (n : ℕ) (h : n ≤ cfg1.N) (hz : n ≠ 0) :
    attnInv V c n h = iprop(otherStaging c ∗ owns (c : Thread nD τ) runMax fullShare (keptAt V c (n - 1) (by omega)).1 ∗ owns (c : Thread nD τ) runSum fullShare (keptAt V c (n - 1) (by omega)).2.1 ∗ owns (c : Thread nD τ) runAcc fullShare (keptAt V c (n - 1) (by omega)).2.2 ∗ (∃ r, prngReg c r)) := by
  cases n with
  | zero => exact absurd rfl hz
  | succ n => rfl

/-! ## The launch's bookkeeping -/

def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnBlk V c 3 t
    | ⟨4, _⟩ => attnBlk V c 4 t
    | ⟨5, _⟩ => outAt V c t
  Φ t := attnInv V c t.val (Nat.le_of_lt_succ t.isLt)
  q _ := fullShare
  owed _ := 0

theorem attnA_eq (c : Dev nD) (w : Fin cfg1.W) : (attnDat V c).A w = V c (Pipeline.arrRef spec1 w) := by
  dsimp only [attnDat]
theorem attnInv_castSucc (c : Dev nD) (t : Fin cfg1.N) :
    (attnDat V c).Φ t.castSucc = attnInv V c t.val (Nat.le_of_lt t.isLt) := by
  dsimp only [attnDat]; simp only [Fin.coe_castSucc]

theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) : (attnDat V c).after 3 t = attnBlk V c 3 t := by dsimp only [attnDat]
theorem attnAfter4 (c : Dev nD) (t : Fin cfg1.N) : (attnDat V c).after 4 t = attnBlk V c 4 t := by dsimp only [attnDat]
theorem attnAfter5 (c : Dev nD) (t : Fin cfg1.N) : (attnDat V c).after 5 t = outAt V c t := by dsimp only [attnDat]

theorem attnBefore0 (c : Dev nD) (t : Fin cfg1.N) (d) : (attnDat V c).before 0 t d = attnBlk V c 0 t :=
  attnBefore0_of V (attnDat V c) (attnA_eq V c 0) (attnAfter0 V c) t d
theorem attnBefore1 (c : Dev nD) (t : Fin cfg1.N) (d) : (attnDat V c).before 1 t d = attnBlk V c 1 t :=
  attnBefore1_of V (attnDat V c) (attnA_eq V c 1) (attnAfter1 V c) t d
theorem attnBefore2 (c : Dev nD) (t : Fin cfg1.N) (d) : (attnDat V c).before 2 t d = attnBlk V c 2 t :=
  attnBefore2_of V (attnDat V c) (attnA_eq V c 2) (attnAfter2 V c) t d
theorem attnBefore3 (c : Dev nD) (t : Fin cfg1.N) (d) : (attnDat V c).before 3 t d = attnBlk V c 3 t :=
  attnBefore3_of V (attnDat V c) (attnA_eq V c 3) (attnAfter3 V c) t d
theorem attnBefore4 (c : Dev nD) (t : Fin cfg1.N) (d) : (attnDat V c).before 4 t d = attnBlk V c 4 t :=
  attnBefore4_of V (attnDat V c) (attnA_eq V c 4) (attnAfter4 V c) t d

/-! ## The obligation at a point -/

def attnPre (c : Dev nD) (t : Fin cfg1.N) : sProp 𝕄 :=
  iprop((attnDat V c).Φ t.castSucc ∗ (attnDat V c).owesAt () t.castSucc
    ∗ (∃ d, owns (c : Thread nD τ) (aq t) fullShare ((attnDat V c).before 0 t d))
    ∗ (∃ d, owns (c : Thread nD τ) (ak t) fullShare ((attnDat V c).before 1 t d))
    ∗ (∃ d, owns (c : Thread nD τ) (av t) fullShare ((attnDat V c).before 2 t d))
    ∗ (∃ d, owns (c : Thread nD τ) (awo t) fullShare ((attnDat V c).before 3 t d))
    ∗ (∃ d, owns (c : Thread nD τ) (abo t) fullShare ((attnDat V c).before 4 t d))
    ∗ (∃ d, owns (c : Thread nD τ) (aout t) fullShare ((attnDat V c).before 5 t d)))

def attnPost (c : Dev nD) (t : Fin cfg1.N) : sProp 𝕄 :=
  iprop((attnDat V c).Φ t.succ ∗ (attnDat V c).owesAt () t.succ
    ∗ (attnDat V c).leavesExact 0 t ∗ (attnDat V c).leavesExact 1 t ∗ (attnDat V c).leavesExact 2 t
    ∗ (attnDat V c).leavesExact 3 t ∗ (attnDat V c).leavesExact 4 t ∗ (attnDat V c).leavesExact 5 t)

set_option maxHeartbeats 8000000 in
/-- The body at any point: the closed forms say which case the point is in; the inputs hold their blocks; the kept
    buffers are handed over at what the point before left (at anything at the very first point) and taken back at
    this point's contents; the result window is handed back untouched away from a last key block. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore0, attnBefore1, attnBefore2, attnBefore3, attnBefore4]
  rw [show (attnDat V c).owesAt () t.succ = (attnDat V c).owesAt () t.castSucc from rfl]
  rw [show (attnDat V c).Φ t.succ = attnInv V c (t.val + 1) t.isLt from rfl, attnInv_succ]
  rw [show (attnDat V c).leavesExact 0 t = owns (c : Thread nD τ) (aq t) fullShare ((attnDat V c).after 0 t) from by
    unfold Dat.leavesExact; rw [attnLive0 t], attnAfter0]
  rw [show (attnDat V c).leavesExact 1 t = owns (c : Thread nD τ) (ak t) fullShare ((attnDat V c).after 1 t) from by
    unfold Dat.leavesExact; rw [attnLive1 t], attnAfter1]
  rw [show (attnDat V c).leavesExact 2 t = owns (c : Thread nD τ) (av t) fullShare ((attnDat V c).after 2 t) from by
    unfold Dat.leavesExact; rw [attnLive2 t], attnAfter2]
  rw [show (attnDat V c).leavesExact 3 t = owns (c : Thread nD τ) (awo t) fullShare ((attnDat V c).after 3 t) from by
    unfold Dat.leavesExact; rw [attnLive3 t], attnAfter3]
  rw [show (attnDat V c).leavesExact 4 t = owns (c : Thread nD τ) (abo t) fullShare ((attnDat V c).after 4 t) from by
    unfold Dat.leavesExact; rw [attnLive4 t], attnAfter4]
  have hN : t.val < 256 := lt_of_lt_of_eq t.isLt (show cfg1.N = 256 from N_1)
  by_cases h0 : t.val % 16 = 0
  · have h1 : ¬t.val % 16 = 15 := by omega
    rw [Dat.leavesExact_idle (attnDat V c) 5 t (attnIdleOut t (fun h => h1 ((isLastKey_iff t).mp h))) (attnNoFlushOut t (fun h => h1 ((isLastKey_iff t).mp h)))]
    rw [keptAt_first V c t h0]
    unfold keptFirst; dsimp only
    have hstart : attnInv V c t.val (Nat.le_of_lt t.isLt) ⊢ iprop(otherStaging c ∗ (∃ d, owns (c : Thread nD τ) runMax fullShare d) ∗ (∃ d, owns (c : Thread nD τ) runSum fullShare d) ∗ (∃ d, owns (c : Thread nD τ) runAcc fullShare d) ∗ (∃ r, prngReg c r)) := by
      by_cases hz : t.val = 0
      · rw [attnInv_zero V c _ _ hz]; exact attnRest_split c
      · rw [attnInv_pos V c _ _ hz]
        iintro ⟨HR, HS0, HS1, HS2, Hg⟩
        isplitl [HR]; · iexact HR
        isplitl [HS0]; · iexists _; iexact HS0
        isplitl [HS1]; · iexists _; iexact HS1
        isplitl [HS2]; · iexists _; iexact HS2
        iexact Hg
    rw [attnInv_castSucc V c t]
    iintro ⟨HΦ, Ho, ⟨%d0, H0⟩, ⟨%d1, H1⟩, ⟨%d2, H2⟩, ⟨%d3, H3⟩, ⟨%d4, H4⟩, ⟨%d5, H5⟩⟩
    ihave HΦ' := hstart $$ HΦ
    icases HΦ' with ⟨HR, HS0, HS1, HS2, Hg⟩
    iapply ((runFirstAt c t h0 (attnBlk V c 0 t) (attnBlk V c 1 t) (attnBlk V c 2 t) (attnBlk V c 3 t) (attnBlk V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (coverMaxFirst c t h0 _ _ _ _ _)
      isplitl [HS1]
      · unfold owns; iexists _; isplitr
        swap; · iexact HS1
        ipureintro; exact View.read_writes_of_cover _ _ _ _ _ (coverSumFirst c t h0 _ _ _ _ _)
      isplitl [HS2]
      · unfold owns; iexists _; isplitr
        swap; · iexact HS2
        ipureintro; exact View.read_writes_of_cover _ _ _ _ _ (coverAccFirst c t h0 _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    by_cases h1 : t.val % 16 = 15
    · rw [show (attnDat V c).leavesExact 5 t = owns (c : Thread nD τ) (aout t) fullShare ((attnDat V c).after 5 t) from by
        unfold Dat.leavesExact; rw [attnLiveOut t ((isLastKey_iff t).mpr h1)], attnAfter5]
      rw [keptAt_last V c t h1]
      unfold outAt; rw [dif_pos h1]
      unfold keptLast outLast; dsimp only
      rw [attnInv_castSucc V c t, attnInv_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((runLastAt c t h1 (attnBlk V c 0 t) (attnBlk V c 1 t) (attnBlk V c 2 t) (attnBlk V c 3 t) (attnBlk V c 4 t) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (coverMaxLast c t h1 _ _ _ _ _ _)
        isplitl [HS1]
        · unfold owns; iexists _; isplitr
          swap; · iexact HS1
          ipureintro; exact View.read_writes_of_cover _ _ _ _ _ (coverSumLast c t h1 _ _ _ _ _ _)
        isplitl [HS2]
        · unfold owns; iexists _; isplitr
          swap; · iexact HS2
          ipureintro; exact View.read_writes_of_cover _ _ _ _ _ (coverAccLast c t h1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOutLast c t h1 _ _ _ _ _ _)
    · rw [Dat.leavesExact_idle (attnDat V c) 5 t (attnIdleOut t (fun h => h1 ((isLastKey_iff t).mp h))) (attnNoFlushOut t (fun h => h1 ((isLastKey_iff t).mp h)))]
      rw [keptAt_mid V c t h0 h1]
      unfold keptMid; dsimp only
      rw [attnInv_castSucc V c t, attnInv_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((runMidAt c t h0 h1 (attnBlk V c 0 t) (attnBlk V c 1 t) (attnBlk V c 2 t) (attnBlk V c 3 t) (attnBlk V c 4 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (coverMaxMid c t h0 h1 _ _ _ _ _ _)
        isplitl [HS1]
        · unfold owns; iexists _; isplitr
          swap; · iexact HS1
          ipureintro; exact View.read_writes_of_cover _ _ _ _ _ (coverSumMid c t h0 h1 _ _ _ _ _ _)
        isplitl [HS2]
        · unfold owns; iexists _; isplitr
          swap; · iexact HS2
          ipureintro; exact View.read_writes_of_cover _ _ _ _ _ (coverAccMid c t h0 h1 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The obligation the launch theorem asks for, at every point. -/
theorem attnObligation (c : Dev nD) : BodyObligation (attnDat (F := F) V c) (defs₀ (F := F)) Variants.none () Set.univ := fun t => by
  rw [bigSep_W1, bigSep_W1]
  exact attnBody V c t

/-- What the launch hands the kernel is the state before the first point. -/
theorem attnIn (c : Dev nD) : Pipeline.ΦA spec1 c ⊢ (attnDat V c).Φ 0 := by
  rw [show (attnDat V c).Φ 0 = attnInv V c 0 (Nat.zero_le _) from rfl, attnInv_zero V c 0 _ rfl]

/-- After any point the kept buffers' contents may be forgotten again. -/
theorem attnForget (c : Dev nD) (t : Fin (cfg1.N + 1)) (ht : t.val ≠ 0) : (attnDat V c).Φ t ⊢ Pipeline.ΦA spec1 c := by
  have hlt : t.val < cfg1.N + 1 := t.isLt
  rw [show (attnDat V c).Φ t = attnInv V c t.val (Nat.le_of_lt_succ t.isLt) from rfl, attnInv_pos V c _ _ ht]
  have hweak : (iprop(otherStaging c ∗ owns (c : Thread nD τ) runMax fullShare (keptAt V c (t.val - 1) (by omega)).1 ∗ owns (c : Thread nD τ) runSum fullShare (keptAt V c (t.val - 1) (by omega)).2.1 ∗ owns (c : Thread nD τ) runAcc fullShare (keptAt V c (t.val - 1) (by omega)).2.2 ∗ (∃ r, prngReg c r)) : sProp 𝕄)
      ⊢ iprop(otherStaging c ∗ (∃ d, owns (c : Thread nD τ) runMax fullShare d) ∗ (∃ d, owns (c : Thread nD τ) runSum fullShare d) ∗ (∃ d, owns (c : Thread nD τ) runAcc fullShare d) ∗ (∃ r, prngReg c r)) := by
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg
  exact hweak.trans (attnRest_join c)

/-- In particular after the last point. -/
theorem attnOut (c : Dev nD) : (attnDat V c).Φ (Fin.last cfg1.N) ⊢ Pipeline.ΦA spec1 c :=
  attnForget V c _ (by rw [Fin.val_last]; have : cfg1.N = 256 := N_1; omega)

end Cert.KernelIdeal.Gen

end
-- ==== Proof.KI.Kept.lean ====
/-
  What the attention kernel's three kept buffers hold, in closed form: every key block applies ONE update to the
  running maximum, running sum and running weighted sum — the new maximum, the old sum and weighted sum rescaled by
  exp (old maximum - new maximum) plus this block's contributions —, and a first key block applies it to the reset
  state (-∞, 0, 0). So after each grid point the kept buffers are the fold of that update along the key blocks of the
  point's query block.
-/
import proofs.«125791_j3195455668383_2_alg».proof.Proof.KI.Attn
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero3 : (![0, 0, 0] : Fin 3 → Nat) = fun _ => 0 := funext fun a => by fin_cases a <;> rfl

theorem read_runMax (h : (runMax : Memref sig .tc .vmem S4x256x1 .f32).IsWhole) (X : Vec F S4x256x1 .f32) :
    View.read (Elt F) (View.whole cc1_scratch0) (h.unread X) = X := h.read_unread X
theorem read_runSum (h : (runSum : Memref sig .tc .vmem S4x256x1 .f32).IsWhole) (X : Vec F S4x256x1 .f32) :
    View.read (Elt F) (View.whole cc1_scratch1) (h.unread X) = X := h.read_unread X
theorem read_runAcc (h : (runAcc : Memref sig .tc .vmem S4x256x1024 .f32).IsWhole) (X : Vec F S4x256x1024 .f32) :
    View.read (Elt F) (View.whole cc1_scratch2) (h.unread X) = X := h.read_unread X

/-- One key block's update of (running maximum, running sum, running weighted sum), from the query block `x0`, the key
    block `x1` and the value block `x2`. -/
def keyStep (x0 x1 x2 : Vec F S4x256x1024 .bf16) (xs : Kept F) : Kept F :=
  (k1_pay2 (k1_pay14 x0 x1 xs.1), k1_pay17 x0 x1 xs.1 xs.1 xs.2.1, k1_pay1 (k1_pay15 x0 x1 xs.1 xs.1) (k1_pay16 x0 x1 xs.1) xs.2.2 x2)

/-- The reset state: -∞, 0, 0. -/
def keyReset : Kept F := (k1_pay10, k1_pay11, k1_pay12)

theorem keptMid_eq (c : Dev nD) (t : Fin cfg1.N) (h0 : ¬t.val % 16 = 0) (h1 : ¬t.val % 16 = 15) (x0 x1 x2 : Vec F S4x256x1024 .bf16) (x3 : Vec F S1024x1024 .bf16) (x4 : Vec F S1x1024 .f32) (xs : Kept F) :
    keptMid c t h0 h1 x0 x1 x2 x3 x4 xs = keyStep x0 x1 x2 xs := by
  unfold keptMid keyStep
  refine Prod.ext ?_ (Prod.ext ?_ ?_)
  · dsimp only
    rw [View.read_writes_eq_canon _ _ _ (coverMaxMid c t h0 h1 x0 x1 x2 x3 x4 xs)]
    unfold runMidAt attnRunMid
    dsimp only
    sl_unfold_words
    rw [View.canon_unit_zero zero3]
    simp only [View.readAt_eq_ld, (haq t).read_unread, (hak t).read_unread, (hav t).read_unread, View.ld_unit_zero (S := S4x256x1024) zero3, View.ld_unit_zero (S := S4x256x1) zero3, read_runMax, read_runSum, read_runAcc]
  · dsimp only
    rw [View.read_writes_eq_canon _ _ _ (coverSumMid c t h0 h1 x0 x1 x2 x3 x4 xs)]
    unfold runMidAt attnRunMid
    dsimp only
    sl_unfold_words
    rw [View.canon_unit_zero zero3]
    simp only [View.readAt_eq_ld, (haq t).read_unread, (hak t).read_unread, (hav t).read_unread, View.ld_unit_zero (S := S4x256x1024) zero3, View.ld_unit_zero (S := S4x256x1) zero3, read_runMax, read_runSum, read_runAcc]
  · dsimp only
    rw [View.read_writes_eq_canon _ _ _ (coverAccMid c t h0 h1 x0 x1 x2 x3 x4 xs)]
    unfold runMidAt attnRunMid
    dsimp only
    sl_unfold_words
    rw [View.canon_unit_zero zero3]
    simp only [View.readAt_eq_ld, (haq t).read_unread, (hak t).read_unread, (hav t).read_unread, View.ld_unit_zero (S := S4x256x1024) zero3, View.ld_unit_zero (S := S4x256x1) zero3, read_runMax, read_runSum, read_runAcc]

theorem keptLast_eq (c : Dev nD) (t : Fin cfg1.N) (h1 : t.val % 16 = 15) (x0 x1 x2 : Vec F S4x256x1024 .bf16) (x3 : Vec F S1024x1024 .bf16) (x4 : Vec F S1x1024 .f32) (xs : Kept F) :
    keptLast c t h1 x0 x1 x2 x3 x4 xs = keyStep x0 x1 x2 xs := by
  unfold keptLast keyStep
  refine Prod.ext ?_ (Prod.ext ?_ ?_)
  · dsimp only
    rw [View.read_writes_eq_canon _ _ _ (coverMaxLast c t h1 x0 x1 x2 x3 x4 xs)]
    unfold runLastAt attnRunLast
    dsimp only
    sl_unfold_words
    rw [View.canon_unit_zero zero3]
    simp only [View.readAt_eq_ld, (haq t).read_unread, (hak t).read_unread, (hav t).read_unread, View.ld_unit_zero (S := S4x256x1024) zero3, View.ld_unit_zero (S := S4x256x1) zero3, read_runMax, read_runSum, read_runAcc]
  · dsimp only
    rw [View.read_writes_eq_canon _ _ _ (coverSumLast c t h1 x0 x1 x2 x3 x4 xs)]
    unfold runLastAt attnRunLast
    dsimp only
    sl_unfold_words
    rw [View.canon_unit_zero zero3]
    simp only [View.readAt_eq_ld, (haq t).read_unread, (hak t).read_unread, (hav t).read_unread, View.ld_unit_zero (S := S4x256x1024) zero3, View.ld_unit_zero (S := S4x256x1) zero3, read_runMax, read_runSum, read_runAcc]
  · dsimp only
    rw [View.read_writes_eq_canon _ _ _ (coverAccLast c t h1 x0 x1 x2 x3 x4 xs)]
    unfold runLastAt attnRunLast
    dsimp only
    sl_unfold_words
    rw [View.canon_unit_zero zero3]
    simp only [View.readAt_eq_ld, (haq t).read_unread, (hak t).read_unread, (hav t).read_unread, View.ld_unit_zero (S := S4x256x1024) zero3, View.ld_unit_zero (S := S4x256x1) zero3, read_runMax, read_runSum, read_runAcc]

theorem keptFirst_eq (c : Dev nD) (t : Fin cfg1.N) (h0 : t.val % 16 = 0) (x0 x1 x2 : Vec F S4x256x1024 .bf16) (x3 : Vec F S1024x1024 .bf16) (x4 : Vec F S1x1024 .f32) :
    keptFirst c t h0 x0 x1 x2 x3 x4 = keyStep x0 x1 x2 (keyReset (F := F)) := by
  unfold keptFirst keyStep keyReset
  refine Prod.ext ?_ (Prod.ext ?_ ?_)
  · dsimp only
    rw [View.read_writes_eq_canon _ _ _ (coverMaxFirst c t h0 x0 x1 x2 x3 x4)]
    unfold runFirstAt attnRunFirst
    dsimp only
    sl_unfold_words
    rw [View.canon_cons_unit_zero (S := S4x256x1) zero3]
    simp only [View.readAt_eq_ld, (haq t).read_unread, (hak t).read_unread, (hav t).read_unread, View.ld_unit_zero (S := S4x256x1024) zero3, View.ld_unit_zero (S := S4x256x1) zero3, View.readCov_unit_zero (S := S4x256x1) _ zero3, View.readCov_unit_zero (S := S4x256x1024) _ zero3]
  · dsimp only
    rw [View.read_writes_eq_canon _ _ _ (coverSumFirst c t h0 x0 x1 x2 x3 x4)]
    unfold runFirstAt attnRunFirst
    dsimp only
    sl_unfold_words
    rw [View.canon_cons_unit_zero (S := S4x256x1) zero3]
    simp only [View.readAt_eq_ld, (haq t).read_unread, (hak t).read_unread, (hav t).read_unread, View.ld_unit_zero (S := S4x256x1024) zero3, View.ld_unit_zero (S := S4x256x1) zero3, View.readCov_unit_zero (S := S4x256x1) _ zero3, View.readCov_unit_zero (S := S4x256x1024) _ zero3]
  · dsimp only
    rw [View.read_writes_eq_canon _ _ _ (coverAccFirst c t h0 x0 x1 x2 x3 x4)]
    unfold runFirstAt attnRunFirst
    dsimp only
    sl_unfold_words
    rw [View.canon_cons_unit_zero (S := S4x256x1024) zero3]
    simp only [View.readAt_eq_ld, (haq t).read_unread, (hak t).read_unread, (hav t).read_unread, View.ld_unit_zero (S := S4x256x1024) zero3, View.ld_unit_zero (S := S4x256x1) zero3, View.readCov_unit_zero (S := S4x256x1) _ zero3, View.readCov_unit_zero (S := S4x256x1024) _ zero3]

end Cert.KernelIdeal.Gen

end
-- ==== Proof.KI.AttnBlocks.lean ====
/-
  The attention kernel's operand blocks as pieces of the arrays the launch finds: at grid point t (query block t / 16,
  key block t % 16) the query block is rows 256·(t/16) … of the projected queries, the key and value blocks are rows
  256·(t%16) … of the projected keys and values, and the output weight and bias are whole.
-/
import proofs.«125791_j3195455668383_2_alg».proof.Proof.KI.Kept
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The windows' block indices over the grid: the query window moves with t / 16, the key and value windows with t % 16. -/
theorem qIndex : ∀ t : Fin cfg1.N, win1_0.index t 0 = 0 ∧ win1_0.index t 1 = t.val / 16 ∧ win1_0.index t 2 = 0 :=
  (by decide +kernel : ∀ t : Fin grid1.N, win1_0.index t 0 = 0 ∧ win1_0.index t 1 = t.val / 16 ∧ win1_0.index t 2 = 0)
theorem kIndex : ∀ t : Fin cfg1.N, win1_1.index t 0 = 0 ∧ win1_1.index t 1 = t.val % 16 ∧ win1_1.index t 2 = 0 :=
  (by decide +kernel : ∀ t : Fin grid1.N, win1_1.index t 0 = 0 ∧ win1_1.index t 1 = t.val % 16 ∧ win1_1.index t 2 = 0)
theorem vIndex : ∀ t : Fin cfg1.N, win1_2.index t 0 = 0 ∧ win1_2.index t 1 = t.val % 16 ∧ win1_2.index t 2 = 0 :=
  (by decide +kernel : ∀ t : Fin grid1.N, win1_2.index t 0 = 0 ∧ win1_2.index t 1 = t.val % 16 ∧ win1_2.index t 2 = 0)
theorem woIndex : ∀ t : Fin cfg1.N, win1_3.index t 0 = 0 ∧ win1_3.index t 1 = 0 :=
  (by decide +kernel : ∀ t : Fin grid1.N, win1_3.index t 0 = 0 ∧ win1_3.index t 1 = 0)
theorem boIndex : ∀ t : Fin cfg1.N, win1_4.index t 0 = 0 ∧ win1_4.index t 1 = 0 :=
  (by decide +kernel : ∀ t : Fin grid1.N, win1_4.index t 0 = 0 ∧ win1_4.index t 1 = 0)
theorem outIndex : ∀ t : Fin cfg1.N, win1_5.index t 0 = 0 ∧ win1_5.index t 1 = t.val / 16 ∧ win1_5.index t 2 = 0 :=
  (by decide +kernel : ∀ t : Fin grid1.N, win1_5.index t 0 = 0 ∧ win1_5.index t 1 = t.val / 16 ∧ win1_5.index t 2 = 0)

/-- Row r of query block t / 16. -/
def qRow (t : Fin cfg1.N) (r : Fin 256) : Fin 4096 := ⟨256 * (t.val / 16) + r.val, by
  have := t.isLt; have hN : cfg1.N = 256 := N_1; have := r.isLt; omega⟩
/-- Row kk of key block t % 16. -/
def kRow (t : Fin cfg1.N) (kk : Fin 256) : Fin 4096 := ⟨256 * (t.val % 16) + kk.val, by
  have := kk.isLt; omega⟩

theorem qBlk_at (c : Dev nD) (t : Fin cfg1.N) (b : Fin 4) (r : Fin 256) (d : Fin 1024) :
    (attnBlk V c 0 t : Vec F S4x256x1024 .bf16) (ix3 b r d) = V c main_v14 (ix3 b (qRow t r) d) := by
  obtain ⟨h0, h1, h2⟩ := qIndex t
  unfold attnBlk
  rw [View.read_apply]
  show V c main_v14 _ = V c main_v14 _
  congr 1
  funext a
  apply Fin.ext
  match a with
  | ⟨0, _⟩ => show win1_0.index t 0 * 4 + 1 * b.val = b.val; rw [h0]; omega
  | ⟨1, _⟩ => show win1_0.index t 1 * 256 + 1 * r.val = 256 * (t.val / 16) + r.val; rw [h1]; omega
  | ⟨2, _⟩ => show win1_0.index t 2 * 1024 + 1 * d.val = d.val; rw [h2]; omega

theorem kBlk_at (c : Dev nD) (t : Fin cfg1.N) (b : Fin 4) (kk : Fin 256) (d : Fin 1024) :
    (attnBlk V c 1 t : Vec F S4x256x1024 .bf16) (ix3 b kk d) = V c main_v15 (ix3 b (kRow t kk) d) := by
  obtain ⟨h0, h1, h2⟩ := kIndex t
  unfold attnBlk
  rw [View.read_apply]
  show V c main_v15 _ = V c main_v15 _
  congr 1
  funext a
  apply Fin.ext
  match a with
  | ⟨0, _⟩ => show win1_1.index t 0 * 4 + 1 * b.val = b.val; rw [h0]; omega
  | ⟨1, _⟩ => show win1_1.index t 1 * 256 + 1 * kk.val = 256 * (t.val % 16) + kk.val; rw [h1]; omega
  | ⟨2, _⟩ => show win1_1.index t 2 * 1024 + 1 * d.val = d.val; rw [h2]; omega

theorem vBlk_at (c : Dev nD) (t : Fin cfg1.N) (b : Fin 4) (kk : Fin 256) (d : Fin 1024) :
    (attnBlk V c 2 t : Vec F S4x256x1024 .bf16) (ix3 b kk d) = V c main_v16 (ix3 b (kRow t kk) d) := by
  obtain ⟨h0, h1, h2⟩ := vIndex t
  unfold attnBlk
  rw [View.read_apply]
  show V c main_v16 _ = V c main_v16 _
  congr 1
  funext a
  apply Fin.ext
  match a with
  | ⟨0, _⟩ => show win1_2.index t 0 * 4 + 1 * b.val = b.val; rw [h0]; omega
  | ⟨1, _⟩ => show win1_2.index t 1 * 256 + 1 * kk.val = 256 * (t.val % 16) + kk.val; rw [h1]; omega
  | ⟨2, _⟩ => show win1_2.index t 2 * 1024 + 1 * d.val = d.val; rw [h2]; omega

theorem woBlk_at (c : Dev nD) (t : Fin cfg1.N) (d e : Fin 1024) :
    (attnBlk V c 3 t : Vec F S1024x1024 .bf16) (ix2 d e) = V c main_v9 (ix2 d e) := by
  obtain ⟨h0, h1⟩ := woIndex t
  unfold attnBlk
  rw [View.read_apply]
  show V c main_v9 _ = V c main_v9 _
  congr 1
  funext a
  apply Fin.ext
  match a with
  | ⟨0, _⟩ => show win1_3.index t 0 * 1024 + 1 * d.val = d.val; rw [h0]; omega
  | ⟨1, _⟩ => show win1_3.index t 1 * 1024 + 1 * e.val = e.val; rw [h1]; omega

theorem boBlk_at (c : Dev nD) (t : Fin cfg1.N) (e : Fin 1024) :
    (attnBlk V c 4 t : Vec F S1x1024 .f32) (ix2 (0 : Fin 1) e) = V c main_v17 (ix2 (0 : Fin 1) e) := by
  obtain ⟨h0, h1⟩ := boIndex t
  unfold attnBlk
  rw [View.read_apply]
  show V c main_v17 _ = V c main_v17 _
  congr 1
  funext a
  apply Fin.ext
  match a with
  | ⟨0, _⟩ => show win1_4.index t 0 * 1 + 1 * 0 = 0; rw [h0]
  | ⟨1, _⟩ => show win1_4.index t 1 * 1024 + 1 * e.val = e.val; rw [h1]; omega

end Cert.KernelIdeal.Gen

end
-- ==== Proof.KI.PayAt.lean ====
/-
  The payloads of the two kernels read at an index, at the ideal values: each pure value a kernel body stores or
  carries, evaluated at one multi-index given by its coordinates, as a closed expression in the loaded values. The
  projection kernel's three payloads are a row of the input times a column of the weights plus the bias; the attention
  kernel's are the scaled score, the running maximum, the rescaled running sum and accumulator of the online softmax,
  their initial values, and the four slabs of the epilogue (the accumulator divided by the sum, times the output
  weights, plus the output bias).
-/
import proofs.«125791_j3195455668383_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Idealize.ShloMosaic Idealize.ShloMosaic.ValueIdx Cert.KernelIdeal Cert.KernelIdeal.Gen

/-! ## The score -/

/-- The batched row-by-row product of queries and keys, at `(b, r, kk)`: the sum over the feature axis. -/
theorem qk_at (x0 x1 : FVec Ideal S4x256x1024 .bf16) (b : Fin 4) (r kk : Fin 256) :
    FloatOps.matmul dot_S4x256x1024_S4x256x1024_S4x256x256_2_2_1_1_0_0 none x0 x1
        (constant (F := Ideal) S4x256x256 .f32 0x00000000#32) (ix3 b r kk)
      = ∑ d : Fin 1024, x0 (ix3 b r d) * x1 (ix3 b kk d) := by
  rw [Ideal.matmul_constant_zero_apply,
    ← Equiv.sum_comp (contrEquiv1 dot_S4x256x1024_S4x256x1024_S4x256x256_2_2_1_1_0_0 1024 rfl rfl).symm]
  refine Finset.sum_congr rfl fun d _ => ?_
  congr 2
  · funext a
    match a with
    | ⟨0, _⟩ => rfl
    | ⟨1, _⟩ => rfl
    | ⟨2, _⟩ =>
      exact Fin.ext ((DotDims.lhsIdx_val_of_single _ rfl _ _).trans (contrEquiv1_symm_val _ 1024 rfl rfl d))
  · funext a
    match a with
    | ⟨0, _⟩ => rfl
    | ⟨1, _⟩ => rfl
    | ⟨2, _⟩ =>
      exact Fin.ext ((DotDims.rhsIdx_val_of_single _ rfl _ _).trans (contrEquiv1_symm_val _ 1024 rfl rfl d))

/-- The score: queries times keys over the feature axis, scaled. -/
theorem score_at (x0 x1 : Vec Ideal S4x256x1024 .bf16) (b : Fin 4) (r kk : Fin 256) :
    k1_pay13 (F := Ideal) x0 x1 (ix3 b r kk)
      = (∑ d : Fin 1024, x0 (ix3 b r d) * x1 (ix3 b kk d)) * Ideal.ofBits .f32 0x3D000000#32 := by
  unfold k1_pay13
  simp only [shapeCast_self]
  rw [mulf_apply, broadcast_apply]
  exact congrArg (· * _) (qk_at x0 x1 b r kk)

/-! ## Layout operations the attention kernel needs, read at an index -/

/-- A `[a, b]` array cast to `[a, b, 1]` (a reduction's kept axis put back) reads, at `(i, j, u)`, the operand at
    `(i, j)`, whatever the unit coordinate `u`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast along its unit axis to `[a, b, c]` reads, at `(i, j, k)`, the operand at
    `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index a reduction over the last axis of `[4, 256, 256]` inserts at `(b, r)` and coordinate `kk` is
    `(b, r, kk)`. -/
theorem lift_ix2 (b : Fin 4) (r kk : Fin 256) :
    reduces_S4x256x256_S4x256.lift (ix2 b r) kk = ix3 b r kk := by
  funext c
  refine Fin.ext ?_
  match c with
  | ⟨0, _⟩ => rfl
  | ⟨1, _⟩ => rfl
  | ⟨2, _⟩ => rfl

/-! ## The running maximum -/

/-- The new running maximum: the old one against the largest score of the row. -/
theorem max_at (x0 x1 : Vec Ideal S4x256x1024 .bf16) (m : Vec Ideal S4x256x1 .f32) (b : Fin 4) (r : Fin 256) :
    k1_pay14 (F := Ideal) x0 x1 m (ix3 b r (0 : Fin 1))
      = max (m (ix3 b r (0 : Fin 1))) ((Finset.univ : Finset (Fin 256)).fold max (Ideal.ofBits .f32 0xFF800000#32)
          (fun kk => k1_pay13 (F := Ideal) x0 x1 (ix3 b r kk))) := by
  unfold k1_pay14
  dsimp only
  rw [maximumf_apply, shapeCast_ab_ab1_apply]
  refine congrArg (max _) ?_
  refine (Ideal.multiReduction_maximumf_single (φ := .f32) (k1_pay13 (F := Ideal) x0 x1) 0xFF800000#32
    reduces_S4x256x256_S4x256 (.inl rfl) rfl (ix2 b r)).trans ?_
  refine congrArg (fun f => (Finset.univ : Finset (Fin 256)).fold max _ f) (funext fun kk => ?_)
  exact congrArg (k1_pay13 (F := Ideal) x0 x1) (lift_ix2 b r kk)

/-- The maximum as the kernel stores it: a shape cast to the same shape. -/
theorem max_stored_at (x0 x1 : Vec Ideal S4x256x1024 .bf16) (m : Vec Ideal S4x256x1 .f32) (b : Fin 4) (r : Fin 256) :
    k1_pay2 (F := Ideal) (k1_pay14 x0 x1 m) (ix3 b r (0 : Fin 1)) = k1_pay14 (F := Ideal) x0 x1 m (ix3 b r (0 : Fin 1)) := by
  unfold k1_pay2
  simp only [shapeCast_self]

/-! ## The rescaling factor and the weights -/

/-- The factor that rescales the old sum and accumulator: `exp` of the old maximum less the new. -/
theorem decay_at (x0 x1 : Vec Ideal S4x256x1024 .bf16) (m mm : Vec Ideal S4x256x1 .f32) (i : S4x256x1.Idx) :
    k1_pay15 (F := Ideal) x0 x1 m mm i = Ideal.exp (mm i - k1_pay14 (F := Ideal) x0 x1 m i) := by
  unfold k1_pay15
  rfl

/-- The unnormalised weight of key `kk` for row `r`: `exp` of the score less the new maximum. -/
theorem weight_at (x0 x1 : Vec Ideal S4x256x1024 .bf16) (m : Vec Ideal S4x256x1 .f32) (b : Fin 4) (r kk : Fin 256) :
    k1_pay16 (F := Ideal) x0 x1 m (ix3 b r kk)
      = Ideal.exp (k1_pay13 (F := Ideal) x0 x1 (ix3 b r kk) - k1_pay14 (F := Ideal) x0 x1 m (ix3 b r (0 : Fin 1))) := by
  unfold k1_pay16
  show Ideal.exp (k1_pay13 (F := Ideal) x0 x1 (ix3 b r kk)
    - broadcastTo S4x256x256 (k1_pay14 (F := Ideal) x0 x1 m) broadcasts_S4x256x1_S4x256x256 (ix3 b r kk)) = _
  rw [broadcastTo_ab1_abc_apply]

/-! ## The running sum -/

/-- The new running sum: the old one rescaled, plus the row's weights. -/
theorem sum_at (x0 x1 : Vec Ideal S4x256x1024 .bf16) (m mm l : Vec Ideal S4x256x1 .f32) (b : Fin 4) (r : Fin 256) :
    k1_pay17 (F := Ideal) x0 x1 m mm l (ix3 b r (0 : Fin 1))
      = Ideal.exp (mm (ix3 b r (0 : Fin 1)) - k1_pay14 (F := Ideal) x0 x1 m (ix3 b r (0 : Fin 1))) * l (ix3 b r (0 : Fin 1))
        + ∑ kk : Fin 256, Ideal.exp (k1_pay13 (F := Ideal) x0 x1 (ix3 b r kk)
            - k1_pay14 (F := Ideal) x0 x1 m (ix3 b r (0 : Fin 1))) := by
  unfold k1_pay17
  simp only [shapeCast_self]
  rw [addf_apply, mulf_apply, decay_at, shapeCast_ab_ab1_apply]
  congr 1
  refine (Ideal.multiReduction_add_single (φ := .f32) (k1_pay16 (F := Ideal) x0 x1 m) 0x00000000#32
    reduces_S4x256x256_S4x256 (.inl rfl) rfl (ix2 b r)).trans ?_
  refine Finset.sum_congr rfl fun kk _ => ?_
  exact (congrArg (k1_pay16 (F := Ideal) x0 x1 m) (lift_ix2 b r kk)).trans (weight_at x0 x1 m b r kk)

/-! ## The accumulator -/

/-- The batched product of weights and values, at `(b, r, e)`: the sum over the keys. -/
theorem pv_at (p : FVec Ideal S4x256x256 .bf16) (x2 : FVec Ideal S4x256x1024 .bf16) (b : Fin 4) (r : Fin 256) (e : Fin 1024) :
    FloatOps.matmul dot_S4x256x256_S4x256x1024_S4x256x1024_2_1_1_2_0_0 none p x2
        (constant (F := Ideal) S4x256x1024 .f32 0x00000000#32) (ix3 b r e)
      = ∑ kk : Fin 256, p (ix3 b r kk) * x2 (ix3 b kk e) := by
  rw [Ideal.matmul_constant_zero_apply,
    ← Equiv.sum_comp (contrEquiv1 dot_S4x256x256_S4x256x1024_S4x256x1024_2_1_1_2_0_0 256 rfl rfl).symm]
  refine Finset.sum_congr rfl fun kk _ => ?_
  congr 2
  · funext a
    match a with
    | ⟨0, _⟩ => rfl
    | ⟨1, _⟩ => rfl
    | ⟨2, _⟩ =>
      exact Fin.ext ((DotDims.lhsIdx_val_of_single _ rfl _ _).trans (contrEquiv1_symm_val _ 256 rfl rfl kk))
  · funext a
    match a with
    | ⟨0, _⟩ => rfl
    | ⟨1, _⟩ =>
      exact Fin.ext ((DotDims.rhsIdx_val_of_single _ rfl _ _).trans (contrEquiv1_symm_val _ 256 rfl rfl kk))
    | ⟨2, _⟩ => rfl

/-- The new accumulator: the old one rescaled, plus the weighted values of the block. -/
theorem acc_at (x0 x1 x2 : Vec Ideal S4x256x1024 .bf16) (m mm : Vec Ideal S4x256x1 .f32) (acc : Vec Ideal S4x256x1024 .f32)
    (b : Fin 4) (r : Fin 256) (e : Fin 1024) :
    k1_pay1 (F := Ideal) (k1_pay15 x0 x1 m mm) (k1_pay16 x0 x1 m) acc x2 (ix3 b r e)
      = Ideal.exp (mm (ix3 b r (0 : Fin 1)) - k1_pay14 (F := Ideal) x0 x1 m (ix3 b r (0 : Fin 1))) * acc (ix3 b r e)
        + ∑ kk : Fin 256, Ideal.exp (k1_pay13 (F := Ideal) x0 x1 (ix3 b r kk)
            - k1_pay14 (F := Ideal) x0 x1 m (ix3 b r (0 : Fin 1))) * x2 (ix3 b kk e) := by
  unfold k1_pay1
  simp only [shapeCast_self]
  rw [addf_apply, mulf_apply, broadcastTo_ab1_abc_apply, decay_at]
  congr 1
  refine (pv_at _ x2 b r e).trans ?_
  refine Finset.sum_congr rfl fun kk _ => ?_
  rw [truncf_apply, weight_at]

/-! ## The initial values -/

/-- The running maximum starts at the word of minus infinity. -/
theorem init_max_at (i : S4x256x1.Idx) : k1_pay10 (F := Ideal) i = Ideal.ofBits .f32 0xFF800000#32 := by
  unfold k1_pay10
  simp only [shapeCast_self]
  rfl

/-- The running sum starts at zero. -/
theorem init_sum_at (i : S4x256x1.Idx) : k1_pay11 (F := Ideal) i = Ideal.ofBits .f32 0x00000000#32 := by
  unfold k1_pay11
  simp only [shapeCast_self]
  rfl

/-- The accumulator starts at zero. -/
theorem init_acc_at (i : S4x256x1024.Idx) : k1_pay12 (F := Ideal) i = Ideal.ofBits .f32 0x00000000#32 := by
  unfold k1_pay12
  simp only [shapeCast_self]
  rfl

/-! ## Layout operations the epilogue needs, read at an index -/

/-- A rank-3 array cut along axis 0 from `o` reads, at `(j, a, e)`, the source at `(k, a, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, 1]` column broadcast to `[a, b]` reads, at `(i, j)`, the operand at `(i, 0)`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A plain `[256, 1024] × [1024, 1024]` product at `(r, e)`: the sum over the shared axis. -/
theorem mm256_at (x : FVec Ideal S256x1024 .bf16) (w : FVec Ideal S1024x1024 .bf16) (r : Fin 256) (e : Fin 1024) :
    FloatOps.matmul dot_S256x1024_S1024x1024_S256x1024_1_0_0_1_n_n none x w
        (constant (F := Ideal) S256x1024 .f32 0x00000000#32) (ix2 r e)
      = ∑ d : Fin 1024, x (ix2 r d) * w (ix2 d e) := by
  rw [Ideal.matmul_constant_zero_apply,
    ← Equiv.sum_comp (contrEquiv1 dot_S256x1024_S1024x1024_S256x1024_1_0_0_1_n_n 1024 rfl rfl).symm]
  refine Finset.sum_congr rfl fun d _ => ?_
  congr 2
  · funext a
    match a with
    | ⟨0, _⟩ => rfl
    | ⟨1, _⟩ =>
      exact Fin.ext ((DotDims.lhsIdx_val_of_single _ rfl _ _).trans (contrEquiv1_symm_val _ 1024 rfl rfl d))
  · funext a
    match a with
    | ⟨0, _⟩ =>
      exact Fin.ext ((DotDims.rhsIdx_val_of_single _ rfl _ _).trans (contrEquiv1_symm_val _ 1024 rfl rfl d))
    | ⟨1, _⟩ => rfl

/-- A plain `[512, 1024] × [1024, 1024]` product at `(p, q)`: the sum over the shared axis. -/
theorem mm512_at (x : FVec Ideal S512x1024 .bf16) (w : FVec Ideal S1024x1024 .bf16) (p : Fin 512) (q : Fin 1024) :
    FloatOps.matmul dot_S512x1024_S1024x1024_S512x1024_1_0_0_1_n_n none x w
        (constant (F := Ideal) S512x1024 .f32 0x00000000#32) (ix2 p q)
      = ∑ k : Fin 1024, x (ix2 p k) * w (ix2 k q) := by
  rw [Ideal.matmul_constant_zero_apply,
    ← Equiv.sum_comp (contrEquiv1 dot_S512x1024_S1024x1024_S512x1024_1_0_0_1_n_n 1024 rfl rfl).symm]
  refine Finset.sum_congr rfl fun k _ => ?_
  congr 2
  · funext a
    match a with
    | ⟨0, _⟩ => rfl
    | ⟨1, _⟩ =>
      exact Fin.ext ((DotDims.lhsIdx_val_of_single _ rfl _ _).trans (contrEquiv1_symm_val _ 1024 rfl rfl k))
  · funext a
    match a with
    | ⟨0, _⟩ =>
      exact Fin.ext ((DotDims.rhsIdx_val_of_single _ rfl _ _).trans (contrEquiv1_symm_val _ 1024 rfl rfl k))
    | ⟨1, _⟩ => rfl

/-! ## The epilogue -/

/-- The reciprocal of the final sum. -/
theorem recip_at (l : Vec Ideal S4x256x1 .f32) (i : S4x256x1.Idx) :
    k1_pay4 (F := Ideal) l i = Ideal.div (Ideal.ofBits .f32 0x3F800000#32) (l i) := by
  unfold k1_pay4
  rfl

/-- One slab of the epilogue before it is stored: slab `o` of the accumulator, each row scaled by the entry of
    `inv` for that slab and row, times the output weights, plus the output bias. -/
def slab (o : ℕ) (hs : S4x256x1.Slices ![o, 0, 0] S1x256x1) (inv : FVec Ideal S4x256x1 .f32)
    (a : FVec Ideal S1x256x1024 .f32) (w : FVec Ideal S1024x1024 .bf16) (bo : FVec Ideal S1x1024 .f32) :
    FVec Ideal S256x1024 .f32 :=
  addf
    (matmul dot_S256x1024_S1024x1024_S256x1024_1_0_0_1_n_n none
      (truncf .bf16
        (mulf (shapeCast S256x1024 a shapeCasts_S1x256x1024_S256x1024)
          (broadcastTo S256x1024
            (shapeCast S256x1 (extractStridedSlice S1x256x1 ![o, 0, 0] inv hs) shapeCasts_S1x256x1_S256x1)
            broadcasts_S256x1_S256x1024))
        bitsLt_bf16_f32)
      (shapeCast S1024x1024 w shapeCasts_S1024x1024_S1024x1024) (constant (F := Ideal) S256x1024 .f32 0x00000000#32))
    (broadcastTo S256x1024 (shapeCast S1x1024 bo shapeCasts_S1x1024_S1x1024) broadcasts_S1x1024_S256x1024)

/-- A slab at `(r, e)`. -/
theorem slab_at (o : ℕ) (hs : S4x256x1.Slices ![o, 0, 0] S1x256x1) (bsel : Fin 4) (hb : bsel.val = o + (0 : Fin 1).val)
    (inv : FVec Ideal S4x256x1 .f32) (a : FVec Ideal S1x256x1024 .f32) (w : FVec Ideal S1024x1024 .bf16)
    (bo : FVec Ideal S1x1024 .f32) (r : Fin 256) (e : Fin 1024) :
    slab o hs inv a w bo (ix2 r e)
      = (∑ d : Fin 1024, (a (ix3 (0 : Fin 1) r d) * inv (ix3 bsel r (0 : Fin 1))) * w (ix2 d e)) + bo (ix2 (0 : Fin 1) e) := by
  unfold slab
  simp only [shapeCast_self]
  rw [addf_apply, broadcastTo_1b_ab_apply]
  congr 1
  refine (mm256_at _ w r e).trans ?_
  refine Finset.sum_congr rfl fun d _ => ?_
  rw [truncf_apply, mulf_apply, shapeCast_1ab_ab_apply, broadcastTo_a1_ab_apply, shapeCast_1ab_ab_apply,
    slice3_axis0_apply o inv hs (0 : Fin 1) r (0 : Fin 1) bsel hb]

/-- Slab 0 as stored. -/
theorem slab0_at (l : Vec Ideal S4x256x1 .f32) (a : Vec Ideal S1x256x1024 .f32) (w : Vec Ideal S1024x1024 .bf16)
    (bo : Vec Ideal S1x1024 .f32) (r : Fin 256) (e : Fin 1024) :
    k1_pay5 (F := Ideal) l a w bo (ix3 (0 : Fin 1) r e)
      = (∑ d : Fin 1024, (a (ix3 (0 : Fin 1) r d)
            * Ideal.div (Ideal.ofBits .f32 0x3F800000#32) (l (ix3 (0 : Fin 4) r (0 : Fin 1)))) * w (ix2 d e))
        + bo (ix2 (0 : Fin 1) e) := by
  show shapeCast S1x256x1024 (slab 0 slices_S4x256x1_o0_0_0_S1x256x1 (k1_pay4 (F := Ideal) l) a w bo)
    shapeCasts_S256x1024_S1x256x1024 (ix3 (0 : Fin 1) r e) = _
  rw [shapeCast_ab_1ab_apply, slab_at 0 _ (0 : Fin 4) rfl, recip_at]

/-- Slab 1 as stored. -/
theorem slab1_at (l : Vec Ideal S4x256x1 .f32) (a : Vec Ideal S1x256x1024 .f32) (w : Vec Ideal S1024x1024 .bf16)
    (bo : Vec Ideal S1x1024 .f32) (r : Fin 256) (e : Fin 1024) :
    k1_pay7 (F := Ideal) (k1_pay6 l a w bo) (ix3 (0 : Fin 1) r e)
      = (∑ d : Fin 1024, (a (ix3 (0 : Fin 1) r d)
            * Ideal.div (Ideal.ofBits .f32 0x3F800000#32) (l (ix3 (1 : Fin 4) r (0 : Fin 1)))) * w (ix2 d e))
        + bo (ix2 (0 : Fin 1) e) := by
  show shapeCast S1x256x1024 (slab 1 slices_S4x256x1_o1_0_0_S1x256x1 (k1_pay4 (F := Ideal) l) a w bo)
    shapeCasts_S256x1024_S1x256x1024 (ix3 (0 : Fin 1) r e) = _
  rw [shapeCast_ab_1ab_apply, slab_at 1 _ (1 : Fin 4) rfl, recip_at]

/-- Slab 2 as stored. -/
theorem slab2_at (l : Vec Ideal S4x256x1 .f32) (a : Vec Ideal S1x256x1024 .f32) (w : Vec Ideal S1024x1024 .bf16)
    (bo : Vec Ideal S1x1024 .f32) (r : Fin 256) (e : Fin 1024) :
    k1_pay8 (F := Ideal) (k1_pay4 l) a w bo (ix3 (0 : Fin 1) r e)
      = (∑ d : Fin 1024, (a (ix3 (0 : Fin 1) r d)
            * Ideal.div (Ideal.ofBits .f32 0x3F800000#32) (l (ix3 (2 : Fin 4) r (0 : Fin 1)))) * w (ix2 d e))
        + bo (ix2 (0 : Fin 1) e) := by
  show shapeCast S1x256x1024 (slab 2 slices_S4x256x1_o2_0_0_S1x256x1 (k1_pay4 (F := Ideal) l) a w bo)
    shapeCasts_S256x1024_S1x256x1024 (ix3 (0 : Fin 1) r e) = _
  rw [shapeCast_ab_1ab_apply, slab_at 2 _ (2 : Fin 4) rfl, recip_at]

/-- Slab 3 as stored. -/
theorem slab3_at (l : Vec Ideal S4x256x1 .f32) (a : Vec Ideal S1x256x1024 .f32) (w : Vec Ideal S1024x1024 .bf16)
    (bo : Vec Ideal S1x1024 .f32) (r : Fin 256) (e : Fin 1024) :
    k1_pay3 (F := Ideal) (k1_pay9 (k1_pay4 l) a w bo) (ix3 (0 : Fin 1) r e)
      = (∑ d : Fin 1024, (a (ix3 (0 : Fin 1) r d)
            * Ideal.div (Ideal.ofBits .f32 0x3F800000#32) (l (ix3 (3 : Fin 4) r (0 : Fin 1)))) * w (ix2 d e))
        + bo (ix2 (0 : Fin 1) e) := by
  show shapeCast S1x256x1024 (slab 3 slices_S4x256x1_o3_0_0_S1x256x1 (k1_pay4 (F := Ideal) l) a w bo)
    shapeCasts_S256x1024_S1x256x1024 (ix3 (0 : Fin 1) r e) = _
  rw [shapeCast_ab_1ab_apply, slab_at 3 _ (3 : Fin 4) rfl, recip_at]

/-! ## The projection kernel -/

/-- The query projection at `(p, q)`: row `p` of the input times column `q` of the weights, plus the bias. -/
theorem projQ_at (x : Vec Ideal S512x1024 .bf16) (w : Vec Ideal S1024x1024 .bf16) (bias : Vec Ideal S1x1024 .f32)
    (p : Fin 512) (q : Fin 1024) :
    k0_pay2 (F := Ideal) x w bias (ix2 p q)
      = (∑ k : Fin 1024, x (ix2 p k) * w (ix2 k q)) + bias (ix2 (0 : Fin 1) q) := by
  unfold k0_pay2 k0_pay1
  simp only [shapeCast_self]
  rw [truncf_apply, addf_apply, broadcastTo_1b_ab_apply]
  exact congrArg (· + _) (mm512_at x w p q)

/-- The key projection at `(p, q)`. -/
theorem projK_at (x : Vec Ideal S512x1024 .bf16) (w : Vec Ideal S1024x1024 .bf16) (bias : Vec Ideal S1x1024 .f32)
    (p : Fin 512) (q : Fin 1024) :
    k0_pay3 (F := Ideal) x w bias (ix2 p q)
      = (∑ k : Fin 1024, x (ix2 p k) * w (ix2 k q)) + bias (ix2 (0 : Fin 1) q) := by
  unfold k0_pay3 k0_pay1
  simp only [shapeCast_self]
  rw [truncf_apply, addf_apply, broadcastTo_1b_ab_apply]
  exact congrArg (· + _) (mm512_at x w p q)

/-- The value projection at `(p, q)`. -/
theorem projV_at (x : Vec Ideal S512x1024 .bf16) (w : Vec Ideal S1024x1024 .bf16) (bias : Vec Ideal S1x1024 .f32)
    (p : Fin 512) (q : Fin 1024) :
    k0_pay4 (F := Ideal) x w bias (ix2 p q)
      = (∑ k : Fin 1024, x (ix2 p k) * w (ix2 k q)) + bias (ix2 (0 : Fin 1) q) := by
  unfold k0_pay4 k0_pay1
  simp only [shapeCast_self]
  rw [truncf_apply, addf_apply, broadcastTo_1b_ab_apply]
  exact congrArg (· + _) (mm512_at x w p q)

end Cert.KernelIdeal.PayAt

end
-- ==== Proof.LibOnlineSoftmax.lean ====
import Mathlib

/-!
# Online (block-by-block) softmax

Scores and values are split into blocks of size `B`, indexed by a block number `j : ℕ` and a
position `kk : Fin B`.  The online recurrence keeps a running maximum `m`, a running
normaliser `l = ∑ exp (score - m)` and a running weighted sum `acc = ∑ exp (score - m) * value`;
when the maximum grows from `m` to `m'`, the old `l` and `acc` are rescaled by
`exp (m - m')`.  This file proves that after processing blocks `0, …, N` the state equals the
plain (two-pass) quantities computed with the global maximum, and hence that
`acc / l` is the softmax-weighted sum of the values.
-/

namespace OnlineSoftmax

open Finset

variable {B : ℕ} [NeZero B]

/-- The maximum of the scores of block `j`: `max_{kk} s j kk`. -/
noncomputable def blockMax (s : ℕ → Fin B → ℝ) (j : ℕ) : ℝ :=
  Finset.univ.sup' Finset.univ_nonempty (s j)

/-- Every score of block `j` is at most the block maximum. -/
theorem le_blockMax (s : ℕ → Fin B → ℝ) (j : ℕ) (kk : Fin B) : s j kk ≤ blockMax s j :=
  Finset.le_sup' (s j) (Finset.mem_univ kk)

/-- The block maximum is attained at some position of the block. -/
theorem blockMax_mem (s : ℕ → Fin B → ℝ) (j : ℕ) : ∃ kk, s j kk = blockMax s j := by
  obtain ⟨kk, _, h⟩ := Finset.exists_mem_eq_sup' (Finset.univ_nonempty (α := Fin B)) (s j)
  exact ⟨kk, h.symm⟩

/-- The state of the online recurrence: running maximum `m`, running normaliser `l`
(sum of `exp (score - m)`), running weighted sum `acc` (sum of `exp (score - m) * value`). -/
structure St where
  /-- running maximum of the scores seen so far -/
  m : ℝ
  /-- running sum of `exp (score - m)` -/
  l : ℝ
  /-- running sum of `exp (score - m) * value` -/
  acc : ℝ

/-- The state after the first block: `m` is the maximum of block `0`, and `l`, `acc` are the
plain sums over block `0` relative to that maximum. -/
noncomputable def first (s v : ℕ → Fin B → ℝ) : St where
  m := blockMax s 0
  l := ∑ kk, Real.exp (s 0 kk - blockMax s 0)
  acc := ∑ kk, Real.exp (s 0 kk - blockMax s 0) * v 0 kk

/-- One step of the recurrence on block `j`: the new maximum is `m' = max m (blockMax s j)`, the
old sums are rescaled by `exp (m - m')` and the contributions of block `j` (relative to `m'`)
are added. -/
noncomputable def step (s v : ℕ → Fin B → ℝ) (j : ℕ) (p : St) : St where
  m := max p.m (blockMax s j)
  l := Real.exp (p.m - max p.m (blockMax s j)) * p.l
        + ∑ kk, Real.exp (s j kk - max p.m (blockMax s j))
  acc := Real.exp (p.m - max p.m (blockMax s j)) * p.acc
        + ∑ kk, Real.exp (s j kk - max p.m (blockMax s j)) * v j kk

/-- The state after processing blocks `0, …, N`. -/
noncomputable def run (s v : ℕ → Fin B → ℝ) : ℕ → St
  | 0 => first s v
  | j + 1 => step s v (j + 1) (run s v j)

/-- Unfolding of `run` at `0`. -/
theorem run_zero (s v : ℕ → Fin B → ℝ) : run s v 0 = first s v := rfl

/-- Unfolding of `run` at a successor. -/
theorem run_succ (s v : ℕ → Fin B → ℝ) (N : ℕ) :
    run s v (N + 1) = step s v (N + 1) (run s v N) := rfl

/-- The maximum after one more block is the larger of the old maximum and the block maximum. -/
theorem run_succ_m (s v : ℕ → Fin B → ℝ) (N : ℕ) :
    (run s v (N + 1)).m = max (run s v N).m (blockMax s (N + 1)) := rfl

/-- The normaliser after one more block: rescale the old one and add the new block. -/
theorem run_succ_l (s v : ℕ → Fin B → ℝ) (N : ℕ) :
    (run s v (N + 1)).l =
      Real.exp ((run s v N).m - (run s v (N + 1)).m) * (run s v N).l
        + ∑ kk, Real.exp (s (N + 1) kk - (run s v (N + 1)).m) := rfl

/-- The weighted sum after one more block: rescale the old one and add the new block. -/
theorem run_succ_acc (s v : ℕ → Fin B → ℝ) (N : ℕ) :
    (run s v (N + 1)).acc =
      Real.exp ((run s v N).m - (run s v (N + 1)).m) * (run s v N).acc
        + ∑ kk, Real.exp (s (N + 1) kk - (run s v (N + 1)).m) * v (N + 1) kk := rfl

/-- The running maximum dominates every score seen so far. -/
theorem run_m_ge (s v : ℕ → Fin B → ℝ) :
    ∀ (N j : ℕ) (kk : Fin B), j ≤ N → s j kk ≤ (run s v N).m := by
  intro N
  induction N with
  | zero =>
    intro j kk hj
    have hj0 : j = 0 := Nat.le_zero.mp hj
    subst hj0
    exact le_blockMax s 0 kk
  | succ N ih =>
    intro j kk hj
    rw [run_succ_m]
    rcases Nat.lt_or_ge j (N + 1) with h | h
    · exact le_trans (ih j kk (Nat.lt_succ_iff.mp h)) (le_max_left _ _)
    · have hj1 : j = N + 1 := le_antisymm hj h
      subst hj1
      exact le_trans (le_blockMax s (N + 1) kk) (le_max_right _ _)

/-- The running maximum is one of the scores seen so far. -/
theorem run_m_mem (s v : ℕ → Fin B → ℝ) :
    ∀ N : ℕ, ∃ (j : ℕ) (kk : Fin B), j ≤ N ∧ s j kk = (run s v N).m := by
  intro N
  induction N with
  | zero =>
    obtain ⟨kk, hkk⟩ := blockMax_mem s 0
    exact ⟨0, kk, le_refl 0, hkk⟩
  | succ N ih =>
    rw [run_succ_m]
    rcases max_choice (run s v N).m (blockMax s (N + 1)) with h | h
    · obtain ⟨j, kk, hj, hjk⟩ := ih
      exact ⟨j, kk, Nat.le_succ_of_le hj, by rw [h]; exact hjk⟩
    · obtain ⟨kk, hkk⟩ := blockMax_mem s (N + 1)
      exact ⟨N + 1, kk, le_refl _, by rw [h]; exact hkk⟩

/-- The running normaliser equals the plain sum of `exp (score - m)` over all blocks seen so
far, `m` being the final running maximum. -/
theorem run_l (s v : ℕ → Fin B → ℝ) :
    ∀ N : ℕ, (run s v N).l
      = ∑ j ∈ Finset.range (N + 1), ∑ kk, Real.exp (s j kk - (run s v N).m) := by
  intro N
  induction N with
  | zero =>
    rw [Finset.sum_range_one]
    rfl
  | succ N ih =>
    rw [Finset.sum_range_succ _ (N + 1), run_succ_l, ih, Finset.mul_sum]
    congr 1
    refine Finset.sum_congr rfl (fun j _ => ?_)
    rw [Finset.mul_sum]
    refine Finset.sum_congr rfl (fun kk _ => ?_)
    rw [← Real.exp_add]
    congr 1
    ring

/-- The running weighted sum equals the plain sum of `exp (score - m) * value` over all blocks
seen so far, `m` being the final running maximum. -/
theorem run_acc (s v : ℕ → Fin B → ℝ) :
    ∀ N : ℕ, (run s v N).acc
      = ∑ j ∈ Finset.range (N + 1), ∑ kk, Real.exp (s j kk - (run s v N).m) * v j kk := by
  intro N
  induction N with
  | zero =>
    rw [Finset.sum_range_one]
    rfl
  | succ N ih =>
    rw [Finset.sum_range_succ _ (N + 1), run_succ_acc, ih, Finset.mul_sum]
    congr 1
    refine Finset.sum_congr rfl (fun j _ => ?_)
    rw [Finset.mul_sum]
    refine Finset.sum_congr rfl (fun kk _ => ?_)
    rw [← mul_assoc, ← Real.exp_add]
    congr 2
    ring

/-- The running normaliser is positive (a nonempty sum of exponentials). -/
theorem run_l_pos (s v : ℕ → Fin B → ℝ) : ∀ N : ℕ, 0 < (run s v N).l := by
  intro N
  rw [run_l]
  refine Finset.sum_pos (fun j _ => ?_) ⟨0, Finset.mem_range.mpr (Nat.succ_pos N)⟩
  exact Finset.sum_pos (fun kk _ => Real.exp_pos _) Finset.univ_nonempty

/-- The running maximum depends on the scores only, not on the values. -/
theorem run_m_indep (s v v' : ℕ → Fin B → ℝ) : ∀ N : ℕ, (run s v N).m = (run s v' N).m := by
  intro N
  induction N with
  | zero => rfl
  | succ N ih => rw [run_succ_m, run_succ_m, ih]

/-- The running normaliser depends on the scores only, not on the values. -/
theorem run_l_indep (s v v' : ℕ → Fin B → ℝ) : ∀ N : ℕ, (run s v N).l = (run s v' N).l := by
  intro N
  rw [run_l, run_l, run_m_indep s v v' N]

/-- The output of the online recurrence, `acc * (1 / l)`, is the softmax-weighted sum of the
values: each value is weighted by `exp (score - m)` divided by the sum of all
`exp (score - m)`. -/
theorem final (s v : ℕ → Fin B → ℝ) :
    ∀ N : ℕ, (run s v N).acc * (1 / (run s v N).l)
      = ∑ j ∈ Finset.range (N + 1), ∑ kk,
          (Real.exp (s j kk - (run s v N).m)
            / (∑ j' ∈ Finset.range (N + 1), ∑ kk', Real.exp (s j' kk' - (run s v N).m)))
          * v j kk := by
  intro N
  rw [run_acc, run_l]
  generalize (∑ j' ∈ Finset.range (N + 1), ∑ kk', Real.exp (s j' kk' - (run s v N).m)) = L
  rw [Finset.sum_mul]
  refine Finset.sum_congr rfl (fun j _ => ?_)
  rw [Finset.sum_mul]
  refine Finset.sum_congr rfl (fun kk _ => ?_)
  ring

/-! ## Independence of the reference point

Softmax weights do not depend on the point subtracted inside the exponentials, so the result of
the recurrence can be compared with a reference that subtracts any other number (for instance a
maximum computed in a different way, or nothing at all). -/

/-- Softmax weights over an arbitrary finite index set are invariant under changing the
subtracted reference point from `M` to `M'`. -/
theorem softmax_shift {ι : Type*} (t : Finset ι) (f : ι → ℝ) (M M' : ℝ) (i : ι) :
    Real.exp (f i - M) / (∑ i' ∈ t, Real.exp (f i' - M))
      = Real.exp (f i - M') / (∑ i' ∈ t, Real.exp (f i' - M')) := by
  have h : ∀ x : ℝ, Real.exp (x - M) = Real.exp (M' - M) * Real.exp (x - M') := by
    intro x
    rw [← Real.exp_add]
    congr 1
    ring
  have hsum : (∑ i' ∈ t, Real.exp (f i' - M))
      = Real.exp (M' - M) * ∑ i' ∈ t, Real.exp (f i' - M') := by
    rw [Finset.mul_sum]
    exact Finset.sum_congr rfl (fun i' _ => h _)
  rw [hsum, h (f i), mul_div_mul_left _ _ (Real.exp_pos _).ne']

/-- The same invariance for the blocked double sum over blocks `0, …, N`. -/
theorem weight_shift (s : ℕ → Fin B → ℝ) (N : ℕ) (M M' : ℝ) (j : ℕ) (kk : Fin B) :
    Real.exp (s j kk - M)
        / (∑ j' ∈ Finset.range (N + 1), ∑ kk', Real.exp (s j' kk' - M))
      = Real.exp (s j kk - M')
        / (∑ j' ∈ Finset.range (N + 1), ∑ kk', Real.exp (s j' kk' - M')) := by
  have h : ∀ x : ℝ, Real.exp (x - M) = Real.exp (M' - M) * Real.exp (x - M') := by
    intro x
    rw [← Real.exp_add]
    congr 1
    ring
  have hsum : (∑ j' ∈ Finset.range (N + 1), ∑ kk', Real.exp (s j' kk' - M))
      = Real.exp (M' - M)
          * ∑ j' ∈ Finset.range (N + 1), ∑ kk', Real.exp (s j' kk' - M') := by
    rw [Finset.mul_sum]
    refine Finset.sum_congr rfl (fun j' _ => ?_)
    rw [Finset.mul_sum]
    exact Finset.sum_congr rfl (fun kk' _ => h _)
  rw [hsum, h (s j kk), mul_div_mul_left _ _ (Real.exp_pos _).ne']

/-- The output of the online recurrence is the softmax-weighted sum of the values, the softmax
being written with an arbitrary reference point `M`. -/
theorem final_shift (s v : ℕ → Fin B → ℝ) (M : ℝ) :
    ∀ N : ℕ, (run s v N).acc * (1 / (run s v N).l)
      = ∑ j ∈ Finset.range (N + 1), ∑ kk,
          (Real.exp (s j kk - M)
            / (∑ j' ∈ Finset.range (N + 1), ∑ kk', Real.exp (s j' kk' - M)))
          * v j kk := by
  intro N
  rw [final]
  refine Finset.sum_congr rfl (fun j _ => ?_)
  refine Finset.sum_congr rfl (fun kk _ => ?_)
  rw [weight_shift s N (run s v N).m M j kk]

/-- The output written as a quotient `acc / l`. -/
theorem final_div (s v : ℕ → Fin B → ℝ) (M : ℝ) :
    ∀ N : ℕ, (run s v N).acc / (run s v N).l
      = ∑ j ∈ Finset.range (N + 1), ∑ kk,
          (Real.exp (s j kk - M)
            / (∑ j' ∈ Finset.range (N + 1), ∑ kk', Real.exp (s j' kk' - M)))
          * v j kk := by
  intro N
  rw [← final_shift s v M N, mul_one_div]

/-- The softmax weights over blocks `0, …, N` sum to one (for any reference point). -/
theorem weights_sum_one (s : ℕ → Fin B → ℝ) (M : ℝ) (N : ℕ) :
    ∑ j ∈ Finset.range (N + 1), ∑ kk,
        Real.exp (s j kk - M)
          / (∑ j' ∈ Finset.range (N + 1), ∑ kk', Real.exp (s j' kk' - M)) = 1 := by
  have hpos : 0 < ∑ j' ∈ Finset.range (N + 1), ∑ kk' : Fin B, Real.exp (s j' kk' - M) := by
    refine Finset.sum_pos (fun j _ => ?_) ⟨0, Finset.mem_range.mpr (Nat.succ_pos N)⟩
    exact Finset.sum_pos (fun kk _ => Real.exp_pos _) Finset.univ_nonempty
  generalize hL : (∑ j' ∈ Finset.range (N + 1), ∑ kk' : Fin B, Real.exp (s j' kk' - M)) = L
    at hpos
  have : ∑ j ∈ Finset.range (N + 1), ∑ kk : Fin B, Real.exp (s j kk - M) / L
      = (∑ j ∈ Finset.range (N + 1), ∑ kk : Fin B, Real.exp (s j kk - M)) / L := by
    rw [Finset.sum_div]
    exact Finset.sum_congr rfl (fun j _ => (Finset.sum_div _ _ _).symm)
  rw [this, hL, div_self hpos.ne']

end OnlineSoftmax
-- ==== Proof.LibOnlineSoftmaxE.lean ====
import Mathlib
import Idealize.ShloMosaic.PureOps.Ideal
import Idealize.ShloMosaic.PureOps.Ideal.Laws
import proofs.«125791_j3195455668383_2_alg».proof.Proof.LibOnlineSoftmax

/-!
# Online softmax over the extended reals

The online softmax recurrence and the two-pass reference, written with the operations of the
extended reals `EReal = [-∞, +∞]` (maximum starting from `-∞`, exponential with `exp (-∞) = 0`,
division by a nonzero real), agree with their real-number counterparts whenever all scores and
values are finite.  Each lemma below evaluates one extended-real expression on coerced reals
and returns the coercion of the corresponding real expression.
-/

namespace OnlineSoftmax

open Idealize.ShloMosaic

/-! ## Literals -/

/-- The single-precision pattern `0xFF800000` denotes `-∞`. -/
theorem negInf_eq : Ideal.ofBits .f32 0xFF800000#32 = (⊥ : EReal) := by
  simp [Ideal.ofBits, Ideal.ieee]

/-- The single-precision pattern `0x3F800000` denotes `1`. -/
theorem one_eq : Ideal.ofBits .f32 0x3F800000#32 = ((1 : ℝ) : EReal) := by
  rw [EReal.coe_one]
  simp [Ideal.ofBits, Ideal.ieee, -EReal.coe_mul]
  norm_num

/-- The single-precision pattern `0x3D000000` denotes `1 / 32 = 2⁻⁵`. -/
theorem scale_eq : Ideal.ofBits .f32 0x3D000000#32 = ((1 / 32 : ℝ) : EReal) := by
  simp [Ideal.ofBits, Ideal.ieee, -EReal.coe_mul]
  norm_num

/-! ## Coercion of sums and maxima -/

/-- The coercion `ℝ → EReal` commutes with finite sums. -/
theorem coe_sum {ι : Type*} (S : Finset ι) (f : ι → ℝ) :
    ((∑ i ∈ S, f i : ℝ) : EReal) = ∑ i ∈ S, (f i : EReal) := by
  classical
  refine Finset.induction_on S ?_ ?_
  · simp
  · intro a S ha ih
    rw [Finset.sum_insert ha, Finset.sum_insert ha, EReal.coe_add, ih]

/-- The coercion `ℝ → EReal` commutes with binary maxima. -/
theorem coe_max (x y : ℝ) : ((max x y : ℝ) : EReal) = max (x : EReal) (y : EReal) :=
  EReal.coe_strictMono.monotone.map_max

/-- Over a nonempty finite index set, folding `max` from `-∞` over coerced reals gives the
coercion of their (real) maximum. -/
theorem fold_max_coe' {ι : Type*} [Fintype ι] [Nonempty ι] (f : ι → ℝ) :
    (Finset.univ : Finset ι).fold max (⊥ : EReal) (fun k => ((f k : ℝ) : EReal))
      = ((Finset.univ.sup' Finset.univ_nonempty f : ℝ) : EReal) := by
  apply le_antisymm
  · rw [Finset.fold_max_le]
    refine ⟨bot_le, fun k _ => ?_⟩
    exact EReal.coe_le_coe_iff.mpr (Finset.le_sup' f (Finset.mem_univ k))
  · rw [Finset.le_fold_max]
    right
    obtain ⟨k, hk, h⟩ := Finset.exists_mem_eq_sup' (Finset.univ_nonempty (α := ι)) f
    exact ⟨k, hk, by rw [h]⟩

variable {B : ℕ} [NeZero B]

/-- The same for a block of `B` positions. -/
theorem fold_max_coe (f : Fin B → ℝ) :
    (Finset.univ : Finset (Fin B)).fold max (⊥ : EReal) (fun kk => ((f kk : ℝ) : EReal))
      = ((Finset.univ.sup' Finset.univ_nonempty f : ℝ) : EReal) :=
  fold_max_coe' f

/-- The sum of `exp (score - M)` over a finite index set, computed in the extended reals on
finite scores with a finite reference point `M`, is the coercion of the real sum. -/
theorem sum_exp_coe {ι : Type*} [Fintype ι] (f : ι → ℝ) (M : ℝ) :
    ∑ k, Ideal.exp ((f k : EReal) - (M : EReal)) = ((∑ k, Real.exp (f k - M) : ℝ) : EReal) := by
  rw [coe_sum]
  refine Finset.sum_congr rfl (fun k _ => ?_)
  rw [← EReal.coe_sub, Ideal.exp_coe]

/-- The sum of `exp (score - M) * value`, likewise. -/
theorem sum_exp_mul_coe {ι : Type*} [Fintype ι] (f g : ι → ℝ) (M : ℝ) :
    ∑ k, Ideal.exp ((f k : EReal) - (M : EReal)) * (g k : EReal)
      = ((∑ k, Real.exp (f k - M) * g k : ℝ) : EReal) := by
  rw [coe_sum]
  refine Finset.sum_congr rfl (fun k _ => ?_)
  rw [← EReal.coe_sub, Ideal.exp_coe, ← EReal.coe_mul]

/-! ## One block of the online recurrence, in the extended reals -/

/-- The maximum of a block of extended-real scores, folded from `-∞`. -/
noncomputable def blockMaxE (sb : Fin B → EReal) : EReal :=
  (Finset.univ : Finset (Fin B)).fold max (Ideal.ofBits .f32 0xFF800000#32) sb

/-- The new running maximum: the larger of the old one and the block maximum. -/
noncomputable def newMax (sb : Fin B → EReal) (m : EReal) : EReal := max m (blockMaxE sb)

/-- The new running normaliser: the old one rescaled by `exp (m - m')` plus the block's
`∑ exp (score - m')`, `m'` being the new maximum. -/
noncomputable def newSum (sb : Fin B → EReal) (m l : EReal) : EReal :=
  Ideal.exp (m - newMax sb m) * l + ∑ kk, Ideal.exp (sb kk - newMax sb m)

/-- The new running weighted sum: the old one rescaled by `exp (m - m')` plus the block's
`∑ exp (score - m') * value`. -/
noncomputable def newAcc (sb vb : Fin B → EReal) (m acc : EReal) : EReal :=
  Ideal.exp (m - newMax sb m) * acc + ∑ kk, Ideal.exp (sb kk - newMax sb m) * vb kk

/-- The extended-real block maximum of finite scores is the coercion of the real block maximum. -/
theorem blockMaxE_coe (s : ℕ → Fin B → ℝ) (j : ℕ) :
    blockMaxE (fun kk => ((s j kk : ℝ) : EReal)) = ((blockMax s j : ℝ) : EReal) := by
  unfold blockMaxE blockMax
  rw [negInf_eq]
  exact fold_max_coe (s j)

/-- First block, from the reset state `m = -∞`: the new maximum is the maximum of block `0`. -/
theorem newMax_first (s v : ℕ → Fin B → ℝ) :
    newMax (fun kk => ((s 0 kk : ℝ) : EReal)) (Ideal.ofBits .f32 0xFF800000#32)
      = (((first s v).m : ℝ) : EReal) := by
  unfold newMax
  rw [blockMaxE_coe, negInf_eq, max_eq_right bot_le]
  rfl

/-- First block, from the reset state `m = -∞`, `l = 0`: the new normaliser is the plain sum over
block `0`. -/
theorem newSum_first (s v : ℕ → Fin B → ℝ) :
    newSum (fun kk => ((s 0 kk : ℝ) : EReal)) (Ideal.ofBits .f32 0xFF800000#32)
        (Ideal.ofBits .f32 0x00000000#32)
      = (((first s v).l : ℝ) : EReal) := by
  unfold newSum
  rw [newMax_first s v, Ideal.ofBits_zero_f32, mul_zero, zero_add, sum_exp_coe]
  rfl

/-- First block, from the reset state `m = -∞`, `acc = 0`: the new weighted sum is the plain
weighted sum over block `0`. -/
theorem newAcc_first (s v : ℕ → Fin B → ℝ) :
    newAcc (fun kk => ((s 0 kk : ℝ) : EReal)) (fun kk => ((v 0 kk : ℝ) : EReal))
        (Ideal.ofBits .f32 0xFF800000#32) (Ideal.ofBits .f32 0x00000000#32)
      = (((first s v).acc : ℝ) : EReal) := by
  unfold newAcc
  rw [newMax_first s v, Ideal.ofBits_zero_f32, mul_zero, zero_add, sum_exp_mul_coe]
  rfl

/-- A later block `j`, from a finite state `p`: the new maximum is that of the real step. -/
theorem newMax_step (s v : ℕ → Fin B → ℝ) (j : ℕ) (p : St) :
    newMax (fun kk => ((s j kk : ℝ) : EReal)) ((p.m : ℝ) : EReal)
      = (((step s v j p).m : ℝ) : EReal) := by
  unfold newMax
  rw [blockMaxE_coe, ← coe_max]
  rfl

/-- A later block `j`, from a finite state `p`: the new normaliser is that of the real step. -/
theorem newSum_step (s v : ℕ → Fin B → ℝ) (j : ℕ) (p : St) :
    newSum (fun kk => ((s j kk : ℝ) : EReal)) ((p.m : ℝ) : EReal) ((p.l : ℝ) : EReal)
      = (((step s v j p).l : ℝ) : EReal) := by
  unfold newSum
  rw [newMax_step s v j p, sum_exp_coe, ← EReal.coe_sub, Ideal.exp_coe, ← EReal.coe_mul,
    ← EReal.coe_add]
  rfl

/-- A later block `j`, from a finite state `p`: the new weighted sum is that of the real step. -/
theorem newAcc_step (s v : ℕ → Fin B → ℝ) (j : ℕ) (p : St) :
    newAcc (fun kk => ((s j kk : ℝ) : EReal)) (fun kk => ((v j kk : ℝ) : EReal))
        ((p.m : ℝ) : EReal) ((p.acc : ℝ) : EReal)
      = (((step s v j p).acc : ℝ) : EReal) := by
  unfold newAcc
  rw [newMax_step s v j p, sum_exp_mul_coe, ← EReal.coe_sub, Ideal.exp_coe, ← EReal.coe_mul,
    ← EReal.coe_add]
  rfl

/-! ## The epilogue's quotient -/

/-- Multiplying by the extended-real quotient `1 / l`, for a nonzero real `l`, is multiplying by
the real reciprocal. -/
theorem quot_coe (acc l : ℝ) (hl : l ≠ 0) :
    ((acc : ℝ) : EReal) * Ideal.div (Ideal.ofBits .f32 0x3F800000#32) ((l : ℝ) : EReal)
      = ((acc * (1 / l) : ℝ) : EReal) := by
  rw [one_eq, Ideal.div_coe hl, ← EReal.coe_mul, ← EReal.coe_mul, one_mul]

/-! ## The two-pass reference row -/

section Ref

variable {ι : Type*} [Fintype ι]

/-- The reference's row maximum: `max` with `-∞` of the fold of `max` from `-∞`. -/
noncomputable def refMax (se : ι → EReal) : EReal :=
  max (Ideal.ofBits .f32 0xFF800000#32)
    ((Finset.univ : Finset ι).fold max (Ideal.ofBits .f32 0xFF800000#32) se)

/-- The reference's output for one row and one coordinate: the softmax weights
`exp (score - max) / (0 + ∑ exp (score - max))` times the values, summed. -/
noncomputable def refRow (se ve : ι → EReal) : EReal :=
  ∑ k, Ideal.div (Ideal.exp (se k - refMax se))
        (Ideal.ofBits .f32 0x00000000#32 + ∑ k', Ideal.exp (se k' - refMax se)) * ve k

/-- On finite scores the reference's row maximum is the coercion of the real maximum. -/
theorem refMax_coe [Nonempty ι] (sr : ι → ℝ) :
    refMax (fun k => ((sr k : ℝ) : EReal))
      = ((Finset.univ.sup' Finset.univ_nonempty sr : ℝ) : EReal) := by
  unfold refMax
  rw [negInf_eq, max_eq_right bot_le]
  exact fold_max_coe' sr

/-- On finite scores and values the reference row is the coercion of the real softmax-weighted
sum, the softmax being taken relative to the row maximum. -/
theorem refRow_coe [Nonempty ι] (sr vr : ι → ℝ) :
    refRow (fun k => ((sr k : ℝ) : EReal)) (fun k => ((vr k : ℝ) : EReal))
      = ((∑ k, (Real.exp (sr k - Finset.univ.sup' Finset.univ_nonempty sr)
            / ∑ k', Real.exp (sr k' - Finset.univ.sup' Finset.univ_nonempty sr)) * vr k : ℝ)
          : EReal) := by
  unfold refRow
  rw [refMax_coe sr]
  generalize Finset.univ.sup' Finset.univ_nonempty sr = M
  have hpos : (0 : ℝ) < ∑ k' : ι, Real.exp (sr k' - M) :=
    Finset.sum_pos (fun k _ => Real.exp_pos _) Finset.univ_nonempty
  rw [Ideal.ofBits_zero_f32, zero_add, coe_sum, sum_exp_coe]
  refine Finset.sum_congr rfl (fun k _ => ?_)
  rw [Ideal.div_coe hpos.ne', ← EReal.coe_sub, Ideal.exp_coe, ← EReal.coe_mul, ← EReal.coe_mul,
    mul_one_div]

end Ref

/-! ## The two ends meet -/

/-- The output of the online recurrence over blocks `0, …, N` is the softmax-weighted sum over
the flattened index set `Fin (N + 1) × Fin B`, the softmax being taken relative to the maximum
over that set. -/
theorem kernel_eq_ref (s v : ℕ → Fin B → ℝ) (N : ℕ) :
    ((run s v N).acc * (1 / (run s v N).l) : ℝ)
      = ∑ p : Fin (N + 1) × Fin B,
          (Real.exp (s p.1 p.2
              - Finset.univ.sup' Finset.univ_nonempty
                  (fun p : Fin (N + 1) × Fin B => s p.1 p.2))
            / ∑ p' : Fin (N + 1) × Fin B,
                Real.exp (s p'.1 p'.2
                  - Finset.univ.sup' Finset.univ_nonempty
                      (fun p : Fin (N + 1) × Fin B => s p.1 p.2)))
          * v p.1 p.2 := by
  generalize Finset.univ.sup' Finset.univ_nonempty
    (fun p : Fin (N + 1) × Fin B => s p.1 p.2) = M
  rw [final_shift s v M N, Fintype.sum_prod_type, Fintype.sum_prod_type,
    Finset.sum_range (fun j => ∑ kk, Real.exp (s j kk - M)),
    Finset.sum_range (fun j => ∑ kk, Real.exp (s j kk - M)
      / (∑ j' : Fin (N + 1), ∑ kk', Real.exp (s j' kk' - M)) * v j kk)]

/-! ## Re-indexing a softmax row by an equivalence -/

section Reindex

variable {κ ι : Type*} [Fintype κ] [Fintype ι]

/-- Folding `max` over all of a finite index set does not change when the set is re-indexed by an
equivalence. -/
theorem fold_max_equiv (e : κ ≃ ι) (b : EReal) (se : ι → EReal) :
    (Finset.univ : Finset κ).fold max b (fun p => se (e p))
      = (Finset.univ : Finset ι).fold max b se := by
  have h := Finset.fold_map (op := max) (b := b) (g := e.toEmbedding) (f := se)
    (s := (Finset.univ : Finset κ))
  rw [Finset.map_univ_equiv] at h
  exact h.symm

/-- The reference's row maximum is invariant under re-indexing the row by an equivalence. -/
theorem refMax_equiv (e : κ ≃ ι) (se : ι → EReal) :
    refMax (fun p => se (e p)) = refMax se := by
  unfold refMax
  rw [fold_max_equiv e _ se]

/-- The reference's softmax-weighted row sum is invariant under re-indexing scores and values by
the same equivalence. -/
theorem refRow_equiv (e : κ ≃ ι) (se ve : ι → EReal) :
    refRow (fun p => se (e p)) (fun p => ve (e p)) = refRow se ve := by
  unfold refRow
  rw [refMax_equiv e se]
  have h1 : ∑ p, Ideal.exp (se (e p) - refMax se) = ∑ k', Ideal.exp (se k' - refMax se) :=
    Equiv.sum_comp e (fun k' => Ideal.exp (se k' - refMax se))
  rw [h1]
  exact Equiv.sum_comp e (fun k =>
    Ideal.div (Ideal.exp (se k - refMax se))
      (Ideal.ofBits .f32 0x00000000#32 + ∑ k', Ideal.exp (se k' - refMax se)) * ve k)

end Reindex

/-- The standard equivalence `Fin 16 × Fin 256 ≃ Fin (16 * 256)` sends `(a, c)` to `c + 256 * a`. -/
theorem finProd_val (p : Fin 16 × Fin 256) :
    (finProdFinEquiv p).val = p.2.val + 256 * p.1.val := rfl

end OnlineSoftmax
-- ==== Proof.KI.AttnRows.lean ====
/-
  One query row of the attention kernel, as real numbers. With the projected queries, keys and values real-valued, the
  three kept buffers at a query row (and, for the weighted sum, at a value coordinate) are, after the key block t % 16
  of the row's query block, the extended-real images of the online-softmax recurrence run to that block: its maximum,
  its sum of exponentials and its weighted sum. By induction on the grid point: a first key block is the recurrence's
  first step from (-∞, 0, 0), every other key block one more step.
-/
import proofs.«125791_j3195455668383_2_alg».proof.Proof.KI.AttnBlocks
import proofs.«125791_j3195455668383_2_alg».proof.Proof.KI.PayAt
import proofs.«125791_j3195455668383_2_alg».proof.Proof.LibOnlineSoftmaxE

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PayAt OnlineSoftmax

variable (V : (c : Dev nD) → (b : Ref sig .tc) → Buf (Elt Ideal) ((c : Thread nD τ).loc b)) (c : Dev nD)
variable (qR kR vR : S4x4096x1024.Idx → ℝ)

/-- Key row kk of key block j. -/
def keyIdx (j : ℕ) (kk : Fin 256) : Fin 4096 := ⟨256 * (j % 16) + kk.val, by have := kk.isLt; omega⟩

/-- The real scores of query row (b, i) against the keys, block by block. -/
def sRow (b : Fin 4) (i : Fin 4096) : ℕ → Fin 256 → ℝ :=
  fun j kk => (∑ d : Fin 1024, qR (ix3 b i d) * kR (ix3 b (keyIdx j kk) d)) * (1 / 32)
/-- Coordinate d of the values, block by block. -/
def vRow (b : Fin 4) (d : Fin 1024) : ℕ → Fin 256 → ℝ := fun j kk => vR (ix3 b (keyIdx j kk) d)

theorem kRow_eq (t : Fin cfg1.N) (kk : Fin 256) : kRow t kk = keyIdx (t.val % 16) kk :=
  Fin.ext (by simp [kRow, keyIdx, Nat.mod_mod])

section Real

variable (hq : ∀ i, V c main_v14 i = ((qR i : ℝ) : EReal)) (hk : ∀ i, V c main_v15 i = ((kR i : ℝ) : EReal))
  (hv : ∀ i, V c main_v16 i = ((vR i : ℝ) : EReal))
include hq hk

/-- A score of the point's blocks is the real score. -/
theorem score_coe (t : Fin cfg1.N) (b : Fin 4) (r kk : Fin 256) :
    k1_pay13 (F := Ideal) (attnBlk V c 0 t) (attnBlk V c 1 t) (ix3 b r kk)
      = ((sRow qR kR b (qRow t r) (t.val % 16) kk : ℝ) : EReal) := by
  rw [score_at (attnBlk V c 0 t) (attnBlk V c 1 t) b r kk]
  simp only [qBlk_at, kBlk_at, hq, hk, kRow_eq]
  unfold sRow
  rw [scale_eq, EReal.coe_mul, coe_sum]
  simp only [EReal.coe_mul]

include hv

/-- One key block's update, read at a query row: a step of the real recurrence. -/
theorem keyStep_coe (t : Fin cfg1.N) (b : Fin 4) (r : Fin 256) (d : Fin 1024) (xs : Kept Ideal) (p : St)
    (hm : xs.1 (ix3 b r (0 : Fin 1)) = ((p.m : ℝ) : EReal)) (hl : xs.2.1 (ix3 b r (0 : Fin 1)) = ((p.l : ℝ) : EReal))
    (ha : xs.2.2 (ix3 b r d) = ((p.acc : ℝ) : EReal)) :
    (keyStep (attnBlk V c 0 t) (attnBlk V c 1 t) (attnBlk V c 2 t) xs).1 (ix3 b r (0 : Fin 1))
        = (((step (sRow qR kR b (qRow t r)) (vRow vR b d) (t.val % 16) p).m : ℝ) : EReal)
    ∧ (keyStep (attnBlk V c 0 t) (attnBlk V c 1 t) (attnBlk V c 2 t) xs).2.1 (ix3 b r (0 : Fin 1))
        = (((step (sRow qR kR b (qRow t r)) (vRow vR b d) (t.val % 16) p).l : ℝ) : EReal)
    ∧ (keyStep (attnBlk V c 0 t) (attnBlk V c 1 t) (attnBlk V c 2 t) xs).2.2 (ix3 b r d)
        = (((step (sRow qR kR b (qRow t r)) (vRow vR b d) (t.val % 16) p).acc : ℝ) : EReal) := by
  refine ⟨?_, ?_, ?_⟩
  · show k1_pay2 (F := Ideal) (k1_pay14 (attnBlk V c 0 t) (attnBlk V c 1 t) xs.1) (ix3 b r (0 : Fin 1)) = _
    rw [max_stored_at (attnBlk V c 0 t) (attnBlk V c 1 t) xs.1 b r, max_at (attnBlk V c 0 t) (attnBlk V c 1 t) xs.1 b r, hm]
    simp only [score_coe V c qR kR hq hk t b r]
    exact newMax_step (sRow qR kR b (qRow t r)) (vRow vR b d) (t.val % 16) p
  · show k1_pay17 (F := Ideal) (attnBlk V c 0 t) (attnBlk V c 1 t) xs.1 xs.1 xs.2.1 (ix3 b r (0 : Fin 1)) = _
    rw [sum_at (attnBlk V c 0 t) (attnBlk V c 1 t) xs.1 xs.1 xs.2.1 b r, max_at (attnBlk V c 0 t) (attnBlk V c 1 t) xs.1 b r, hm, hl]
    simp only [score_coe V c qR kR hq hk t b r]
    exact newSum_step (sRow qR kR b (qRow t r)) (vRow vR b d) (t.val % 16) p
  · show k1_pay1 (F := Ideal) (k1_pay15 (attnBlk V c 0 t) (attnBlk V c 1 t) xs.1 xs.1) (k1_pay16 (attnBlk V c 0 t) (attnBlk V c 1 t) xs.1) xs.2.2 (attnBlk V c 2 t) (ix3 b r d) = _
    rw [acc_at (attnBlk V c 0 t) (attnBlk V c 1 t) (attnBlk V c 2 t) xs.1 xs.1 xs.2.2 b r d, max_at (attnBlk V c 0 t) (attnBlk V c 1 t) xs.1 b r, hm, ha]
    simp only [score_coe V c qR kR hq hk t b r, vBlk_at, hv, kRow_eq]
    exact newAcc_step (sRow qR kR b (qRow t r)) (vRow vR b d) (t.val % 16) p

/-- The same from the reset state, at a first key block: the recurrence's first step. -/
theorem keyReset_coe (t : Fin cfg1.N) (h0 : t.val % 16 = 0) (b : Fin 4) (r : Fin 256) (d : Fin 1024) :
    (keyStep (attnBlk V c 0 t) (attnBlk V c 1 t) (attnBlk V c 2 t) (keyReset (F := Ideal))).1 (ix3 b r (0 : Fin 1))
        = (((first (sRow qR kR b (qRow t r)) (vRow vR b d)).m : ℝ) : EReal)
    ∧ (keyStep (attnBlk V c 0 t) (attnBlk V c 1 t) (attnBlk V c 2 t) (keyReset (F := Ideal))).2.1 (ix3 b r (0 : Fin 1))
        = (((first (sRow qR kR b (qRow t r)) (vRow vR b d)).l : ℝ) : EReal)
    ∧ (keyStep (attnBlk V c 0 t) (attnBlk V c 1 t) (attnBlk V c 2 t) (keyReset (F := Ideal))).2.2 (ix3 b r d)
        = (((first (sRow qR kR b (qRow t r)) (vRow vR b d)).acc : ℝ) : EReal) := by
  have hs : ∀ kk, k1_pay13 (F := Ideal) (attnBlk V c 0 t) (attnBlk V c 1 t) (ix3 b r kk) = ((sRow qR kR b (qRow t r) 0 kk : ℝ) : EReal) := by
    intro kk; rw [score_coe V c qR kR hq hk t b r kk, h0]
  refine ⟨?_, ?_, ?_⟩
  · show k1_pay2 (F := Ideal) (k1_pay14 (attnBlk V c 0 t) (attnBlk V c 1 t) (k1_pay10 (F := Ideal))) (ix3 b r (0 : Fin 1)) = _
    rw [max_stored_at (attnBlk V c 0 t) (attnBlk V c 1 t) _ b r, max_at (attnBlk V c 0 t) (attnBlk V c 1 t) _ b r, init_max_at]
    simp only [hs]
    exact newMax_first (sRow qR kR b (qRow t r)) (vRow vR b d)
  · show k1_pay17 (F := Ideal) (attnBlk V c 0 t) (attnBlk V c 1 t) (k1_pay10 (F := Ideal)) (k1_pay10 (F := Ideal)) (k1_pay11 (F := Ideal)) (ix3 b r (0 : Fin 1)) = _
    rw [sum_at (attnBlk V c 0 t) (attnBlk V c 1 t) _ _ _ b r, max_at (attnBlk V c 0 t) (attnBlk V c 1 t) _ b r, init_max_at, init_sum_at]
    simp only [hs]
    exact newSum_first (sRow qR kR b (qRow t r)) (vRow vR b d)
  · show k1_pay1 (F := Ideal) (k1_pay15 (attnBlk V c 0 t) (attnBlk V c 1 t) (k1_pay10 (F := Ideal)) (k1_pay10 (F := Ideal))) (k1_pay16 (attnBlk V c 0 t) (attnBlk V c 1 t) (k1_pay10 (F := Ideal))) (k1_pay12 (F := Ideal)) (attnBlk V c 2 t) (ix3 b r d) = _
    rw [acc_at (attnBlk V c 0 t) (attnBlk V c 1 t) (attnBlk V c 2 t) _ _ _ b r d, max_at (attnBlk V c 0 t) (attnBlk V c 1 t) _ b r, init_max_at, init_acc_at]
    simp only [hs, vBlk_at, hv, kRow_eq, h0]
    exact newAcc_first (sRow qR kR b (qRow t r)) (vRow vR b d)

/-- After every grid point the kept buffers at a query row are the real recurrence run to the point's key block. -/
theorem kept_is_run (b : Fin 4) (r : Fin 256) (d : Fin 1024) : ∀ (n : ℕ) (hn : n < cfg1.N),
    (keptAt V c n hn).1 (ix3 b r (0 : Fin 1)) = (((run (sRow qR kR b (qRow ⟨n, hn⟩ r)) (vRow vR b d) (n % 16)).m : ℝ) : EReal)
    ∧ (keptAt V c n hn).2.1 (ix3 b r (0 : Fin 1)) = (((run (sRow qR kR b (qRow ⟨n, hn⟩ r)) (vRow vR b d) (n % 16)).l : ℝ) : EReal)
    ∧ (keptAt V c n hn).2.2 (ix3 b r d) = (((run (sRow qR kR b (qRow ⟨n, hn⟩ r)) (vRow vR b d) (n % 16)).acc : ℝ) : EReal) := by
  intro n
  induction n with
  | zero =>
    intro hn
    have h0 : (⟨0, hn⟩ : Fin cfg1.N).val % 16 = 0 := rfl
    rw [keptAt_first V c ⟨0, hn⟩ h0, keptFirst_eq]
    exact keyReset_coe V c qR kR vR hq hk hv ⟨0, hn⟩ h0 b r d
  | succ n ih =>
    intro hn
    by_cases h0 : (n + 1) % 16 = 0
    · have h0' : (⟨n + 1, hn⟩ : Fin cfg1.N).val % 16 = 0 := h0
      rw [keptAt_first V c ⟨n + 1, hn⟩ h0', keptFirst_eq, h0]
      exact keyReset_coe V c qR kR vR hq hk hv ⟨n + 1, hn⟩ h0' b r d
    · have hrow : qRow ⟨n + 1, hn⟩ r = qRow ⟨n, Nat.lt_of_succ_lt hn⟩ r := Fin.ext (by
        show 256 * ((n + 1) / 16) + r.val = 256 * (n / 16) + r.val
        have : (n + 1) / 16 = n / 16 := by omega
        rw [this])
      have hmod : (n + 1) % 16 = n % 16 + 1 := by omega
      obtain ⟨im, il, ia⟩ := ih (Nat.lt_of_succ_lt hn)
      have hstep : keptAt V c (n + 1) hn = keyStep (attnBlk V c 0 ⟨n + 1, hn⟩) (attnBlk V c 1 ⟨n + 1, hn⟩) (attnBlk V c 2 ⟨n + 1, hn⟩) (keptAt V c n (Nat.lt_of_succ_lt hn)) := by
        by_cases h1 : (n + 1) % 16 = 15
        · have h1' : (⟨n + 1, hn⟩ : Fin cfg1.N).val % 16 = 15 := h1
          rw [keptAt_last V c ⟨n + 1, hn⟩ h1', keptLast_eq]; rfl
        · have h0' : ¬(⟨n + 1, hn⟩ : Fin cfg1.N).val % 16 = 0 := h0
          have h1' : ¬(⟨n + 1, hn⟩ : Fin cfg1.N).val % 16 = 15 := h1
          rw [keptAt_mid V c ⟨n + 1, hn⟩ h0' h1', keptMid_eq]; rfl
      rw [hstep, hrow, hmod, run_succ]
      have := keyStep_coe V c qR kR vR hq hk hv ⟨n + 1, hn⟩ b r d (keptAt V c n (Nat.lt_of_succ_lt hn)) (run (sRow qR kR b (qRow ⟨n, Nat.lt_of_succ_lt hn⟩ r)) (vRow vR b d) (n % 16)) im il ia
      rw [hrow, show (⟨n + 1, hn⟩ : Fin cfg1.N).val % 16 = n % 16 + 1 from hmod] at this
      exact this

end Real

end Cert.KernelIdeal.Gen

end
-- ==== Proof.KI.AttnOut.lean ====
/-
  The attention kernel's result block at a last key block, read at an index: the four slabs the body stores are, at
  (b, r, e), the updated weighted sum at (b, r, ·) divided by the updated sum at (b, r), projected through column e of
  the output weight, plus the bias — one function of the block index, whichever slab holds it.
-/
import proofs.«125791_j3195455668383_2_alg».proof.Proof.KI.AttnRows

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PayAt OnlineSoftmax

theorem zero2 : (![0, 0] : Fin 2 → Nat) = fun _ => 0 := funext fun a => by fin_cases a <;> rfl

/-- The slab at offset o along the batch axis sends its local index (0, r, e) to (o, r, e). -/
theorem slab_idx (o : ℕ) (ho : o < 4) (inb : ∀ a, (![o, 0, 0] : Fin 3 → Nat) a + (![1, 256, 1024] : Fin 3 → Nat) a ≤ S4x256x1024.size a)
    (u : Fin 1) (r : Fin 256) (e : Fin 1024) :
    (Rect.unit (s := S4x256x1024) ![o, 0, 0] ![1, 256, 1024] inb).toLoadRect.idx (ix3 u r e) = ix3 (⟨o, ho⟩ : Fin 4) r e := by
  funext a
  apply Fin.ext
  match a with
  | ⟨0, _⟩ => show o + 1 * u.val = o; have := u.isLt; omega
  | ⟨1, _⟩ => show 0 + 1 * r.val = r.val; omega
  | ⟨2, _⟩ => show 0 + 1 * e.val = e.val; omega

/-- Row (b, r) of the result block at column e. -/
def outRowAt (x0 x1 x2 : Vec Ideal S4x256x1024 .bf16) (x3 : Vec Ideal S1024x1024 .bf16) (x4 : Vec Ideal S1x1024 .f32) (xs : Kept Ideal)
    (b : Fin 4) (r : Fin 256) (e : Fin 1024) : EReal :=
  (∑ d : Fin 1024, ((keyStep x0 x1 x2 xs).2.2 (ix3 b r d) * Ideal.div (Ideal.ofBits .f32 0x3F800000#32) ((keyStep x0 x1 x2 xs).2.1 (ix3 b r (0 : Fin 1)))) * x3 (ix2 d e))
    + x4 (ix2 (0 : Fin 1) e)

/-- The same as a function of the block index. -/
def outRow (x0 x1 x2 : Vec Ideal S4x256x1024 .bf16) (x3 : Vec Ideal S1024x1024 .bf16) (x4 : Vec Ideal S1x1024 .f32) (xs : Kept Ideal) :
    S4x256x1024.Idx → EReal :=
  fun y => outRowAt x0 x1 x2 x3 x4 xs ⟨(y 0).val, (y 0).isLt⟩ ⟨(y 1).val, (y 1).isLt⟩ ⟨(y 2).val, (y 2).isLt⟩

theorem outRow_ix3 (x0 x1 x2 : Vec Ideal S4x256x1024 .bf16) (x3 : Vec Ideal S1024x1024 .bf16) (x4 : Vec Ideal S1x1024 .f32) (xs : Kept Ideal)
    (b : Fin 4) (r : Fin 256) (e : Fin 1024) : outRow x0 x1 x2 x3 x4 xs (ix3 b r e) = outRowAt x0 x1 x2 x3 x4 xs b r e := rfl

/-- Slab 3 of the result agrees with the row function. -/
theorem slabAgrees3 (x0 x1 x2 : Vec Ideal S4x256x1024 .bf16) (x3 : Vec Ideal S1024x1024 .bf16) (x4 : Vec Ideal S1x1024 .f32) (xs : Kept Ideal)
    (x : S1x256x1024.Idx) :
    k1_pay3 (F := Ideal) (k1_pay9 (k1_pay4 (keyStep x0 x1 x2 xs).2.1) (fun j : S1x256x1024.Idx => (keyStep x0 x1 x2 xs).2.2 ((Rect.unit (s := S4x256x1024) ![3, 0, 0] ![1, 256, 1024] inb_S4x256x1024_S1x256x1024_3_0_0).toLoadRect.idx j)) x3 x4) x
      = outRow x0 x1 x2 x3 x4 xs ((Rect.unit (s := S4x256x1024) ![3, 0, 0] ![1, 256, 1024] inb_S4x256x1024_S1x256x1024_3_0_0).toLoadRect.idx x) := by
  obtain ⟨u, r', e', rfl⟩ : ∃ (u : Fin 1) (r' : Fin 256) (e' : Fin 1024), x = ix3 u r' e' := ⟨x 0, x 1, x 2, eq_ix3 x⟩
  obtain rfl : u = 0 := Subsingleton.elim _ _
  refine (slab3_at _ _ x3 x4 r' e').trans ?_
  rw [slab_idx 3 (by decide) _ (0 : Fin 1) r' e', outRow_ix3]
  simp only [slab_idx 3 (by decide) _ (0 : Fin 1) r']
  rfl

/-- Slab 2 of the result agrees with the row function. -/
theorem slabAgrees2 (x0 x1 x2 : Vec Ideal S4x256x1024 .bf16) (x3 : Vec Ideal S1024x1024 .bf16) (x4 : Vec Ideal S1x1024 .f32) (xs : Kept Ideal)
    (x : S1x256x1024.Idx) :
    k1_pay8 (F := Ideal) (k1_pay4 (keyStep x0 x1 x2 xs).2.1) (fun j : S1x256x1024.Idx => (keyStep x0 x1 x2 xs).2.2 ((Rect.unit (s := S4x256x1024) ![2, 0, 0] ![1, 256, 1024] inb_S4x256x1024_S1x256x1024_2_0_0).toLoadRect.idx j)) x3 x4 x
      = outRow x0 x1 x2 x3 x4 xs ((Rect.unit (s := S4x256x1024) ![2, 0, 0] ![1, 256, 1024] inb_S4x256x1024_S1x256x1024_2_0_0).toLoadRect.idx x) := by
  obtain ⟨u, r', e', rfl⟩ : ∃ (u : Fin 1) (r' : Fin 256) (e' : Fin 1024), x = ix3 u r' e' := ⟨x 0, x 1, x 2, eq_ix3 x⟩
  obtain rfl : u = 0 := Subsingleton.elim _ _
  refine (slab2_at _ _ x3 x4 r' e').trans ?_
  rw [slab_idx 2 (by decide) _ (0 : Fin 1) r' e', outRow_ix3]
  simp only [slab_idx 2 (by decide) _ (0 : Fin 1) r']
  rfl

/-- Slab 1 of the result agrees with the row function. -/
theorem slabAgrees1 (x0 x1 x2 : Vec Ideal S4x256x1024 .bf16) (x3 : Vec Ideal S1024x1024 .bf16) (x4 : Vec Ideal S1x1024 .f32) (xs : Kept Ideal)
    (x : S1x256x1024.Idx) :
    k1_pay7 (F := Ideal) (k1_pay6 (keyStep x0 x1 x2 xs).2.1 (fun j : S1x256x1024.Idx => (keyStep x0 x1 x2 xs).2.2 ((Rect.unit (s := S4x256x1024) ![1, 0, 0] ![1, 256, 1024] inb_S4x256x1024_S1x256x1024_1_0_0).toLoadRect.idx j)) x3 x4) x
      = outRow x0 x1 x2 x3 x4 xs ((Rect.unit (s := S4x256x1024) ![1, 0, 0] ![1, 256, 1024] inb_S4x256x1024_S1x256x1024_1_0_0).toLoadRect.idx x) := by
  obtain ⟨u, r', e', rfl⟩ : ∃ (u : Fin 1) (r' : Fin 256) (e' : Fin 1024), x = ix3 u r' e' := ⟨x 0, x 1, x 2, eq_ix3 x⟩
  obtain rfl : u = 0 := Subsingleton.elim _ _
  refine (slab1_at _ _ x3 x4 r' e').trans ?_
  rw [slab_idx 1 (by decide) _ (0 : Fin 1) r' e', outRow_ix3]
  simp only [slab_idx 1 (by decide) _ (0 : Fin 1) r']
  rfl

/-- Slab 0 of the result agrees with the row function. -/
theorem slabAgrees0 (x0 x1 x2 : Vec Ideal S4x256x1024 .bf16) (x3 : Vec Ideal S1024x1024 .bf16) (x4 : Vec Ideal S1x1024 .f32) (xs : Kept Ideal)
    (x : S1x256x1024.Idx) :
    k1_pay5 (F := Ideal) (keyStep x0 x1 x2 xs).2.1 (fun j : S1x256x1024.Idx => (keyStep x0 x1 x2 xs).2.2 ((Rect.unit (s := S4x256x1024) ![0, 0, 0] ![1, 256, 1024] inb_S4x256x1024_S1x256x1024_0_0_0).toLoadRect.idx j)) x3 x4 x
      = outRow x0 x1 x2 x3 x4 xs ((Rect.unit (s := S4x256x1024) ![0, 0, 0] ![1, 256, 1024] inb_S4x256x1024_S1x256x1024_0_0_0).toLoadRect.idx x) := by
  obtain ⟨u, r', e', rfl⟩ : ∃ (u : Fin 1) (r' : Fin 256) (e' : Fin 1024), x = ix3 u r' e' := ⟨x 0, x 1, x 2, eq_ix3 x⟩
  obtain rfl : u = 0 := Subsingleton.elim _ _
  refine (slab0_at _ _ x3 x4 r' e').trans ?_
  rw [slab_idx 0 (by decide) _ (0 : Fin 1) r' e', outRow_ix3]
  simp only [slab_idx 0 (by decide) _ (0 : Fin 1) r']
  rfl

set_option maxHeartbeats 4000000 in
theorem outLast_at (c : Dev nD) (t : Fin cfg1.N) (h1 : t.val % 16 = 15) (x0 x1 x2 : Vec Ideal S4x256x1024 .bf16)
    (x3 : Vec Ideal S1024x1024 .bf16) (x4 : Vec Ideal S1x1024 .f32) (xs : Kept Ideal) (b : Fin 4) (r : Fin 256) (e : Fin 1024) :
    outLast (F := Ideal) c t h1 x0 x1 x2 x3 x4 xs (ix3 b r e) = outRowAt x0 x1 x2 x3 x4 xs b r e := by
  unfold outLast
  rw [View.read_writes_eq_canon _ _ _ (coverOutLast c t h1 x0 x1 x2 x3 x4 xs)]
  unfold runLastAt attnRunLast
  dsimp only
  sl_unfold_words
  simp only [View.readAt_eq_ld, (haq t).read_unread, (hak t).read_unread, (hav t).read_unread, (hawo t).read_unread, (habo t).read_unread, View.ld_unit_zero (S := S4x256x1024) zero3, View.ld_unit_zero (S := S4x256x1) zero3, read_runMax, read_runSum, read_runAcc, View.readCov_unit_zero (S := S4x256x1) _ zero3, View.ld_unit_zero (S := S1024x1024) zero2, View.ld_unit_zero (S := S1x1024) zero2, View.readCov_eq_canon', View.canon_unit_zero (S := S4x256x1024) zero3]
  refine (View.canon_apply_of_pieces (outRow x0 x1 x2 x3 x4 xs) _ ?_ (ix3 b r e) ?_).trans (outRow_ix3 x0 x1 x2 x3 x4 xs b r e)
  · intro p hp
    simp only [List.mem_cons, List.mem_nil_iff, or_false] at hp
    rcases hp with rfl | rfl | rfl | rfl
    · exact slabAgrees3 x0 x1 x2 x3 x4 xs
    · exact slabAgrees2 x0 x1 x2 x3 x4 xs
    · exact slabAgrees1 x0 x1 x2 x3 x4 xs
    · exact slabAgrees0 x0 x1 x2 x3 x4 xs
  · exact View.cover_of_tiledL (s := S4x256x1024) _ S1x256x1024.size (by sl_kernel_rfl) (ix3 b r e)

end Cert.KernelIdeal.Gen

end
-- ==== Proof.Spec.lean ====
/-
  Single-head attention over the extended reals, written once, with the exact operations both programs are read at:
  three linear projections of the input (x·Wᵀ + b), scaled dot-product scores, a softmax over the keys taken with the
  row maximum subtracted, the weighted sum of the values, and the output projection.
-/
import Idealize.ShloMosaic.PureOps.Ideal
import Idealize.ShloMosaic.PureOps.Ideal.Laws

noncomputable section

namespace AttnSpec

open Idealize.ShloMosaic

/-- A linear layer: row `s` of batch `bb` against row `e` of the weight matrix, plus the bias. -/
def proj (x : Fin 4 → Fin 4096 → Fin 1024 → EReal) (W : Fin 1024 → Fin 1024 → EReal) (b : Fin 1024 → EReal)
    (bb : Fin 4) (s : Fin 4096) (e : Fin 1024) : EReal :=
  (∑ d : Fin 1024, x bb s d * W e d) + b e

/-- The score of query `i` against key `j`: their dot product times 1/32. -/
def score (q k : Fin 4 → Fin 4096 → Fin 1024 → EReal) (bb : Fin 4) (i j : Fin 4096) : EReal :=
  (∑ d : Fin 1024, q bb i d * k bb j d) * Ideal.ofBits .f32 0x3D000000#32

/-- The maximum of a row of scores, taken from -∞. -/
def rowMax (se : Fin 4096 → EReal) : EReal :=
  max (Ideal.ofBits .f32 0xFF800000#32) ((Finset.univ : Finset (Fin 4096)).fold max (Ideal.ofBits .f32 0xFF800000#32) se)

/-- The softmax-weighted sum of a row of values: each weight is exp (score - max) over the sum of those. -/
def softRow (se ve : Fin 4096 → EReal) : EReal :=
  ∑ k : Fin 4096, Ideal.div (Ideal.exp (se k - rowMax se)) (Ideal.ofBits .f32 0x00000000#32 + ∑ k' : Fin 4096, Ideal.exp (se k' - rowMax se)) * ve k

/-- The attention context: for query `i`, the softmax over all keys of its scores, applied to coordinate `d` of the values. -/
def ctx (q k v : Fin 4 → Fin 4096 → Fin 1024 → EReal) (bb : Fin 4) (i : Fin 4096) (d : Fin 1024) : EReal :=
  softRow (fun j => score q k bb i j) (fun j => v bb j d)

/-- The output projection of the context. -/
def out (q k v : Fin 4 → Fin 4096 → Fin 1024 → EReal) (Wo : Fin 1024 → Fin 1024 → EReal) (bo : Fin 1024 → EReal)
    (bb : Fin 4) (i : Fin 4096) (e : Fin 1024) : EReal :=
  (∑ d : Fin 1024, ctx q k v bb i d * Wo e d) + bo e

/-- The whole layer. -/
def attn (x : Fin 4 → Fin 4096 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) : Fin 4 → Fin 4096 → Fin 1024 → EReal :=
  out (proj x Wq bq) (proj x Wk bk) (proj x Wv bv) Wo bo

end AttnSpec

end
-- ==== Proof.KI.AttnArray.lean ====
/-
  The attention kernel's result, row by row: at a last key block the stored row (b, r, ·) is the output projection of
  the softmax context of query row 256·(t/16) + r — because the kept weighted sum over the kept sum is the online
  recurrence's final quotient, which is the softmax-weighted sum over all 4096 keys taken 16 blocks of 256 at a time.
-/
import proofs.«125791_j3195455668383_2_alg».proof.Proof.KI.AttnOut
import proofs.«125791_j3195455668383_2_alg».proof.Proof.Spec

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PayAt OnlineSoftmax

variable (V : (c : Dev nD) → (b : Ref sig .tc) → Buf (Elt Ideal) ((c : Thread nD τ).loc b)) (c : Dev nD)
variable (qR kR vR : S4x4096x1024.Idx → ℝ)

/-- The arrays the launch finds, as plain functions of coordinates. -/
def Qe : Fin 4 → Fin 4096 → Fin 1024 → EReal := fun bb s d => V c main_v14 (ix3 bb s d)
def Ke : Fin 4 → Fin 4096 → Fin 1024 → EReal := fun bb s d => V c main_v15 (ix3 bb s d)
def Ve : Fin 4 → Fin 4096 → Fin 1024 → EReal := fun bb s d => V c main_v16 (ix3 bb s d)
/-- The output weight is found transposed. -/
def Woe : Fin 1024 → Fin 1024 → EReal := fun e d => V c main_v9 (ix2 d e)
def boe : Fin 1024 → EReal := fun e => V c main_v17 (ix2 (0 : Fin 1) e)

theorem keyIdx_prod (p : Fin 16 × Fin 256) : keyIdx p.1.val p.2 = (finProdFinEquiv p : Fin 4096) := by
  apply Fin.ext
  show 256 * (p.1.val % 16) + p.2.val = (finProdFinEquiv p).val
  rw [finProd_val, Nat.mod_eq_of_lt p.1.isLt]; omega

section Real

variable (hq : ∀ i, V c main_v14 i = ((qR i : ℝ) : EReal)) (hk : ∀ i, V c main_v15 i = ((kR i : ℝ) : EReal))
  (hv : ∀ i, V c main_v16 i = ((vR i : ℝ) : EReal))
include hq hk hv

/-- The softmax context of query row (b, i) at value coordinate d is the recurrence's final quotient. -/
theorem ctx_eq (b : Fin 4) (i : Fin 4096) (d : Fin 1024) :
    AttnSpec.ctx (Qe V c) (Ke V c) (Ve V c) b i d
      = (((run (sRow qR kR b i) (vRow vR b d) 15).acc * (1 / (run (sRow qR kR b i) (vRow vR b d) 15).l) : ℝ) : EReal) := by
  show refRow (fun j : Fin 4096 => AttnSpec.score (Qe V c) (Ke V c) b i j) (fun j : Fin 4096 => Ve V c b j d) = _
  rw [← refRow_equiv (finProdFinEquiv : Fin 16 × Fin 256 ≃ Fin 4096)]
  have hs : (fun p : Fin 16 × Fin 256 => AttnSpec.score (Qe V c) (Ke V c) b i (finProdFinEquiv p))
      = fun p : Fin (15 + 1) × Fin 256 => (((sRow qR kR b i p.1.val p.2 : ℝ)) : EReal) := by
    funext p
    unfold AttnSpec.score Qe Ke sRow
    simp only [hq, hk, keyIdx_prod]
    rw [scale_eq, EReal.coe_mul, coe_sum]
    simp only [EReal.coe_mul]
  have hvv : (fun p : Fin 16 × Fin 256 => Ve V c b (finProdFinEquiv p) d)
      = fun p : Fin (15 + 1) × Fin 256 => (((vRow vR b d p.1.val p.2 : ℝ)) : EReal) := by
    funext p
    unfold Ve vRow
    simp only [hv, keyIdx_prod]
  rw [hs, hvv, refRow_coe, kernel_eq_ref]

/-- The stored row at a last key block is the output projection of the softmax context. -/
theorem row_out (t : Fin cfg1.N) (h1 : t.val % 16 = 15) (b : Fin 4) (r : Fin 256) (e : Fin 1024) :
    outRowAt (attnBlk V c 0 t) (attnBlk V c 1 t) (attnBlk V c 2 t) (attnBlk V c 3 t) (attnBlk V c 4 t)
        (keptAt V c (t.val - 1) (Nat.lt_of_le_of_lt (Nat.sub_le _ _) t.isLt)) b r e
      = AttnSpec.out (Qe V c) (Ke V c) (Ve V c) (Woe V c) (boe V c) b (qRow t r) e := by
  have hks : keyStep (attnBlk V c 0 t) (attnBlk V c 1 t) (attnBlk V c 2 t) (keptAt V c (t.val - 1) (Nat.lt_of_le_of_lt (Nat.sub_le _ _) t.isLt))
      = keptAt V c t.val t.isLt := by
    rw [keptAt_last V c t h1, keptLast_eq]
  unfold outRowAt AttnSpec.out
  rw [hks, boBlk_at]
  congr 1
  refine Finset.sum_congr rfl fun d _ => ?_
  obtain ⟨-, hl, ha⟩ := kept_is_run V c qR kR vR hq hk hv b r d t.val t.isLt
  rw [ha, hl, h1, quot_coe _ _ (ne_of_gt (run_l_pos _ _ 15)), woBlk_at, ctx_eq V c qR kR vR hq hk hv]
  rfl

end Real

/-! ## The result array -/

section Array

variable (hq : ∀ i, V c main_v14 i = ((qR i : ℝ) : EReal)) (hk : ∀ i, V c main_v15 i = ((kR i : ℝ) : EReal))
  (hv : ∀ i, V c main_v16 i = ((vR i : ℝ) : EReal))

/-- What the result array ends holding: the attention output of the arrays the launch finds. -/
def attnG : S4x4096x1024.Idx → EReal :=
  fun i => AttnSpec.out (Qe V c) (Ke V c) (Ve V c) (Woe V c) (boe V c) ⟨(i 0).val, (i 0).isLt⟩ ⟨(i 1).val, (i 1).isLt⟩ ⟨(i 2).val, (i 2).isLt⟩

theorem attnG_ix3 (b : Fin 4) (i : Fin 4096) (e : Fin 1024) :
    attnG V c (ix3 b i e) = AttnSpec.out (Qe V c) (Ke V c) (Ve V c) (Woe V c) (boe V c) b i e := rfl

include hq hk hv in
/-- What a last key block writes back is its block of that array. -/
theorem attnFlushed (t : Fin cfg1.N) (hf : (cfg1.win 5).flush t = true) :
    (attnDat V c).flushed 5 t = ((cfg1.win 5).blk t).view.read (Elt Ideal) (attnG V c) := by
  have h1 : t.val % 16 = 15 := (flush1_5 t).mp hf
  show (cfg1.win 5).cut (grid1.coords t) ((attnDat V c).after 5 t) = _
  rw [attnAfter5]
  unfold outAt; rw [dif_pos h1]
  funext j
  obtain ⟨b, r, e, rfl⟩ : ∃ (b : Fin 4) (r : Fin 256) (e : Fin 1024), j = ix3 b r e := ⟨j 0, j 1, j 2, eq_ix3 j⟩
  rw [View.read_apply]
  show outLast (F := Ideal) c t h1 _ _ _ _ _ _ (ix3 b r e) = attnG V c _
  rw [outLast_at, row_out V c qR kR vR hq hk hv t h1 b r e, ← attnG_ix3]
  congr 1
  obtain ⟨o0, o1, o2⟩ := outIndex t
  funext a
  apply Fin.ext
  match a with
  | ⟨0, _⟩ => show b.val = win1_5.index t 0 * 4 + 1 * b.val; rw [o0]; omega
  | ⟨1, _⟩ => show 256 * (t.val / 16) + r.val = win1_5.index t 1 * 256 + 1 * r.val; rw [o1]; omega
  | ⟨2, _⟩ => show e.val = win1_5.index t 2 * 1024 + 1 * e.val; rw [o2]; omega

/-- An index of the result array is in point t's block iff each coordinate is in the block's range. -/
theorem attnMemBlk (t : Fin cfg1.N) (i : S4x4096x1024.Idx) :
    i ∈ ((cfg1.win 5).blk t).view.set ↔ ∀ a : Fin 3, win1_5.index t a * S4x256x1024.size a ≤ (i a).val ∧ (i a).val < win1_5.index t a * S4x256x1024.size a + S4x256x1024.size a := by
  show i ∈ ((View.whole main_v18).slice (win1_5.rect t)).set ↔ _
  rw [View.set_slice_whole, Rect.mem_set_unit]
  exact Iff.rfl

/-- Every index is written by the last key block of its query block. -/
theorem attnCover (i : S4x4096x1024.Idx) : ∃ t : Fin cfg1.N, (cfg1.win 5).flush t = true ∧ i ∈ ((cfg1.win 5).blk t).view.set := by
  have hi0 : (i 0).val < 4 := (i 0).isLt
  have hi1 : (i 1).val < 4096 := (i 1).isLt
  have hi2 : (i 2).val < 1024 := (i 2).isLt
  have hN : cfg1.N = 256 := N_1
  have hlt : 16 * ((i 1).val / 256) + 15 < cfg1.N := by omega
  refine ⟨⟨16 * ((i 1).val / 256) + 15, hlt⟩, (flush1_5 _).mpr (by show (16 * ((i 1).val / 256) + 15) % 16 = 15; omega), ?_⟩
  rw [attnMemBlk]
  obtain ⟨o0, o1, o2⟩ := outIndex ⟨16 * ((i 1).val / 256) + 15, hlt⟩
  have o1' : win1_5.index ⟨16 * ((i 1).val / 256) + 15, hlt⟩ 1 = (i 1).val / 256 := by rw [o1]; show (16 * ((i 1).val / 256) + 15) / 16 = _; omega
  intro a
  match a with
  | ⟨0, _⟩ => show win1_5.index _ 0 * 4 ≤ (i 0).val ∧ (i 0).val < win1_5.index _ 0 * 4 + 4; rw [o0]; omega
  | ⟨1, _⟩ => show win1_5.index _ 1 * 256 ≤ (i 1).val ∧ (i 1).val < win1_5.index _ 1 * 256 + 256; rw [o1']; omega
  | ⟨2, _⟩ => show win1_5.index _ 2 * 1024 ≤ (i 2).val ∧ (i 2).val < win1_5.index _ 2 * 1024 + 1024; rw [o2]; omega

include hq hk hv in
/-- So the result array ends holding the attention output of the arrays the launch finds. -/
theorem attnArray : (attnDat V c).arrAt 5 cfg1.N = attnG V c :=
  (attnDat V c).arrAt_eq_of_cover 5 (attnG V c) (attnFlushed V c qR kR vR hq hk hv) (attnCover)

end Array

end Cert.KernelIdeal.Gen

end
-- ==== Proof.KI.Proj.lean ====
/-
  The projection kernel (the first launch) at the buffer contents `V` it is entered from: at grid point `t` it is
  handed rows 512·t … 512·t+511 of the input matrix and the three weight matrices and bias rows whole, and it stores
  into each of its three result blocks the product of the input rows with one weight matrix plus that bias row.
  Here: each operand's block as a function of `V`, what the three stores leave in the result buffers, the body's
  triple, the per-point bookkeeping of the launch, and the obligation that at every point the body takes the
  buffers from the one state to the other.
-/
import proofs.«125791_j3195455668383_2_alg».proof.Proof.Gen.KernelIdeal.Launch
import proofs.«125791_j3195455668383_2_alg».proof.Proof.Gen.KernelIdeal.Skeleton
import proofs.«125791_j3195455668383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`: the rows (or the whole matrix, or the bias row) the launch hands the body. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input operand 0 is at its block at every point, whether the launch fetched it there or kept it from the point before. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- Input operand 1 is at its block at every point, whether the launch fetched it there or kept it from the point before. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- Input operand 2 is at its block at every point, whether the launch fetched it there or kept it from the point before. -/
theorem projBefore2_of {c : Dev nD} (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)

/-- Input operand 3 is at its block at every point, whether the launch fetched it there or kept it from the point before. -/
theorem projBefore3_of {c : Dev nD} (dat : Dat τ (Elt F) Unit ℕ (UR sig nD τ) ℕ cfg0 c) (hA : dat.A 3 = V c (Pipeline.arrRef spec0 3))
    (hafter : ∀ t, dat.after 3 t = projBlk V c 3 t) (t : Fin cfg0.N) (d) : dat.before 3 t d = projBlk V c 3 t :=
  (dat.before_in_eq_fetched 3 rfl (fun _ => rfl) (fun _ _ _ => rfl) (fun t => by rw [hafter]; unfold Dat.blockOf projBlk; rw [hA]; try rfl) t d).trans
    (by unfold Dat.fetched Dat.blockOf projBlk; rw [hA]; try rfl)

/-- Input operand 4 is at its block at every point, whether the launch fetched it there or kept it from the point before. -/
theorem projBefore4_of {c : Dev nD} (dat : Dat τ (Elt F) Unit ℕ (UR sig nD τ) ℕ cfg0 c) (hA : dat.A 4 = V c (Pipeline.arrRef spec0 4))
    (hafter : ∀ t, dat.after 4 t = projBlk V c 4 t) (t : Fin cfg0.N) (d) : dat.before 4 t d = projBlk V c 4 t :=
  (dat.before_in_eq_fetched 4 rfl (fun _ => rfl) (fun _ _ _ => rfl) (fun t => by rw [hafter]; unfold Dat.blockOf projBlk; rw [hA]; try rfl) t d).trans
    (by unfold Dat.fetched Dat.blockOf projBlk; rw [hA]; try rfl)

/-- Input operand 5 is at its block at every point, whether the launch fetched it there or kept it from the point before. -/
theorem projBefore5_of {c : Dev nD} (dat : Dat τ (Elt F) Unit ℕ (UR sig nD τ) ℕ cfg0 c) (hA : dat.A 5 = V c (Pipeline.arrRef spec0 5))
    (hafter : ∀ t, dat.after 5 t = projBlk V c 5 t) (t : Fin cfg0.N) (d) : dat.before 5 t d = projBlk V c 5 t :=
  (dat.before_in_eq_fetched 5 rfl (fun _ => rfl) (fun _ _ _ => rfl) (fun t => by rw [hafter]; unfold Dat.blockOf projBlk; rw [hA]; try rfl) t d).trans
    (by unfold Dat.fetched Dat.blockOf projBlk; rw [hA]; try rfl)

/-- Input operand 6 is at its block at every point, whether the launch fetched it there or kept it from the point before. -/
theorem projBefore6_of {c : Dev nD} (dat : Dat τ (Elt F) Unit ℕ (UR sig nD τ) ℕ cfg0 c) (hA : dat.A 6 = V c (Pipeline.arrRef spec0 6))
    (hafter : ∀ t, dat.after 6 t = projBlk V c 6 t) (t : Fin cfg0.N) (d) : dat.before 6 t d = projBlk V c 6 t :=
  (dat.before_in_eq_fetched 6 rfl (fun _ => rfl) (fun _ _ _ => rfl) (fun t => by rw [hafter]; unfold Dat.blockOf projBlk; rw [hA]; try rfl) t d).trans
    (by unfold Dat.fetched Dat.blockOf projBlk; rw [hA]; try rfl)

/-- The whole-buffer rectangles the body loads and stores through. -/
abbrev rRows : Rect S512x1024 := Rect.unit (s := S512x1024) ![0, 0] S512x1024.size inb_S512x1024_S512x1024_0_0
abbrev rMat : Rect S1024x1024 := Rect.unit (s := S1024x1024) ![0, 0] S1024x1024.size inb_S1024x1024_S1024x1024_0_0
abbrev rBias : Rect S1x1024 := Rect.unit (s := S1x1024) ![0, 0] S1x1024.size inb_S1x1024_S1x1024_0_0

/-- What the body leaves in the three result buffers: rows·Wq + bq, rows·Wk + bk, rows·Wv + bv, each one whole store. -/
def projOutQ (x0 : Vec F S512x1024 .bf16) (x1 : Vec F S1024x1024 .bf16) (x4 : Vec F S1x1024 .f32) : Vec F S512x1024 .bf16 :=
  View.canon [⟨rRows, k0_pay2 (View.ld x0 rRows) (View.ld x1 rMat) (View.ld x4 rBias)⟩]
def projOutK (x0 : Vec F S512x1024 .bf16) (x2 : Vec F S1024x1024 .bf16) (x5 : Vec F S1x1024 .f32) : Vec F S512x1024 .bf16 :=
  View.canon [⟨rRows, k0_pay3 (View.ld x0 rRows) (View.ld x2 rMat) (View.ld x5 rBias)⟩]
def projOutV (x0 : Vec F S512x1024 .bf16) (x3 : Vec F S1024x1024 .bf16) (x6 : Vec F S1x1024 .f32) : Vec F S512x1024 .bf16 :=
  View.canon [⟨rRows, k0_pay4 (View.ld x0 rRows) (View.ld x3 rMat) (View.ld x6 rBias)⟩]

/-- One whole store covers the buffer. -/
theorem projCover (p0 : Vec F S512x1024 .bf16) (y : S512x1024.Idx) :
    ∃ pc ∈ ([⟨rRows, p0⟩] : List (View.Piece (Elt F) S512x1024 .bf16)), y ∈ pc.1.set :=
  View.cover_of_tiled [⟨rRows, p0⟩] S512x1024.size (by rfl) y

set_option maxHeartbeats 4000000 in
/-- The body on whole buffers, the seven inputs at their contents and the three results at anything, runs to its
    return with the inputs as they were and the results at the three products. -/
theorem projKernel (c : Dev nD) (E : Set ℕ) (i : grid0.Coords)
    (a1 : Memref sig .tc .vmem S512x1024 .bf16) (h1 : a1.IsWhole) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1x1024 .f32) (h6 : a6.IsWhole)
    (a7 : Memref sig .tc .vmem S1x1024 .f32) (h7 : a7.IsWhole) (a8 : Memref sig .tc .vmem S512x1024 .bf16) (h8 : a8.IsWhole)
    (a9 : Memref sig .tc .vmem S512x1024 .bf16) (h9 : a9.IsWhole) (a10 : Memref sig .tc .vmem S512x1024 .bf16) (h10 : a10.IsWhole)
    (x0 : Vec F S512x1024 .bf16) (x1 x2 x3 : Vec F S1024x1024 .bf16) (x4 x5 x6 : Vec F S1x1024 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
        ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6
            ∗ owns (c : Thread nD τ) a8 fullShare (projOutQ x0 x1 x4) ∗ owns (c : Thread nD τ) a9 fullShare (projOutK x0 x2 x5)
            ∗ owns (c : Thread nD τ) a10 fullShare (projOutV x0 x3 x6)) -∗ K ⟨⟩))
      ⊢ wp frame (wpE (defs₀ (F := F)) Variants.none c none) E (cc0__qkv_kernel i a1 h1 a2 h2 a3 h3 a4 h4 a5 h5 a6 h6 a7 h7 a8 h8 a9 h9 a10 h10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (projCover _)
  isplitl [H8]
  · iexists _; isplitr
    swap; · iexact H8
    ipureintro
    exact View.read_writes_eq_canon _ _ _ (projCover _)
  iexists _; isplitr
  swap; · iexact H9
  ipureintro
  exact View.read_writes_eq_canon _ _ _ (projCover _)

/-- The launch's bookkeeping on core `c`: the ten arrays as the launch finds them; after the body at point `t` every
    input buffer at its block and the three result buffers at the three products of the point's blocks; between points
    nothing of the kernel's own is kept; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projBlk V c 3 t
    | ⟨4, _⟩ => projBlk V c 4 t
    | ⟨5, _⟩ => projBlk V c 5 t
    | ⟨6, _⟩ => projBlk V c 6 t
    | ⟨7, _⟩ => projOutQ (projBlk V c 0 t) (projBlk V c 1 t) (projBlk V c 4 t)
    | ⟨8, _⟩ => projOutK (projBlk V c 0 t) (projBlk V c 2 t) (projBlk V c 5 t)
    | ⟨9, _⟩ => projOutV (projBlk V c 0 t) (projBlk V c 3 t) (projBlk V c 6 t)
  Φ _ := Pipeline.ΦA spec0 c
  q _ := fullShare
  owed _ := 0

theorem projA_eq (c : Dev nD) (w : Fin cfg0.W) : (projDat V c).A w = V c (Pipeline.arrRef spec0 w) := by
  dsimp only [projDat]

theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projBlk V c 2 t := by dsimp only [projDat]
theorem projAfter3 (c : Dev nD) (t : Fin cfg0.N) : (projDat V c).after 3 t = projBlk V c 3 t := by dsimp only [projDat]
theorem projAfter4 (c : Dev nD) (t : Fin cfg0.N) : (projDat V c).after 4 t = projBlk V c 4 t := by dsimp only [projDat]
theorem projAfter5 (c : Dev nD) (t : Fin cfg0.N) : (projDat V c).after 5 t = projBlk V c 5 t := by dsimp only [projDat]
theorem projAfter6 (c : Dev nD) (t : Fin cfg0.N) : (projDat V c).after 6 t = projBlk V c 6 t := by dsimp only [projDat]
theorem projAfter7 (c : Dev nD) (t : Fin cfg0.N) : (projDat V c).after 7 t = projOutQ (projBlk V c 0 t) (projBlk V c 1 t) (projBlk V c 4 t) := by dsimp only [projDat]
theorem projAfter8 (c : Dev nD) (t : Fin cfg0.N) : (projDat V c).after 8 t = projOutK (projBlk V c 0 t) (projBlk V c 2 t) (projBlk V c 5 t) := by dsimp only [projDat]
theorem projAfter9 (c : Dev nD) (t : Fin cfg0.N) : (projDat V c).after 9 t = projOutV (projBlk V c 0 t) (projBlk V c 3 t) (projBlk V c 6 t) := by dsimp only [projDat]

theorem projBefore0 (c : Dev nD) (t : Fin cfg0.N) (d) : (projDat V c).before 0 t d = projBlk V c 0 t :=
  projBefore0_of V (projDat V c) (projA_eq V c 0) (projAfter0 V c) t d
theorem projBefore1 (c : Dev nD) (t : Fin cfg0.N) (d) : (projDat V c).before 1 t d = projBlk V c 1 t :=
  projBefore1_of V (projDat V c) (projA_eq V c 1) (projAfter1 V c) t d
theorem projBefore2 (c : Dev nD) (t : Fin cfg0.N) (d) : (projDat V c).before 2 t d = projBlk V c 2 t :=
  projBefore2_of V (projDat V c) (projA_eq V c 2) (projAfter2 V c) t d
theorem projBefore3 (c : Dev nD) (t : Fin cfg0.N) (d) : (projDat V c).before 3 t d = projBlk V c 3 t :=
  projBefore3_of V (projDat V c) (projA_eq V c 3) (projAfter3 V c) t d
theorem projBefore4 (c : Dev nD) (t : Fin cfg0.N) (d) : (projDat V c).before 4 t d = projBlk V c 4 t :=
  projBefore4_of V (projDat V c) (projA_eq V c 4) (projAfter4 V c) t d
theorem projBefore5 (c : Dev nD) (t : Fin cfg0.N) (d) : (projDat V c).before 5 t d = projBlk V c 5 t :=
  projBefore5_of V (projDat V c) (projA_eq V c 5) (projAfter5 V c) t d
theorem projBefore6 (c : Dev nD) (t : Fin cfg0.N) (d) : (projDat V c).before 6 t d = projBlk V c 6 t :=
  projBefore6_of V (projDat V c) (projA_eq V c 6) (projAfter6 V c) t d

/-- What the body is called with at point `t`, the operands one by one, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d))
    ∗ (∃ d, owns (c : Thread nD τ) (st0_4 t) fullShare ((projDat V c).before 4 t d))
    ∗ (∃ d, owns (c : Thread nD τ) (st0_5 t) fullShare ((projDat V c).before 5 t d))
    ∗ (∃ d, owns (c : Thread nD τ) (st0_6 t) fullShare ((projDat V c).before 6 t d))
    ∗ (∃ d, owns (c : Thread nD τ) (st0_7 t) fullShare ((projDat V c).before 7 t d))
    ∗ (∃ d, owns (c : Thread nD τ) (st0_8 t) fullShare ((projDat V c).before 8 t d))
    ∗ (∃ d, owns (c : Thread nD τ) (st0_9 t) fullShare ((projDat V c).before 9 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t)
    ∗ owns (c : Thread nD τ) (st0_4 t) fullShare ((projDat V c).after 4 t)
    ∗ owns (c : Thread nD τ) (st0_5 t) fullShare ((projDat V c).after 5 t)
    ∗ owns (c : Thread nD τ) (st0_6 t) fullShare ((projDat V c).after 6 t)
    ∗ owns (c : Thread nD τ) (st0_7 t) fullShare ((projDat V c).after 7 t)
    ∗ owns (c : Thread nD τ) (st0_8 t) fullShare ((projDat V c).after 8 t)
    ∗ owns (c : Thread nD τ) (st0_9 t) fullShare ((projDat V c).after 9 t))

/-- The body at any point: the inputs hold their blocks, so the triple applies; what is kept between points and the
    core's dues pass through unread. -/
theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1, projBefore2, projBefore3, projBefore4, projBefore5, projBefore6]
  rw [show (projDat V c).Φ t.succ = (projDat V c).Φ t.castSucc from rfl,
    show (projDat V c).owesAt () t.succ = (projDat V c).owesAt () t.castSucc from rfl,
    projAfter0, projAfter1, projAfter2, projAfter3, projAfter4, projAfter5, projAfter6, projAfter7, projAfter8, projAfter9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (projKernel c Set.univ _ _ _ _ _ _ _ _ _ _ _ _ _ _ _ _ _ _ _ _ _ (projBlk V c 0 t) (projBlk V c 1 t) (projBlk V c 2 t) (projBlk V c 3 t) (projBlk V c 4 t) (projBlk V c 5 t) (projBlk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the launch theorem asks for, at every point. -/
theorem projObligation (c : Dev nD) : BodyObligation (projDat (F := F) V c) (defs₀ (F := F)) Variants.none () Set.univ := fun t => by
  rw [bigSep_W0, bigSep_W0]
  exact projBody V c t

end Cert.KernelIdeal.Gen

end
-- ==== Proof.KI.Run.lean ====
/-
  The whole program's run: the contents of every buffer at each boundary of @main — the launch memory, then the
  host operations before the first launch, the first launch's three results written back block by block, the four
  reshapes, the second launch's result written back — and, from the two launches' obligations, that every weakly fair
  execution ends, nothing faulting, with every unscoped buffer at the last boundary's contents. The argument arrays
  are written by nothing on the way.
-/
import proofs.«125791_j3195455668383_2_alg».proof.Proof.KI.Proj
import proofs.«125791_j3195455668383_2_alg».proof.Proof.KI.Attn
import proofs.«125791_j3195455668383_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev bnd0 : Dev nD → Valuation τ sig (Elt F) := fun c b => m (c, b)
/-- After the thirteen host operations before the first launch. -/
abbrev bnd1 : Dev nD → Valuation τ sig (Elt F) := fun c => StableHlo.after hostOps0 (bnd0 m c)
abbrev at1 : (c : Dev nD) → (b : Ref sig .tc) → Buf (Elt F) ((c : Thread nD τ).loc b) := fun c b => bnd1 m c b
/-- After the first launch: its arrays at what its write-backs leave, every other buffer as entered. -/
def bnd2 (c : Dev nD) : Valuation τ sig (Elt F) :=
  Pipeline.withArrays spec0 c (bnd1 m c) fun w => (projDat (at1 m) c).arrAt w cfg0.N
theorem bnd2_arr (c : Dev nD) (w : Fin cfg0.W) :
    bnd2 m c (Proc.devRef .tc (Pipeline.arrRef spec0 w)) = (projDat (at1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
abbrev at2 : (c : Dev nD) → (b : Ref sig .tc) → Buf (Elt F) ((c : Thread nD τ).loc b) := fun c b => bnd2 m c b
theorem leaves0 (c : Dev nD) (w : Fin cfg0.W) : (projDat (at1 m) c).arrAt w cfg0.N = at2 m c (Pipeline.arrRef spec0 w) :=
  (bnd2_arr m c w).symm
theorem keeps0 (c : Dev nD) : ∀ b, b ∉ Finset.univ.image (Pipeline.arrRef spec0) → at2 m c b = at1 m c b :=
  fun b hb => bnd2_of_ne m c b fun w e => hb (Finset.mem_image.mpr ⟨w, Finset.mem_univ _, e⟩)

/-- After the four reshapes between the launches. -/
abbrev bnd3 : Dev nD → Valuation τ sig (Elt F) := fun c => StableHlo.after hostOps1 (bnd2 m c)
abbrev at3 : (c : Dev nD) → (b : Ref sig .tc) → Buf (Elt F) ((c : Thread nD τ).loc b) := fun c b => bnd3 m c b
/-- After the second launch. -/
def bnd4 (c : Dev nD) : Valuation τ sig (Elt F) :=
  Pipeline.withArrays spec1 c (bnd3 m c) fun w => (attnDat (at3 m) c).arrAt w cfg1.N
theorem bnd4_arr (c : Dev nD) (w : Fin cfg1.W) :
    bnd4 m c (Proc.devRef .tc (Pipeline.arrRef spec1 w)) = (attnDat (at3 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb
abbrev at4 : (c : Dev nD) → (b : Ref sig .tc) → Buf (Elt F) ((c : Thread nD τ).loc b) := fun c b => bnd4 m c b
theorem leaves1 (c : Dev nD) (w : Fin cfg1.W) : (attnDat (at3 m) c).arrAt w cfg1.N = at4 m c (Pipeline.arrRef spec1 w) :=
  (bnd4_arr m c w).symm
theorem keeps1 (c : Dev nD) : ∀ b, b ∉ Finset.univ.image (Pipeline.arrRef spec1) → at4 m c b = at3 m c b :=
  fun b hb => bnd4_of_ne m c b fun w e => hb (Finset.mem_image.mpr ⟨w, Finset.mem_univ _, e⟩)

/-! ## The arguments end as launched -/

/-- Argument 0 is written by no host operation and is no launch's array: it ends as launched. -/
theorem endsAs_main_arg0 (c : Dev nD) : bnd4 m c (Proc.devRef .tc main_arg0) = m ((c : Thread nD τ).loc main_arg0) :=
  calc bnd4 m c (Proc.devRef .tc main_arg0)
    _ = bnd3 m c (Proc.devRef .tc main_arg0) := bnd4_of_ne m c main_arg0 (by decide)
    _ = bnd2 m c (Proc.devRef .tc main_arg0) := StableHlo.after_of_writes_sub hostOps1 _ hostOps1_writes (r := main_arg0) (by decide)
    _ = bnd1 m c (Proc.devRef .tc main_arg0) := bnd2_of_ne m c main_arg0 (by decide)
    _ = bnd0 m c (Proc.devRef .tc main_arg0) := StableHlo.after_of_writes_sub hostOps0 _ hostOps0_writes (r := main_arg0) (by decide)
    _ = m ((c : Thread nD τ).loc main_arg0) := rfl
/-- Argument 1 is written by no host operation and is no launch's array: it ends as launched. -/
theorem endsAs_main_arg1 (c : Dev nD) : bnd4 m c (Proc.devRef .tc main_arg1) = m ((c : Thread nD τ).loc main_arg1) :=
  calc bnd4 m c (Proc.devRef .tc main_arg1)
    _ = bnd3 m c (Proc.devRef .tc main_arg1) := bnd4_of_ne m c main_arg1 (by decide)
    _ = bnd2 m c (Proc.devRef .tc main_arg1) := StableHlo.after_of_writes_sub hostOps1 _ hostOps1_writes (r := main_arg1) (by decide)
    _ = bnd1 m c (Proc.devRef .tc main_arg1) := bnd2_of_ne m c main_arg1 (by decide)
    _ = bnd0 m c (Proc.devRef .tc main_arg1) := StableHlo.after_of_writes_sub hostOps0 _ hostOps0_writes (r := main_arg1) (by decide)
    _ = m ((c : Thread nD τ).loc main_arg1) := rfl
/-- Argument 2 is written by no host operation and is no launch's array: it ends as launched. -/
theorem endsAs_main_arg2 (c : Dev nD) : bnd4 m c (Proc.devRef .tc main_arg2) = m ((c : Thread nD τ).loc main_arg2) :=
  calc bnd4 m c (Proc.devRef .tc main_arg2)
    _ = bnd3 m c (Proc.devRef .tc main_arg2) := bnd4_of_ne m c main_arg2 (by decide)
    _ = bnd2 m c (Proc.devRef .tc main_arg2) := StableHlo.after_of_writes_sub hostOps1 _ hostOps1_writes (r := main_arg2) (by decide)
    _ = bnd1 m c (Proc.devRef .tc main_arg2) := bnd2_of_ne m c main_arg2 (by decide)
    _ = bnd0 m c (Proc.devRef .tc main_arg2) := StableHlo.after_of_writes_sub hostOps0 _ hostOps0_writes (r := main_arg2) (by decide)
    _ = m ((c : Thread nD τ).loc main_arg2) := rfl
/-- Argument 3 is written by no host operation and is no launch's array: it ends as launched. -/
theorem endsAs_main_arg3 (c : Dev nD) : bnd4 m c (Proc.devRef .tc main_arg3) = m ((c : Thread nD τ).loc main_arg3) :=
  calc bnd4 m c (Proc.devRef .tc main_arg3)
    _ = bnd3 m c (Proc.devRef .tc main_arg3) := bnd4_of_ne m c main_arg3 (by decide)
    _ = bnd2 m c (Proc.devRef .tc main_arg3) := StableHlo.after_of_writes_sub hostOps1 _ hostOps1_writes (r := main_arg3) (by decide)
    _ = bnd1 m c (Proc.devRef .tc main_arg3) := bnd2_of_ne m c main_arg3 (by decide)
    _ = bnd0 m c (Proc.devRef .tc main_arg3) := StableHlo.after_of_writes_sub hostOps0 _ hostOps0_writes (r := main_arg3) (by decide)
    _ = m ((c : Thread nD τ).loc main_arg3) := rfl
/-- Argument 4 is written by no host operation and is no launch's array: it ends as launched. -/
theorem endsAs_main_arg4 (c : Dev nD) : bnd4 m c (Proc.devRef .tc main_arg4) = m ((c : Thread nD τ).loc main_arg4) :=
  calc bnd4 m c (Proc.devRef .tc main_arg4)
    _ = bnd3 m c (Proc.devRef .tc main_arg4) := bnd4_of_ne m c main_arg4 (by decide)
    _ = bnd2 m c (Proc.devRef .tc main_arg4) := StableHlo.after_of_writes_sub hostOps1 _ hostOps1_writes (r := main_arg4) (by decide)
    _ = bnd1 m c (Proc.devRef .tc main_arg4) := bnd2_of_ne m c main_arg4 (by decide)
    _ = bnd0 m c (Proc.devRef .tc main_arg4) := StableHlo.after_of_writes_sub hostOps0 _ hostOps0_writes (r := main_arg4) (by decide)
    _ = m ((c : Thread nD τ).loc main_arg4) := rfl
/-- Argument 5 is written by no host operation and is no launch's array: it ends as launched. -/
theorem endsAs_main_arg5 (c : Dev nD) : bnd4 m c (Proc.devRef .tc main_arg5) = m ((c : Thread nD τ).loc main_arg5) :=
  calc bnd4 m c (Proc.devRef .tc main_arg5)
    _ = bnd3 m c (Proc.devRef .tc main_arg5) := bnd4_of_ne m c main_arg5 (by decide)
    _ = bnd2 m c (Proc.devRef .tc main_arg5) := StableHlo.after_of_writes_sub hostOps1 _ hostOps1_writes (r := main_arg5) (by decide)
    _ = bnd1 m c (Proc.devRef .tc main_arg5) := bnd2_of_ne m c main_arg5 (by decide)
    _ = bnd0 m c (Proc.devRef .tc main_arg5) := StableHlo.after_of_writes_sub hostOps0 _ hostOps0_writes (r := main_arg5) (by decide)
    _ = m ((c : Thread nD τ).loc main_arg5) := rfl
/-- Argument 6 is written by no host operation and is no launch's array: it ends as launched. -/
theorem endsAs_main_arg6 (c : Dev nD) : bnd4 m c (Proc.devRef .tc main_arg6) = m ((c : Thread nD τ).loc main_arg6) :=
  calc bnd4 m c (Proc.devRef .tc main_arg6)
    _ = bnd3 m c (Proc.devRef .tc main_arg6) := bnd4_of_ne m c main_arg6 (by decide)
    _ = bnd2 m c (Proc.devRef .tc main_arg6) := StableHlo.after_of_writes_sub hostOps1 _ hostOps1_writes (r := main_arg6) (by decide)
    _ = bnd1 m c (Proc.devRef .tc main_arg6) := bnd2_of_ne m c main_arg6 (by decide)
    _ = bnd0 m c (Proc.devRef .tc main_arg6) := StableHlo.after_of_writes_sub hostOps0 _ hostOps0_writes (r := main_arg6) (by decide)
    _ = m ((c : Thread nD τ).loc main_arg6) := rfl
/-- Argument 7 is written by no host operation and is no launch's array: it ends as launched. -/
theorem endsAs_main_arg7 (c : Dev nD) : bnd4 m c (Proc.devRef .tc main_arg7) = m ((c : Thread nD τ).loc main_arg7) :=
  calc bnd4 m c (Proc.devRef .tc main_arg7)
    _ = bnd3 m c (Proc.devRef .tc main_arg7) := bnd4_of_ne m c main_arg7 (by decide)
    _ = bnd2 m c (Proc.devRef .tc main_arg7) := StableHlo.after_of_writes_sub hostOps1 _ hostOps1_writes (r := main_arg7) (by decide)
    _ = bnd1 m c (Proc.devRef .tc main_arg7) := bnd2_of_ne m c main_arg7 (by decide)
    _ = bnd0 m c (Proc.devRef .tc main_arg7) := StableHlo.after_of_writes_sub hostOps0 _ hostOps0_writes (r := main_arg7) (by decide)
    _ = m ((c : Thread nD τ).loc main_arg7) := rfl
/-- Argument 8 is written by no host operation and is no launch's array: it ends as launched. -/
theorem endsAs_main_arg8 (c : Dev nD) : bnd4 m c (Proc.devRef .tc main_arg8) = m ((c : Thread nD τ).loc main_arg8) :=
  calc bnd4 m c (Proc.devRef .tc main_arg8)
    _ = bnd3 m c (Proc.devRef .tc main_arg8) := bnd4_of_ne m c main_arg8 (by decide)
    _ = bnd2 m c (Proc.devRef .tc main_arg8) := StableHlo.after_of_writes_sub hostOps1 _ hostOps1_writes (r := main_arg8) (by decide)
    _ = bnd1 m c (Proc.devRef .tc main_arg8) := bnd2_of_ne m c main_arg8 (by decide)
    _ = bnd0 m c (Proc.devRef .tc main_arg8) := StableHlo.after_of_writes_sub hostOps0 _ hostOps0_writes (r := main_arg8) (by decide)
    _ = m ((c : Thread nD τ).loc main_arg8) := rfl

/-! ## The two launches as regions -/

abbrev noTables : (p : Fin 2) → (pcfgs (F := F) p).Adm := fun p => (cfgs p).toPCfg_adm
/-- Both launches' bookkeeping, each at the contents its launch is entered from. -/
def pdats : (p : Fin 2) → (c : Dev nD) → Dat τ (Elt F) Unit ℕ (UR sig nD τ) ℕ (Pipeline.pin (pcfgs (F := F)) noTables p) c
  | ⟨0, _⟩ => fun c => projDat (at1 m) c
  | ⟨1, _⟩ => fun c => attnDat (at3 m) c
abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state beside the core owing nothing. -/
abbrev Tend (c : Dev nD) : sProp 𝕄 := iprop(StableHlo.held (c : Thread nD τ) (Pipeline.ucRefs τ sig) (bnd4 m c) ∗ ∃ r, prngReg c r)

set_option backward.isDefEq.respectTransparency.types false in
/-- Launch 0 over the thread state "every unscoped buffer at the boundary's contents, the generator register at some
    state, nothing owed": its arrays are split out of the unscoped buffers on entry and put back at the exit contents. -/
def region0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (projObligation (at1 m) c).loose
  hwaits := Pipeline.hwaits_of_owed_zero _ _ _ _ L lv 0 fun _ _ => rfl
  pre c := iprop(StableHlo.held (c : Thread nD τ) (Pipeline.ucRefs τ sig) (bnd1 m c) ∗ R c)
  post c := iprop(StableHlo.held (c : Thread nD τ) (Pipeline.ucRefs τ sig) (bnd2 m c) ∗ R c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (at1 m c) (at2 m c) ((pdats m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state "every unscoped buffer at the boundary's contents, the generator register at some
    state, nothing owed": its arrays are split out of the unscoped buffers on entry and put back at the exit contents. -/
def region1 : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (attnObligation (at3 m) c).loose
  hwaits := Pipeline.hwaits_of_owed_zero _ _ _ _ L lv 1 fun _ _ => rfl
  pre c := iprop(StableHlo.held (c : Thread nD τ) (Pipeline.ucRefs τ sig) (bnd3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at3 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (at3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (noTables (F := F) 1).1 ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h.trans (attnIn (at3 m) c)
  hout c := by
    rw [Pipeline.ownSems0_none]
    have h : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (attnOut (at3 m) c).trans h
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (at3 m c) (at4 m c) ((pdats m 1 c).arrAt · cfg1.N) (leaves1 m c) (keeps1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev mainSegs : List (Pipeline.Seg (pcfgs (F := F)) noTables (pdats m) () defs₀ 𝒱₀ L lv) :=
  [ .host (hseg hostOps0 hostOps0_sub hostOps0_fresh (bnd0 m)),
    .region (region0 m),
    .host (hseg hostOps1 hostOps1_sub hostOps1_fresh (bnd2 m)),
    .region (region1 m) ]
theorem main_is_segs (c : Dev nD) : main (F := F) c = Pipeline.Seg.run (mainSegs m) := (main_chain c).trans (by chain_rfl)

set_option backward.isDefEq.respectTransparency.types false in
/-- Every weakly fair execution of @main from memory `m` with zero counters ends, nothing faulting, with every unscoped
    buffer of every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = bnd4 m c b) :=
  Pipeline.θ_run_regions_kit (pcfgs (F := F)) noTables (pdats m) () cellOf_inj emb₁ defs₀ 𝒱₀ L lv m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m c b)
    (hfin := fun c s' => by
      iintro ⟨⟨Hh, -⟩, HSI⟩
      unfold StableHlo.held
      imodintro
      iapply (pointsTo_read_all (Pipeline.ucRefs τ sig) (fun b => (((c : Thread nD τ)).1, b)) (bnd4 m c) s')
      isplitl [Hh] <;> iassumption)
    (hQ := fun _ h => h)

/-- An unscoped TensorCore reference is among those the run's post speaks of. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_unscoped main_arg0 (by decide))).trans (endsAs_main_arg0 m c),
    (h c _ (mem_unscoped main_arg1 (by decide))).trans (endsAs_main_arg1 m c),
    (h c _ (mem_unscoped main_arg2 (by decide))).trans (endsAs_main_arg2 m c),
    (h c _ (mem_unscoped main_arg3 (by decide))).trans (endsAs_main_arg3 m c),
    (h c _ (mem_unscoped main_arg4 (by decide))).trans (endsAs_main_arg4 m c),
    (h c _ (mem_unscoped main_arg5 (by decide))).trans (endsAs_main_arg5 m c),
    (h c _ (mem_unscoped main_arg6 (by decide))).trans (endsAs_main_arg6 m c),
    (h c _ (mem_unscoped main_arg7 (by decide))).trans (endsAs_main_arg7 m c),
    (h c _ (mem_unscoped main_arg8 (by decide))).trans (endsAs_main_arg8 m c)⟩) (run_all m ρ)

end Cert.KernelIdeal.Gen

end
-- ==== Proof.KI.ProjValue.lean ====
/-
  The value of the first launch. The projection kernel runs on a 32-point grid; at point t it is handed rows
  512·t … 512·t+511 of the input (the input array reshaped to 16384 rows), the three transposed weight matrices and
  the three bias rows whole, and writes back rows 512·t … 512·t+511 of three result arrays. Here: the host
  operations before the launch read at an index (a reshape, a transpose, a format change that is the identity); each
  block of each operand as entries of its array; each written-back block as a block of ONE array, rows times matrix
  plus bias; the blocks tile the result arrays, so each ends holding that array; the reshapes after the launch read
  at an index; and so the three arrays the second launch reads are x·Wᵀ + b of the arguments, index by index, its
  output weights the transposed argument and its output bias the argument as a row.
-/
import proofs.«125791_j3195455668383_2_alg».proof.Proof.KI.Run
import proofs.«125791_j3195455668383_2_alg».proof.Proof.Spec
import proofs.«125791_j3195455668383_2_alg».proof.Proof.KI.PayAt
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.ProjValue

open Idealize.ShloMosaic Idealize.ShloMosaic.TcCoe Idealize.SL.Sem
open Cert.KernelIdeal Cert.KernelIdeal.Gen Idealize.ShloMosaic.ValueIdx
open Idealize.ShloMosaic.Pipeline (Dat)

variable (m : (ℓ : Loc nD τ sig) → Buf (Elt Ideal) ℓ) (c : Dev nD)

/-! ## The host prefix read at an index -/

/-- The input rows the launch reads: the input array reshaped to 16384 rows (the format change is the identity). -/
theorem x_at1 (row : Fin 16384) (k : Fin 1024) (b : Fin 4) (s : Fin 4096) (h : row.val = b.val * 4096 + s.val) :
    (at1 (F := Ideal) m c main_v1 : S16384x1024.Idx → EReal) (ix2 row k)
      = (m ((c : Thread nD τ).loc main_arg0) : S4x4096x1024.Idx → EReal) (ix3 b s k) := by
  show StableHlo.after hostOps0 (bnd0 m c) (Proc.devRef .tc main_v1) (ix2 row k) = _
  after_results
  rw [truncf_apply]
  show shapeCast S16384x1024 (m ((c : Thread nD τ).loc main_arg0) : S4x4096x1024.Idx → EReal) shapeCasts_S4x4096x1024_S16384x1024 (ix2 row k) = _
  refine shapeCast_apply (s := S4x4096x1024) (t := S16384x1024) _ _ (ix2 row k) (ix3 b s k) ?_
  rw [Shape.rowMajor_val_three, Shape.rowMajor_val_two]
  show (b.val * 4096 + s.val) * 1024 + k.val = row.val * 1024 + k.val
  rw [h]

/-- The query weights the launch reads: the weight matrix transposed (the format change is the identity). -/
theorem w_at1_main_v3 (k q : Fin 1024) :
    (at1 (F := Ideal) m c main_v3 : S1024x1024.Idx → EReal) (ix2 k q)
      = (m ((c : Thread nD τ).loc main_arg1) : S1024x1024.Idx → EReal) (ix2 q k) := by
  show StableHlo.after hostOps0 (bnd0 m c) (Proc.devRef .tc main_v3) (ix2 k q) = _
  after_results
  rw [truncf_apply]
  exact transpose_ix2_apply _ _ k q

/-- The key weights the launch reads: the weight matrix transposed (the format change is the identity). -/
theorem w_at1_main_v5 (k q : Fin 1024) :
    (at1 (F := Ideal) m c main_v5 : S1024x1024.Idx → EReal) (ix2 k q)
      = (m ((c : Thread nD τ).loc main_arg3) : S1024x1024.Idx → EReal) (ix2 q k) := by
  show StableHlo.after hostOps0 (bnd0 m c) (Proc.devRef .tc main_v5) (ix2 k q) = _
  after_results
  rw [truncf_apply]
  exact transpose_ix2_apply _ _ k q

/-- The value weights the launch reads: the weight matrix transposed (the format change is the identity). -/
theorem w_at1_main_v7 (k q : Fin 1024) :
    (at1 (F := Ideal) m c main_v7 : S1024x1024.Idx → EReal) (ix2 k q)
      = (m ((c : Thread nD τ).loc main_arg5) : S1024x1024.Idx → EReal) (ix2 q k) := by
  show StableHlo.after hostOps0 (bnd0 m c) (Proc.devRef .tc main_v7) (ix2 k q) = _
  after_results
  rw [truncf_apply]
  exact transpose_ix2_apply _ _ k q

/-- The output weights the launch reads: the weight matrix transposed (the format change is the identity). -/
theorem w_at1_main_v9 (k q : Fin 1024) :
    (at1 (F := Ideal) m c main_v9 : S1024x1024.Idx → EReal) (ix2 k q)
      = (m ((c : Thread nD τ).loc main_arg7) : S1024x1024.Idx → EReal) (ix2 q k) := by
  show StableHlo.after hostOps0 (bnd0 m c) (Proc.devRef .tc main_v9) (ix2 k q) = _
  after_results
  rw [truncf_apply]
  exact transpose_ix2_apply _ _ k q

/-- The query bias the launch reads: the bias vector as one row. -/
theorem b_at1_main_v10 (q : Fin 1024) :
    (at1 (F := Ideal) m c main_v10 : S1x1024.Idx → EReal) (ix2 (0 : Fin 1) q)
      = (m ((c : Thread nD τ).loc main_arg2) : S1024.Idx → EReal) (ix1 q) := by
  show StableHlo.after hostOps0 (bnd0 m c) (Proc.devRef .tc main_v10) (ix2 (0 : Fin 1) q) = _
  after_results
  show shapeCast S1x1024 (m ((c : Thread nD τ).loc main_arg2) : S1024.Idx → EReal) shapeCasts_S1024_S1x1024 (ix2 (0 : Fin 1) q) = _
  exact shapeCast_a_1a_apply _ _ 0 q

/-- The key bias the launch reads: the bias vector as one row. -/
theorem b_at1_main_v11 (q : Fin 1024) :
    (at1 (F := Ideal) m c main_v11 : S1x1024.Idx → EReal) (ix2 (0 : Fin 1) q)
      = (m ((c : Thread nD τ).loc main_arg4) : S1024.Idx → EReal) (ix1 q) := by
  show StableHlo.after hostOps0 (bnd0 m c) (Proc.devRef .tc main_v11) (ix2 (0 : Fin 1) q) = _
  after_results
  show shapeCast S1x1024 (m ((c : Thread nD τ).loc main_arg4) : S1024.Idx → EReal) shapeCasts_S1024_S1x1024 (ix2 (0 : Fin 1) q) = _
  exact shapeCast_a_1a_apply _ _ 0 q

/-- The value bias the launch reads: the bias vector as one row. -/
theorem b_at1_main_v12 (q : Fin 1024) :
    (at1 (F := Ideal) m c main_v12 : S1x1024.Idx → EReal) (ix2 (0 : Fin 1) q)
      = (m ((c : Thread nD τ).loc main_arg6) : S1024.Idx → EReal) (ix1 q) := by
  show StableHlo.after hostOps0 (bnd0 m c) (Proc.devRef .tc main_v12) (ix2 (0 : Fin 1) q) = _
  after_results
  show shapeCast S1x1024 (m ((c : Thread nD τ).loc main_arg6) : S1024.Idx → EReal) shapeCasts_S1024_S1x1024 (ix2 (0 : Fin 1) q) = _
  exact shapeCast_a_1a_apply _ _ 0 q

/-! ## The launch's blocks -/

section Blocks

variable (V : (c : Dev nD) → (b : Ref sig .tc) → Buf (Elt Ideal) ((c : Thread nD τ).loc b))

theorem hz2 : (![0, 0] : Fin 2 → Nat) = fun _ => 0 := funext fun a => by fin_cases a <;> rfl

/-- The launch's block indices, decided once over the grid: the input rows and the three results sit at block row `t`. -/
theorem idx_rows : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The weight matrices and the bias rows are handed over whole: block index zero at every point. -/
theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The input window's block at point `t` is rows 512 t … 512 t + 511 of the row matrix. -/
theorem blk0_apply (t : Fin cfg0.N) (p : Fin 512) (k : Fin 1024) (row : Fin 16384) (h : row.val = 512 * t.val + p.val) :
    (projBlk V c 0 t : Vec Ideal S512x1024 .bf16) (ix2 p k) = (V c main_v1 : S16384x1024.Idx → EReal) (ix2 row k) := by
  obtain ⟨e0, e1, -⟩ := idx_rows t
  unfold projBlk
  rw [View.read_apply]
  show (V c main_v1 : S16384x1024.Idx → EReal) _ = _
  congr 1
  funext a
  apply Fin.ext
  match a with
  | ⟨0, _⟩ => show win0_0.index t 0 * 512 + 1 * p.val = row.val; rw [e0, h]; omega
  | ⟨1, _⟩ => show win0_0.index t 1 * 1024 + 1 * k.val = k.val; rw [e1]; omega

/-- The query weight window's block is the whole matrix. -/
theorem blk1_apply (t : Fin cfg0.N) (k q : Fin 1024) :
    (projBlk V c 1 t : Vec Ideal S1024x1024 .bf16) (ix2 k q) = (V c main_v3 : S1024x1024.Idx → EReal) (ix2 k q) := by
  obtain ⟨e0, e1, -⟩ := idx_whole t
  unfold projBlk
  rw [View.read_apply]
  show (V c main_v3 : S1024x1024.Idx → EReal) _ = _
  congr 1
  funext a
  apply Fin.ext
  match a with
  | ⟨0, _⟩ => show win0_1.index t 0 * 1024 + 1 * k.val = k.val; rw [e0]; omega
  | ⟨1, _⟩ => show win0_1.index t 1 * 1024 + 1 * q.val = q.val; rw [e1]; omega

/-- The query bias window's block is the whole bias row. -/
theorem blk4_apply (t : Fin cfg0.N) (q : Fin 1024) :
    (projBlk V c 4 t : Vec Ideal S1x1024 .f32) (ix2 (0 : Fin 1) q) = (V c main_v10 : S1x1024.Idx → EReal) (ix2 (0 : Fin 1) q) := by
  obtain ⟨-, -, -, -, -, -, e0, e1, -⟩ := idx_whole t
  unfold projBlk
  rw [View.read_apply]
  show (V c main_v10 : S1x1024.Idx → EReal) _ = _
  congr 1
  funext a
  apply Fin.ext
  match a with
  | ⟨0, _⟩ => show win0_4.index t 0 * 1 + 1 * (0 : Fin 1).val = (0 : Fin 1).val; rw [e0]; rfl
  | ⟨1, _⟩ => show win0_4.index t 1 * 1024 + 1 * q.val = q.val; rw [e1]; omega

/-- The key weight window's block is the whole matrix. -/
theorem blk2_apply (t : Fin cfg0.N) (k q : Fin 1024) :
    (projBlk V c 2 t : Vec Ideal S1024x1024 .bf16) (ix2 k q) = (V c main_v5 : S1024x1024.Idx → EReal) (ix2 k q) := by
  obtain ⟨-, -, e0, e1, -⟩ := idx_whole t
  unfold projBlk
  rw [View.read_apply]
  show (V c main_v5 : S1024x1024.Idx → EReal) _ = _
  congr 1
  funext a
  apply Fin.ext
  match a with
  | ⟨0, _⟩ => show win0_2.index t 0 * 1024 + 1 * k.val = k.val; rw [e0]; omega
  | ⟨1, _⟩ => show win0_2.index t 1 * 1024 + 1 * q.val = q.val; rw [e1]; omega

/-- The key bias window's block is the whole bias row. -/
theorem blk5_apply (t : Fin cfg0.N) (q : Fin 1024) :
    (projBlk V c 5 t : Vec Ideal S1x1024 .f32) (ix2 (0 : Fin 1) q) = (V c main_v11 : S1x1024.Idx → EReal) (ix2 (0 : Fin 1) q) := by
  obtain ⟨-, -, -, -, -, -, -, -, e0, e1, -⟩ := idx_whole t
  unfold projBlk
  rw [View.read_apply]
  show (V c main_v11 : S1x1024.Idx → EReal) _ = _
  congr 1
  funext a
  apply Fin.ext
  match a with
  | ⟨0, _⟩ => show win0_5.index t 0 * 1 + 1 * (0 : Fin 1).val = (0 : Fin 1).val; rw [e0]; rfl
  | ⟨1, _⟩ => show win0_5.index t 1 * 1024 + 1 * q.val = q.val; rw [e1]; omega

/-- The value weight window's block is the whole matrix. -/
theorem blk3_apply (t : Fin cfg0.N) (k q : Fin 1024) :
    (projBlk V c 3 t : Vec Ideal S1024x1024 .bf16) (ix2 k q) = (V c main_v7 : S1024x1024.Idx → EReal) (ix2 k q) := by
  obtain ⟨-, -, -, -, e0, e1, -⟩ := idx_whole t
  unfold projBlk
  rw [View.read_apply]
  show (V c main_v7 : S1024x1024.Idx → EReal) _ = _
  congr 1
  funext a
  apply Fin.ext
  match a with
  | ⟨0, _⟩ => show win0_3.index t 0 * 1024 + 1 * k.val = k.val; rw [e0]; omega
  | ⟨1, _⟩ => show win0_3.index t 1 * 1024 + 1 * q.val = q.val; rw [e1]; omega

/-- The value bias window's block is the whole bias row. -/
theorem blk6_apply (t : Fin cfg0.N) (q : Fin 1024) :
    (projBlk V c 6 t : Vec Ideal S1x1024 .f32) (ix2 (0 : Fin 1) q) = (V c main_v12 : S1x1024.Idx → EReal) (ix2 (0 : Fin 1) q) := by
  obtain ⟨-, -, -, -, -, -, -, -, -, -, e0, e1⟩ := idx_whole t
  unfold projBlk
  rw [View.read_apply]
  show (V c main_v12 : S1x1024.Idx → EReal) _ = _
  congr 1
  funext a
  apply Fin.ext
  match a with
  | ⟨0, _⟩ => show win0_6.index t 0 * 1 + 1 * (0 : Fin 1).val = (0 : Fin 1).val; rw [e0]; rfl
  | ⟨1, _⟩ => show win0_6.index t 1 * 1024 + 1 * q.val = q.val; rw [e1]; omega

/-! ## From the blocks to the arrays -/

/-- Rows times a matrix plus a bias row, as one array. -/
def G (X : S16384x1024.Idx → EReal) (W : S1024x1024.Idx → EReal) (B : S1x1024.Idx → EReal) : S16384x1024.Idx → EReal :=
  fun i => (∑ k : Fin 1024, X (ix2 (i 0) k) * W (ix2 k (i 1))) + B (ix2 (0 : Fin 1) (i 1))

/-- Its entry at a row and a column. -/
theorem G_apply (X : S16384x1024.Idx → EReal) (W : S1024x1024.Idx → EReal) (B : S1x1024.Idx → EReal) (row : Fin 16384) (q : Fin 1024) :
    G X W B (ix2 row q) = (∑ k : Fin 1024, X (ix2 row k) * W (ix2 k q)) + B (ix2 (0 : Fin 1) q) := rfl

/-- The first result's payload at point `t`, entry (p, q), is entry (512 t + p, q) of rows times matrix plus bias. -/
theorem pay7_blk (t : Fin cfg0.N) (p : Fin 512) (q : Fin 1024) (row : Fin 16384) (h : row.val = 512 * t.val + p.val) :
    k0_pay2 (F := Ideal) (projBlk V c 0 t) (projBlk V c 1 t) (projBlk V c 4 t) (ix2 p q)
      = G (V c main_v1) (V c main_v3) (V c main_v10) (ix2 row q) := by
  refine ((PayAt.projQ_at (projBlk V c 0 t) (projBlk V c 1 t) (projBlk V c 4 t) p q).trans ?_).trans
    (G_apply (V c main_v1) (V c main_v3) (V c main_v10) row q).symm
  refine congrArg₂ (fun (a b : EReal) => a + b) (Finset.sum_congr rfl fun k _ => ?_) (blk4_apply c V t q)
  exact congrArg₂ (fun (a b : EReal) => a * b) (blk0_apply c V t p k row h) (blk1_apply c V t k q)

/-- What point `t` writes back into the first result array is block `t` of rows times matrix plus bias. -/
theorem flushed7_eq (t : Fin cfg0.N) :
    (projDat V c).flushed 7 t = ((cfg0.win 7).blk t).view.read (Elt Ideal) (G (V c main_v1) (V c main_v3) (V c main_v10)) := by
  show (cfg0.win 7).cut (grid0.coords t) ((projDat V c).after 7 t) = _
  rw [projAfter7]
  unfold projOutQ
  rw [View.canon_unit_zero hz2]
  simp only [View.ld_unit_zero (S := S512x1024) hz2, View.ld_unit_zero (S := S1024x1024) hz2, View.ld_unit_zero (S := S1x1024) hz2]
  funext j
  obtain ⟨-, -, e0, e1, -⟩ := idx_rows t
  have ht : t.val < 32 := t.isLt
  have hp : (j 0).val < 512 := (j 0).isLt
  have hq : (j 1).val < 1024 := (j 1).isLt
  have hx : (win0_7.xinj (grid0.coords t) j : S512x1024.Idx) = ix2 (⟨(j 0).val, hp⟩ : Fin 512) (⟨(j 1).val, hq⟩ : Fin 1024) := by
    funext a; match a with | ⟨0, _⟩ => rfl | ⟨1, _⟩ => rfl
  have he : (((cfg0.win 7).blk t).view.emb j : S16384x1024.Idx) = ix2 (⟨512 * t.val + (j 0).val, by omega⟩ : Fin 16384) (⟨(j 1).val, hq⟩ : Fin 1024) := by
    funext a; apply Fin.ext
    match a with
    | ⟨0, _⟩ => show win0_7.index t 0 * 512 + 1 * (j 0).val = 512 * t.val + (j 0).val; rw [e0]; omega
    | ⟨1, _⟩ => show win0_7.index t 1 * 1024 + 1 * (j 1).val = (j 1).val; rw [e1]; omega
  show k0_pay2 (F := Ideal) (projBlk V c 0 t) (projBlk V c 1 t) (projBlk V c 4 t) (win0_7.xinj (grid0.coords t) j)
    = G (V c main_v1) (V c main_v3) (V c main_v10) (((cfg0.win 7).blk t).view.emb j)
  rw [hx, he]
  exact pay7_blk c V t _ _ _ rfl

/-- An index of the first result array is in point `t`'s block iff each coordinate is in the block's range. -/
theorem mem_blk7 (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v13_0).slice (win0_7.rect t)).set ↔ _
  rw [View.set_slice_whole, Rect.mem_set_unit]
  exact Iff.rfl

/-- Row r of the first result array lies in the block of point r / 512, which writes back. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 32 := N_0
  refine ⟨⟨(i 0).val / 512, by omega⟩, flush0_7 _, ?_⟩
  obtain ⟨-, -, e0, e1, -⟩ := idx_rows ⟨(i 0).val / 512, by omega⟩
  rw [mem_blk7]
  intro a
  match a with
  | ⟨0, _⟩ => show win0_7.index _ (0 : Fin 2) * 512 ≤ (i 0).val ∧ (i 0).val < win0_7.index _ (0 : Fin 2) * 512 + 512; rw [e0]; show (i 0).val / 512 * 512 ≤ (i 0).val ∧ (i 0).val < (i 0).val / 512 * 512 + 512; omega
  | ⟨1, _⟩ => show win0_7.index _ (1 : Fin 2) * 1024 ≤ (i 1).val ∧ (i 1).val < win0_7.index _ (1 : Fin 2) * 1024 + 1024; rw [e1]; omega

/-- The first result array after the launch: rows times matrix plus bias. -/
theorem final7 : (projDat V c).arrAt 7 cfg0.N = G (V c main_v1) (V c main_v3) (V c main_v10) :=
  (projDat V c).arrAt_eq_of_cover 7 (G (V c main_v1) (V c main_v3) (V c main_v10)) (fun t _ => flushed7_eq c V t) (cover7)

/-- The second result's payload at point `t`, entry (p, q), is entry (512 t + p, q) of rows times matrix plus bias. -/
theorem pay8_blk (t : Fin cfg0.N) (p : Fin 512) (q : Fin 1024) (row : Fin 16384) (h : row.val = 512 * t.val + p.val) :
    k0_pay3 (F := Ideal) (projBlk V c 0 t) (projBlk V c 2 t) (projBlk V c 5 t) (ix2 p q)
      = G (V c main_v1) (V c main_v5) (V c main_v11) (ix2 row q) := by
  refine ((PayAt.projK_at (projBlk V c 0 t) (projBlk V c 2 t) (projBlk V c 5 t) p q).trans ?_).trans
    (G_apply (V c main_v1) (V c main_v5) (V c main_v11) row q).symm
  refine congrArg₂ (fun (a b : EReal) => a + b) (Finset.sum_congr rfl fun k _ => ?_) (blk5_apply c V t q)
  exact congrArg₂ (fun (a b : EReal) => a * b) (blk0_apply c V t p k row h) (blk2_apply c V t k q)

/-- What point `t` writes back into the second result array is block `t` of rows times matrix plus bias. -/
theorem flushed8_eq (t : Fin cfg0.N) :
    (projDat V c).flushed 8 t = ((cfg0.win 8).blk t).view.read (Elt Ideal) (G (V c main_v1) (V c main_v5) (V c main_v11)) := by
  show (cfg0.win 8).cut (grid0.coords t) ((projDat V c).after 8 t) = _
  rw [projAfter8]
  unfold projOutK
  rw [View.canon_unit_zero hz2]
  simp only [View.ld_unit_zero (S := S512x1024) hz2, View.ld_unit_zero (S := S1024x1024) hz2, View.ld_unit_zero (S := S1x1024) hz2]
  funext j
  obtain ⟨-, -, -, -, e0, e1, -⟩ := idx_rows t
  have ht : t.val < 32 := t.isLt
  have hp : (j 0).val < 512 := (j 0).isLt
  have hq : (j 1).val < 1024 := (j 1).isLt
  have hx : (win0_8.xinj (grid0.coords t) j : S512x1024.Idx) = ix2 (⟨(j 0).val, hp⟩ : Fin 512) (⟨(j 1).val, hq⟩ : Fin 1024) := by
    funext a; match a with | ⟨0, _⟩ => rfl | ⟨1, _⟩ => rfl
  have he : (((cfg0.win 8).blk t).view.emb j : S16384x1024.Idx) = ix2 (⟨512 * t.val + (j 0).val, by omega⟩ : Fin 16384) (⟨(j 1).val, hq⟩ : Fin 1024) := by
    funext a; apply Fin.ext
    match a with
    | ⟨0, _⟩ => show win0_8.index t 0 * 512 + 1 * (j 0).val = 512 * t.val + (j 0).val; rw [e0]; omega
    | ⟨1, _⟩ => show win0_8.index t 1 * 1024 + 1 * (j 1).val = (j 1).val; rw [e1]; omega
  show k0_pay3 (F := Ideal) (projBlk V c 0 t) (projBlk V c 2 t) (projBlk V c 5 t) (win0_8.xinj (grid0.coords t) j)
    = G (V c main_v1) (V c main_v5) (V c main_v11) (((cfg0.win 8).blk t).view.emb j)
  rw [hx, he]
  exact pay8_blk c V t _ _ _ rfl

/-- An index of the second result array is in point `t`'s block iff each coordinate is in the block's range. -/
theorem mem_blk8 (t : Fin cfg0.N) (i : S16384x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v13_1).slice (win0_8.rect t)).set ↔ _
  rw [View.set_slice_whole, Rect.mem_set_unit]
  exact Iff.rfl

/-- Row r of the second result array lies in the block of point r / 512, which writes back. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  have hN : cfg0.N = 32 := N_0
  refine ⟨⟨(i 0).val / 512, by omega⟩, flush0_8 _, ?_⟩
  obtain ⟨-, -, -, -, e0, e1, -⟩ := idx_rows ⟨(i 0).val / 512, by omega⟩
  rw [mem_blk8]
  intro a
  match a with
  | ⟨0, _⟩ => show win0_8.index _ (0 : Fin 2) * 512 ≤ (i 0).val ∧ (i 0).val < win0_8.index _ (0 : Fin 2) * 512 + 512; rw [e0]; show (i 0).val / 512 * 512 ≤ (i 0).val ∧ (i 0).val < (i 0).val / 512 * 512 + 512; omega
  | ⟨1, _⟩ => show win0_8.index _ (1 : Fin 2) * 1024 ≤ (i 1).val ∧ (i 1).val < win0_8.index _ (1 : Fin 2) * 1024 + 1024; rw [e1]; omega

/-- The second result array after the launch: rows times matrix plus bias. -/
theorem final8 : (projDat V c).arrAt 8 cfg0.N = G (V c main_v1) (V c main_v5) (V c main_v11) :=
  (projDat V c).arrAt_eq_of_cover 8 (G (V c main_v1) (V c main_v5) (V c main_v11)) (fun t _ => flushed8_eq c V t) (cover8)

/-- The third result's payload at point `t`, entry (p, q), is entry (512 t + p, q) of rows times matrix plus bias. -/
theorem pay9_blk (t : Fin cfg0.N) (p : Fin 512) (q : Fin 1024) (row : Fin 16384) (h : row.val = 512 * t.val + p.val) :
    k0_pay4 (F := Ideal) (projBlk V c 0 t) (projBlk V c 3 t) (projBlk V c 6 t) (ix2 p q)
      = G (V c main_v1) (V c main_v7) (V c main_v12) (ix2 row q) := by
  refine ((PayAt.projV_at (projBlk V c 0 t) (projBlk V c 3 t) (projBlk V c 6 t) p q).trans ?_).trans
    (G_apply (V c main_v1) (V c main_v7) (V c main_v12) row q).symm
  refine congrArg₂ (fun (a b : EReal) => a + b) (Finset.sum_congr rfl fun k _ => ?_) (blk6_apply c V t q)
  exact congrArg₂ (fun (a b : EReal) => a * b) (blk0_apply c V t p k row h) (blk3_apply c V t k q)

/-- What point `t` writes back into the third result array is block `t` of rows times matrix plus bias. -/
theorem flushed9_eq (t : Fin cfg0.N) :
    (projDat V c).flushed 9 t = ((cfg0.win 9).blk t).view.read (Elt Ideal) (G (V c main_v1) (V c main_v7) (V c main_v12)) := by
  show (cfg0.win 9).cut (grid0.coords t) ((projDat V c).after 9 t) = _
  rw [projAfter9]
  unfold projOutV
  rw [View.canon_unit_zero hz2]
  simp only [View.ld_unit_zero (S := S512x1024) hz2, View.ld_unit_zero (S := S1024x1024) hz2, View.ld_unit_zero (S := S1x1024) hz2]
  funext j
  obtain ⟨-, -, -, -, -, -, e0, e1⟩ := idx_rows t
  have ht : t.val < 32 := t.isLt
  have hp : (j 0).val < 512 := (j 0).isLt
  have hq : (j 1).val < 1024 := (j 1).isLt
  have hx : (win0_9.xinj (grid0.coords t) j : S512x1024.Idx) = ix2 (⟨(j 0).val, hp⟩ : Fin 512) (⟨(j 1).val, hq⟩ : Fin 1024) := by
    funext a; match a with | ⟨0, _⟩ => rfl | ⟨1, _⟩ => rfl
  have he : (((cfg0.win 9).blk t).view.emb j : S16384x1024.Idx) = ix2 (⟨512 * t.val + (j 0).val, by omega⟩ : Fin 16384) (⟨(j 1).val, hq⟩ : Fin 1024) := by
    funext a; apply Fin.ext
    match a with
    | ⟨0, _⟩ => show win0_9.index t 0 * 512 + 1 * (j 0).val = 512 * t.val + (j 0).val; rw [e0]; omega
    | ⟨1, _⟩ => show win0_9.index t 1 * 1024 + 1 * (j 1).val = (j 1).val; rw [e1]; omega
  show k0_pay4 (F := Ideal) (projBlk V c 0 t) (projBlk V c 3 t) (projBlk V c 6 t) (win0_9.xinj (grid0.coords t) j)
    = G (V c main_v1) (V c main_v7) (V c main_v12) (((cfg0.win 9).blk t).view.emb j)
  rw [hx, he]
  exact pay9_blk c V t _ _ _ rfl

/-- An index of the third result array is in point `t`'s block iff each coordinate is in the block's range. -/
theorem mem_blk9 (t : Fin cfg0.N) (i : S16384x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v13_2).slice (win0_9.rect t)).set ↔ _
  rw [View.set_slice_whole, Rect.mem_set_unit]
  exact Iff.rfl

/-- Row r of the third result array lies in the block of point r / 512, which writes back. -/
theorem cover9 (i : S16384x1024.Idx) : ∃ t : Fin cfg0.N, (cfg0.win 9).flush t = true ∧ i ∈ ((cfg0.win 9).blk t).view.set := by
  have hi0 : (i 0).val < 16384 := (i 0).isLt
  have hi1 : (i 1).val < 1024 := (i 1).isLt
  have hN : cfg0.N = 32 := N_0
  refine ⟨⟨(i 0).val / 512, by omega⟩, flush0_9 _, ?_⟩
  obtain ⟨-, -, -, -, -, -, e0, e1⟩ := idx_rows ⟨(i 0).val / 512, by omega⟩
  rw [mem_blk9]
  intro a
  match a with
  | ⟨0, _⟩ => show win0_9.index _ (0 : Fin 2) * 512 ≤ (i 0).val ∧ (i 0).val < win0_9.index _ (0 : Fin 2) * 512 + 512; rw [e0]; show (i 0).val / 512 * 512 ≤ (i 0).val ∧ (i 0).val < (i 0).val / 512 * 512 + 512; omega
  | ⟨1, _⟩ => show win0_9.index _ (1 : Fin 2) * 1024 ≤ (i 1).val ∧ (i 1).val < win0_9.index _ (1 : Fin 2) * 1024 + 1024; rw [e1]; omega

/-- The third result array after the launch: rows times matrix plus bias. -/
theorem final9 : (projDat V c).arrAt 9 cfg0.N = G (V c main_v1) (V c main_v7) (V c main_v12) :=
  (projDat V c).arrAt_eq_of_cover 9 (G (V c main_v1) (V c main_v7) (V c main_v12)) (fun t _ => flushed9_eq c V t) (cover9)

end Blocks

/-! ## The second launch's inputs -/

/-- The first result array as the launch leaves it, at a row and a column. -/
theorem arr7_at (row : Fin 16384) (q : Fin 1024) :
    (bnd2 (F := Ideal) m c (Proc.devRef .tc main_v13_0) : S16384x1024.Idx → EReal) (ix2 row q) = G (at1 (F := Ideal) m c main_v1) (at1 (F := Ideal) m c main_v3) (at1 (F := Ideal) m c main_v10) (ix2 row q) :=
  congrFun ((bnd2_arr m c 7).trans (final7 c (at1 m))) (ix2 row q)

/-- The query array the second launch reads: the first result array reshaped to batches. -/
theorem res7_at (b : Fin 4) (s : Fin 4096) (d : Fin 1024) (row : Fin 16384) (h : row.val = b.val * 4096 + s.val) :
    (at3 (F := Ideal) m c main_v14 : S4x4096x1024.Idx → EReal) (ix3 b s d)
      = (bnd2 (F := Ideal) m c (Proc.devRef .tc main_v13_0) : S16384x1024.Idx → EReal) (ix2 row d) := by
  show StableHlo.after hostOps1 (bnd2 m c) (Proc.devRef .tc main_v14) (ix3 b s d) = _
  after_results
  show shapeCast S4x4096x1024 (bnd2 (F := Ideal) m c (Proc.devRef .tc main_v13_0) : S16384x1024.Idx → EReal) shapeCasts_S16384x1024_S4x4096x1024 (ix3 b s d) = _
  refine shapeCast_apply (s := S16384x1024) (t := S4x4096x1024) _ _ (ix3 b s d) (ix2 row d) ?_
  rw [Shape.rowMajor_val_three, Shape.rowMajor_val_two]
  show row.val * 1024 + d.val = (b.val * 4096 + s.val) * 1024 + d.val
  rw [h]

/-- The query array the second launch reads is the linear layer of the arguments: x·Wᵀ + b, index by index. -/
theorem q_at (b : Fin 4) (s : Fin 4096) (d : Fin 1024) :
    at3 (F := Ideal) m c main_v14 (ix3 b s d)
      = AttnSpec.proj (fun bb s d => m ((c : Thread nD τ).loc main_arg0) (ix3 bb s d))
          (fun o d => m ((c : Thread nD τ).loc main_arg1) (ix2 o d)) (fun o => m ((c : Thread nD τ).loc main_arg2) (ix1 o)) b s d := by
  have hb : b.val < 4 := b.isLt
  have hs : s.val < 4096 := s.isLt
  refine (res7_at m c b s d ⟨b.val * 4096 + s.val, by omega⟩ rfl).trans ((arr7_at m c _ d).trans ?_)
  refine (G_apply _ _ _ _ d).trans ?_
  unfold AttnSpec.proj
  refine congrArg₂ (fun (a b : EReal) => a + b) (Finset.sum_congr rfl fun k _ => ?_) (b_at1_main_v10 m c d)
  exact congrArg₂ (fun (a b : EReal) => a * b) (x_at1 m c _ k b s rfl) (w_at1_main_v3 m c k d)

/-- The second result array as the launch leaves it, at a row and a column. -/
theorem arr8_at (row : Fin 16384) (q : Fin 1024) :
    (bnd2 (F := Ideal) m c (Proc.devRef .tc main_v13_1) : S16384x1024.Idx → EReal) (ix2 row q) = G (at1 (F := Ideal) m c main_v1) (at1 (F := Ideal) m c main_v5) (at1 (F := Ideal) m c main_v11) (ix2 row q) :=
  congrFun ((bnd2_arr m c 8).trans (final8 c (at1 m))) (ix2 row q)

/-- The key array the second launch reads: the second result array reshaped to batches. -/
theorem res8_at (b : Fin 4) (s : Fin 4096) (d : Fin 1024) (row : Fin 16384) (h : row.val = b.val * 4096 + s.val) :
    (at3 (F := Ideal) m c main_v15 : S4x4096x1024.Idx → EReal) (ix3 b s d)
      = (bnd2 (F := Ideal) m c (Proc.devRef .tc main_v13_1) : S16384x1024.Idx → EReal) (ix2 row d) := by
  show StableHlo.after hostOps1 (bnd2 m c) (Proc.devRef .tc main_v15) (ix3 b s d) = _
  after_results
  show shapeCast S4x4096x1024 (bnd2 (F := Ideal) m c (Proc.devRef .tc main_v13_1) : S16384x1024.Idx → EReal) shapeCasts_S16384x1024_S4x4096x1024 (ix3 b s d) = _
  refine shapeCast_apply (s := S16384x1024) (t := S4x4096x1024) _ _ (ix3 b s d) (ix2 row d) ?_
  rw [Shape.rowMajor_val_three, Shape.rowMajor_val_two]
  show row.val * 1024 + d.val = (b.val * 4096 + s.val) * 1024 + d.val
  rw [h]

/-- The key array the second launch reads is the linear layer of the arguments: x·Wᵀ + b, index by index. -/
theorem k_at (b : Fin 4) (s : Fin 4096) (d : Fin 1024) :
    at3 (F := Ideal) m c main_v15 (ix3 b s d)
      = AttnSpec.proj (fun bb s d => m ((c : Thread nD τ).loc main_arg0) (ix3 bb s d))
          (fun o d => m ((c : Thread nD τ).loc main_arg3) (ix2 o d)) (fun o => m ((c : Thread nD τ).loc main_arg4) (ix1 o)) b s d := by
  have hb : b.val < 4 := b.isLt
  have hs : s.val < 4096 := s.isLt
  refine (res8_at m c b s d ⟨b.val * 4096 + s.val, by omega⟩ rfl).trans ((arr8_at m c _ d).trans ?_)
  refine (G_apply _ _ _ _ d).trans ?_
  unfold AttnSpec.proj
  refine congrArg₂ (fun (a b : EReal) => a + b) (Finset.sum_congr rfl fun k _ => ?_) (b_at1_main_v11 m c d)
  exact congrArg₂ (fun (a b : EReal) => a * b) (x_at1 m c _ k b s rfl) (w_at1_main_v5 m c k d)

/-- The third result array as the launch leaves it, at a row and a column. -/
theorem arr9_at (row : Fin 16384) (q : Fin 1024) :
    (bnd2 (F := Ideal) m c (Proc.devRef .tc main_v13_2) : S16384x1024.Idx → EReal) (ix2 row q) = G (at1 (F := Ideal) m c main_v1) (at1 (F := Ideal) m c main_v7) (at1 (F := Ideal) m c main_v12) (ix2 row q) :=
  congrFun ((bnd2_arr m c 9).trans (final9 c (at1 m))) (ix2 row q)

/-- The value array the second launch reads: the third result array reshaped to batches. -/
theorem res9_at (b : Fin 4) (s : Fin 4096) (d : Fin 1024) (row : Fin 16384) (h : row.val = b.val * 4096 + s.val) :
    (at3 (F := Ideal) m c main_v16 : S4x4096x1024.Idx → EReal) (ix3 b s d)
      = (bnd2 (F := Ideal) m c (Proc.devRef .tc main_v13_2) : S16384x1024.Idx → EReal) (ix2 row d) := by
  show StableHlo.after hostOps1 (bnd2 m c) (Proc.devRef .tc main_v16) (ix3 b s d) = _
  after_results
  show shapeCast S4x4096x1024 (bnd2 (F := Ideal) m c (Proc.devRef .tc main_v13_2) : S16384x1024.Idx → EReal) shapeCasts_S16384x1024_S4x4096x1024 (ix3 b s d) = _
  refine shapeCast_apply (s := S16384x1024) (t := S4x4096x1024) _ _ (ix3 b s d) (ix2 row d) ?_
  rw [Shape.rowMajor_val_three, Shape.rowMajor_val_two]
  show row.val * 1024 + d.val = (b.val * 4096 + s.val) * 1024 + d.val
  rw [h]

/-- The value array the second launch reads is the linear layer of the arguments: x·Wᵀ + b, index by index. -/
theorem v_at (b : Fin 4) (s : Fin 4096) (d : Fin 1024) :
    at3 (F := Ideal) m c main_v16 (ix3 b s d)
      = AttnSpec.proj (fun bb s d => m ((c : Thread nD τ).loc main_arg0) (ix3 bb s d))
          (fun o d => m ((c : Thread nD τ).loc main_arg5) (ix2 o d)) (fun o => m ((c : Thread nD τ).loc main_arg6) (ix1 o)) b s d := by
  have hb : b.val < 4 := b.isLt
  have hs : s.val < 4096 := s.isLt
  refine (res9_at m c b s d ⟨b.val * 4096 + s.val, by omega⟩ rfl).trans ((arr9_at m c _ d).trans ?_)
  refine (G_apply _ _ _ _ d).trans ?_
  unfold AttnSpec.proj
  refine congrArg₂ (fun (a b : EReal) => a + b) (Finset.sum_congr rfl fun k _ => ?_) (b_at1_main_v12 m c d)
  exact congrArg₂ (fun (a b : EReal) => a * b) (x_at1 m c _ k b s rfl) (w_at1_main_v7 m c k d)

/-- The output weights the second launch reads: the transposed weight matrix, written by the host prefix and by nothing after it. -/
theorem wo_at (d e : Fin 1024) :
    at3 (F := Ideal) m c main_v9 (ix2 d e) = m ((c : Thread nD τ).loc main_arg7) (ix2 e d) := by
  have h3 : bnd3 (F := Ideal) m c (Proc.devRef .tc main_v9) = bnd2 m c (Proc.devRef .tc main_v9) :=
    StableHlo.after_of_writes_sub hostOps1 _ hostOps1_writes (r := main_v9) (by decide)
  have h2 : bnd2 (F := Ideal) m c (Proc.devRef .tc main_v9) = bnd1 m c (Proc.devRef .tc main_v9) :=
    bnd2_of_ne m c main_v9 (by decide)
  show bnd3 (F := Ideal) m c (Proc.devRef .tc main_v9) (ix2 d e) = _
  rw [h3, h2]
  exact w_at1_main_v9 m c d e

/-- The output bias the second launch reads: the bias vector as one row. -/
theorem bo_at (e : Fin 1024) :
    at3 (F := Ideal) m c main_v17 (ix2 (0 : Fin 1) e) = m ((c : Thread nD τ).loc main_arg8) (ix1 e) := by
  have h2 : bnd2 (F := Ideal) m c (Proc.devRef .tc main_arg8) = bnd1 m c (Proc.devRef .tc main_arg8) :=
    bnd2_of_ne m c main_arg8 (by decide)
  have h1 : bnd1 (F := Ideal) m c (Proc.devRef .tc main_arg8) = bnd0 m c (Proc.devRef .tc main_arg8) :=
    StableHlo.after_of_writes_sub hostOps0 _ hostOps0_writes (r := main_arg8) (by decide)
  show StableHlo.after hostOps1 (bnd2 m c) (Proc.devRef .tc main_v17) (ix2 (0 : Fin 1) e) = _
  after_results
  show shapeCast S1x1024 (bnd2 (F := Ideal) m c (Proc.devRef .tc main_arg8) : S1024.Idx → EReal) shapeCasts_S1024_S1x1024 (ix2 (0 : Fin 1) e) = _
  refine (shapeCast_a_1a_apply _ _ 0 e).trans ?_
  rw [h2, h1]

end Cert.KernelIdeal.ProjValue

end
-- ==== Proof.FiniteArgs.lean ====
/-
  Finiteness of the arguments from the precondition: the precondition says that, for each of the nine argument arrays,
  every entry `x` satisfies `|x| < +∞`; over the extended reals this forces every entry to be a real number.
-/
import proofs.«125791_j3195455668383_2_alg».proof.Defs
import proofs.«125791_j3195455668383_2_alg».proof.Proof.Gen.KernelIdeal
import proofs.«125791_j3195455668383_2_alg».proof.Proof.Gen.Pre_finite_inputs
import Idealize.ShloMosaic.Lib.ReduceAll
import Idealize.ShloMosaic.Lib.ValueIdx
import Idealize.ShloMosaic.PureOps.Ideal.Laws

namespace Cert.Proof.Finite

open Idealize.ShloMosaic Idealize.SL.Sem

/-- The scalar shape has exactly one index. -/
instance : Subsingleton Cert.Pre_finite_inputs.S_.Idx := ⟨fun a b => funext fun d => d.elim0⟩

/-- An extended real whose absolute value `max x (-x)` is strictly below `+∞` (the single-precision pattern
`0x7F800000`) is a real number: both infinities have absolute value `+∞`. -/
theorem is_real_of_abs_lt (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at hx
  induction x using EReal.rec with
  | bot => simp [Ideal.cmp] at hx
  | top => simp [Ideal.cmp] at hx
  | coe r => exact ⟨r, rfl⟩

/-- If the conjunction over all entries of "`|x| < +∞`" holds for an array, every entry of the array is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1)
    (i : s.Idx) : ∃ r : ℝ, x i = (r : EReal) :=
  is_real_of_abs_lt (x i) (Host.reduce_andi_all _ _ hr hu j e i)

/-- Under the precondition every entry of each of the nine argument arrays is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg1) i = ((r : ℝ) : EReal))
    ∧ (∀ i, ∃ r : ℝ, m ((c.tc : Thread Cert.KernelIdeal.nD Cert.KernelIdeal.τ).loc Cert.KernelIdeal.main_arg2) i = ((r : ℝ) : EReal))
    ∧ (∀ i, ∃ r : ℝ, m ((c.tc : Thread Cert.KernelIdeal.nD Cert.KernelIdeal.τ).loc Cert.KernelIdeal.main_arg3) i = ((r : ℝ) : EReal))
    ∧ (∀ i, ∃ r : ℝ, m ((c.tc : Thread Cert.KernelIdeal.nD Cert.KernelIdeal.τ).loc Cert.KernelIdeal.main_arg4) i = ((r : ℝ) : EReal))
    ∧ (∀ i, ∃ r : ℝ, m ((c.tc : Thread Cert.KernelIdeal.nD Cert.KernelIdeal.τ).loc Cert.KernelIdeal.main_arg5) i = ((r : ℝ) : EReal))
    ∧ (∀ i, ∃ r : ℝ, m ((c.tc : Thread Cert.KernelIdeal.nD Cert.KernelIdeal.τ).loc Cert.KernelIdeal.main_arg6) i = ((r : ℝ) : EReal))
    ∧ (∀ i, ∃ r : ℝ, m ((c.tc : Thread Cert.KernelIdeal.nD Cert.KernelIdeal.τ).loc Cert.KernelIdeal.main_arg7) i = ((r : ℝ) : EReal))
    ∧ (∀ i, ∃ r : ℝ, m ((c.tc : Thread Cert.KernelIdeal.nD Cert.KernelIdeal.τ).loc Cert.KernelIdeal.main_arg8) i = ((r : ℝ) : EReal)) := by
  have h0 := congrFun (h c) ValueIdx.ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => all_real _ _ _ _ _ e0 i,
    fun i => all_real _ _ _ _ _ e1 i,
    fun i => all_real _ _ _ _ _ e2 i,
    fun i => all_real _ _ _ _ _ e3 i,
    fun i => all_real _ _ _ _ _ e4 i,
    fun i => all_real _ _ _ _ _ e5 i,
    fun i => all_real _ _ _ _ _ e6 i,
    fun i => all_real _ _ _ _ _ e7 i,
    fun i => all_real _ _ _ _ _ e8 i⟩

end Cert.Proof.Finite
-- ==== Proof.KI.KernelValue.lean ====
/-
  The kernel's result as a function of the arguments. Under the precondition every argument entry is a real number, so
  the projected queries, keys and values are real-valued; the second launch's result array is then the attention
  output of those projections, the output weight and the bias, which is the whole layer applied to the arguments.
-/
import proofs.«125791_j3195455668383_2_alg».proof.Proof.KI.AttnArray
import proofs.«125791_j3195455668383_2_alg».proof.Proof.KI.ProjValue
import proofs.«125791_j3195455668383_2_alg».proof.Proof.FiniteArgs

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PayAt OnlineSoftmax

open Cert.KernelIdeal.ProjValue

/-- A linear layer of real-valued inputs is real-valued. -/
theorem proj_real (x : Fin 4 → Fin 4096 → Fin 1024 → EReal) (W : Fin 1024 → Fin 1024 → EReal) (bv : Fin 1024 → EReal)
    (hx : ∀ bb s d, ∃ r : ℝ, x bb s d = ((r : ℝ) : EReal)) (hW : ∀ o d, ∃ r : ℝ, W o d = ((r : ℝ) : EReal))
    (hb : ∀ o, ∃ r : ℝ, bv o = ((r : ℝ) : EReal)) (bb : Fin 4) (s : Fin 4096) (e : Fin 1024) :
    ∃ r : ℝ, AttnSpec.proj x W bv bb s e = ((r : ℝ) : EReal) := by
  choose xr hxr using hx
  choose Wr hWr using hW
  choose br hbr using hb
  refine ⟨(∑ d : Fin 1024, xr bb s d * Wr e d) + br e, ?_⟩
  unfold AttnSpec.proj
  simp only [hxr, hWr, hbr]
  rw [EReal.coe_add, coe_sum]
  simp only [EReal.coe_mul]

variable (m : (ℓ : Loc nD τ sig) → Buf (Elt Ideal) ℓ) (c : Dev nD)

/-- Under the precondition the kernel's result array is the whole layer applied to the arguments. -/
theorem kernel_value (h : Cert.Pre_KernelIdeal m) (b : Fin 4) (s : Fin 4096) (e : Fin 1024) :
    bnd4 (F := Ideal) m c (Proc.devRef .tc main_v18) (ix3 b s e) = AttnSpec.attn (fun bb s d => (m ((c : Thread nD τ).loc main_arg0)) (ix3 bb s d)) (fun o d => (m ((c : Thread nD τ).loc main_arg1)) (ix2 o d)) (fun o => (m ((c : Thread nD τ).loc main_arg2)) (ix1 o)) (fun o d => (m ((c : Thread nD τ).loc main_arg3)) (ix2 o d)) (fun o => (m ((c : Thread nD τ).loc main_arg4)) (ix1 o)) (fun o d => (m ((c : Thread nD τ).loc main_arg5)) (ix2 o d)) (fun o => (m ((c : Thread nD τ).loc main_arg6)) (ix1 o)) (fun o d => (m ((c : Thread nD τ).loc main_arg7)) (ix2 o d)) (fun o => (m ((c : Thread nD τ).loc main_arg8)) (ix1 o)) b s e := by
  obtain ⟨h0, h1, h2, h3, h4, h5, h6, h7, h8⟩ := Cert.Proof.Finite.real_of_pre m h c
  have hqr : ∀ i : S4x4096x1024.Idx, ∃ r : ℝ, at3 (F := Ideal) m c main_v14 i = ((r : ℝ) : EReal) := fun i => by
    obtain ⟨bb, ss, dd, rfl⟩ : ∃ (bb : Fin 4) (ss : Fin 4096) (dd : Fin 1024), i = ix3 bb ss dd := ⟨i 0, i 1, i 2, eq_ix3 i⟩
    rw [q_at]; exact proj_real _ _ _ (fun _ _ _ => h0 _) (fun _ _ => h1 _) (fun _ => h2 _) bb ss dd
  have hkr : ∀ i : S4x4096x1024.Idx, ∃ r : ℝ, at3 (F := Ideal) m c main_v15 i = ((r : ℝ) : EReal) := fun i => by
    obtain ⟨bb, ss, dd, rfl⟩ : ∃ (bb : Fin 4) (ss : Fin 4096) (dd : Fin 1024), i = ix3 bb ss dd := ⟨i 0, i 1, i 2, eq_ix3 i⟩
    rw [k_at]; exact proj_real _ _ _ (fun _ _ _ => h0 _) (fun _ _ => h3 _) (fun _ => h4 _) bb ss dd
  have hvr : ∀ i : S4x4096x1024.Idx, ∃ r : ℝ, at3 (F := Ideal) m c main_v16 i = ((r : ℝ) : EReal) := fun i => by
    obtain ⟨bb, ss, dd, rfl⟩ : ∃ (bb : Fin 4) (ss : Fin 4096) (dd : Fin 1024), i = ix3 bb ss dd := ⟨i 0, i 1, i 2, eq_ix3 i⟩
    rw [v_at]; exact proj_real _ _ _ (fun _ _ _ => h0 _) (fun _ _ => h5 _) (fun _ => h6 _) bb ss dd
  choose qR hq using hqr
  choose kR hk using hkr
  choose vR hv using hvr
  have hout : bnd4 (F := Ideal) m c (Proc.devRef .tc main_v18) = (attnDat (at3 m) c).arrAt 5 cfg1.N := bnd4_arr m c 5
  rw [hout, attnArray (at3 m) c qR kR vR hq hk hv, attnG_ix3]
  have eQ : Qe (at3 m) c = AttnSpec.proj (fun bb s d => (m ((c : Thread nD τ).loc main_arg0)) (ix3 bb s d)) (fun o d => (m ((c : Thread nD τ).loc main_arg1)) (ix2 o d)) (fun o => (m ((c : Thread nD τ).loc main_arg2)) (ix1 o)) := by
    funext bb ss dd; exact q_at m c bb ss dd
  have eK : Ke (at3 m) c = AttnSpec.proj (fun bb s d => (m ((c : Thread nD τ).loc main_arg0)) (ix3 bb s d)) (fun o d => (m ((c : Thread nD τ).loc main_arg3)) (ix2 o d)) (fun o => (m ((c : Thread nD τ).loc main_arg4)) (ix1 o)) := by
    funext bb ss dd; exact k_at m c bb ss dd
  have eV : Ve (at3 m) c = AttnSpec.proj (fun bb s d => (m ((c : Thread nD τ).loc main_arg0)) (ix3 bb s d)) (fun o d => (m ((c : Thread nD τ).loc main_arg5)) (ix2 o d)) (fun o => (m ((c : Thread nD τ).loc main_arg6)) (ix1 o)) := by
    funext bb ss dd; exact v_at m c bb ss dd
  have eWo : Woe (at3 m) c = fun o d => (m ((c : Thread nD τ).loc main_arg7)) (ix2 o d) := by
    funext o d; exact wo_at m c d o
  have ebo : boe (at3 m) c = fun o => (m ((c : Thread nD τ).loc main_arg8)) (ix1 o) := by
    funext o; exact bo_at m c o
  rw [eQ, eK, eV, eWo, ebo]
  rfl

end Cert.KernelIdeal.Gen

end
-- ==== Proof.RefRead.lean ====
/-
  The reference's result read at an index: element (b, i, e) of the reference program's output is the single-head
  attention layer of the specification, evaluated on the arguments read by coordinates.
-/
import proofs.«125791_j3195455668383_2_alg».proof.Proof.Gen.ReferenceIdeal.Read
import proofs.«125791_j3195455668383_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## Index equations

Each operand index the generated read-at-an-index lemmas compute from a result index, at a result index given by its
coordinates, is the index with the expected coordinates. -/

theorem lidx_v0_eq (b : Fin 4) (i : Fin 4096) (e k : Fin 1024) : lidx_main_v0 (ix3 b i e) k = ix3 b i k :=
  funext fun a => Fin.ext (by match a with | ⟨0, _⟩ => rfl | ⟨1, _⟩ => rfl | ⟨2, _⟩ => rfl)
theorem ridx_v0_eq (b : Fin 4) (i : Fin 4096) (e k : Fin 1024) : ridx_main_v0 (ix3 b i e) k = ix2 e k :=
  funext fun a => Fin.ext (by match a with | ⟨0, _⟩ => rfl | ⟨1, _⟩ => rfl)
theorem lidx_v4_eq (b : Fin 4) (i : Fin 4096) (e k : Fin 1024) : lidx_main_v4 (ix3 b i e) k = ix3 b i k :=
  funext fun a => Fin.ext (by match a with | ⟨0, _⟩ => rfl | ⟨1, _⟩ => rfl | ⟨2, _⟩ => rfl)
theorem ridx_v4_eq (b : Fin 4) (i : Fin 4096) (e k : Fin 1024) : ridx_main_v4 (ix3 b i e) k = ix2 e k :=
  funext fun a => Fin.ext (by match a with | ⟨0, _⟩ => rfl | ⟨1, _⟩ => rfl)
theorem lidx_v8_eq (b : Fin 4) (i : Fin 4096) (e k : Fin 1024) : lidx_main_v8 (ix3 b i e) k = ix3 b i k :=
  funext fun a => Fin.ext (by match a with | ⟨0, _⟩ => rfl | ⟨1, _⟩ => rfl | ⟨2, _⟩ => rfl)
theorem ridx_v8_eq (b : Fin 4) (i : Fin 4096) (e k : Fin 1024) : ridx_main_v8 (ix3 b i e) k = ix2 e k :=
  funext fun a => Fin.ext (by match a with | ⟨0, _⟩ => rfl | ⟨1, _⟩ => rfl)
theorem lidx_v27_eq (b : Fin 4) (i : Fin 4096) (e k : Fin 1024) : lidx_main_v27 (ix3 b i e) k = ix3 b i k :=
  funext fun a => Fin.ext (by match a with | ⟨0, _⟩ => rfl | ⟨1, _⟩ => rfl | ⟨2, _⟩ => rfl)
theorem ridx_v27_eq (b : Fin 4) (i : Fin 4096) (e k : Fin 1024) : ridx_main_v27 (ix3 b i e) k = ix2 e k :=
  funext fun a => Fin.ext (by match a with | ⟨0, _⟩ => rfl | ⟨1, _⟩ => rfl)
theorem idx_v1_v2_eq (b : Fin 4) (i : Fin 4096) (e : Fin 1024) : idx_main_v1 (idx_main_v2 (ix3 b i e)) = ix1 e :=
  funext fun a => Fin.ext (by match a with | ⟨0, _⟩ => rfl)
theorem idx_v5_v6_eq (b : Fin 4) (i : Fin 4096) (e : Fin 1024) : idx_main_v5 (idx_main_v6 (ix3 b i e)) = ix1 e :=
  funext fun a => Fin.ext (by match a with | ⟨0, _⟩ => rfl)
theorem idx_v9_v10_eq (b : Fin 4) (i : Fin 4096) (e : Fin 1024) : idx_main_v9 (idx_main_v10 (ix3 b i e)) = ix1 e :=
  funext fun a => Fin.ext (by match a with | ⟨0, _⟩ => rfl)
theorem idx_v28_v29_eq (b : Fin 4) (i : Fin 4096) (e : Fin 1024) : idx_main_v28 (idx_main_v29 (ix3 b i e)) = ix1 e :=
  funext fun a => Fin.ext (by match a with | ⟨0, _⟩ => rfl)
theorem lidx_v12_eq (b : Fin 4) (i j : Fin 4096) (k : Fin 1024) : lidx_main_v12 (ix3 b i j) k = ix3 b i k :=
  funext fun a => Fin.ext (by match a with | ⟨0, _⟩ => rfl | ⟨1, _⟩ => rfl | ⟨2, _⟩ => rfl)
theorem ridx_v12_eq (b : Fin 4) (i j : Fin 4096) (k : Fin 1024) : ridx_main_v12 (ix3 b i j) k = ix3 b j k :=
  funext fun a => Fin.ext (by match a with | ⟨0, _⟩ => rfl | ⟨1, _⟩ => rfl | ⟨2, _⟩ => rfl)
theorem idx_v18_v19_eq (b : Fin 4) (i j : Fin 4096) : idx_main_v18 (idx_main_v19 (ix3 b i j)) = ix2 b i :=
  funext fun a => Fin.ext (by match a with | ⟨0, _⟩ => rfl | ⟨1, _⟩ => rfl)
theorem idx_v23_v24_eq (b : Fin 4) (i j : Fin 4096) : idx_main_v23 (idx_main_v24 (ix3 b i j)) = ix2 b i :=
  funext fun a => Fin.ext (by match a with | ⟨0, _⟩ => rfl | ⟨1, _⟩ => rfl)
theorem idx_v22_eq (b : Fin 4) (i k : Fin 4096) : idx_main_v22 (ix2 b i) k = ix3 b i k :=
  funext fun a => Fin.ext (by match a with | ⟨0, _⟩ => rfl | ⟨1, _⟩ => rfl | ⟨2, _⟩ => rfl)
theorem lidx_v26_eq (b : Fin 4) (i : Fin 4096) (d : Fin 1024) (k : Fin 4096) : lidx_main_v26 (ix3 b i d) k = ix3 b i k :=
  funext fun a => Fin.ext (by match a with | ⟨0, _⟩ => rfl | ⟨1, _⟩ => rfl | ⟨2, _⟩ => rfl)
theorem ridx_v26_eq (b : Fin 4) (i : Fin 4096) (d : Fin 1024) (k : Fin 4096) : ridx_main_v26 (ix3 b i d) k = ix3 b k d :=
  funext fun a => Fin.ext (by match a with | ⟨0, _⟩ => rfl | ⟨1, _⟩ => rfl | ⟨2, _⟩ => rfl)

/-- The reduced index (b, i) with coordinate `k` put back on the last axis is (b, i, k). -/
theorem lift_eq (h : S4x4096x4096.Reduces [2] S4x4096) (b : Fin 4) (i : Fin 4096) (k : Fin (S4x4096x4096.size 2)) :
    h.lift (ix2 b i) k = ix3 b i (⟨k.val, k.isLt⟩ : Fin 4096) := by
  funext c
  apply Fin.ext
  match c with
  | ⟨0, _⟩ => rfl
  | ⟨1, _⟩ => rfl
  | ⟨2, _⟩ => rfl

/-! ## The three input projections -/

/-- The query projection read at an index: row `i` of batch `b` against row `e` of the weight matrix, plus the bias. -/
theorem proj_at_v3 (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (b : Fin 4) (i : Fin 4096) (e : Fin 1024) :
    val_main_v3 (F := Ideal) x0 x1 x2 (ix3 b i e)
      = AttnSpec.proj (fun bb s d => x0 (ix3 bb s d)) (fun o d => x1 (ix2 o d)) (fun o => x2 (ix1 o)) b i e := by
  rw [val_main_v3_apply, val_main_v0_apply, val_main_v2_apply, val_main_v1_apply, idx_v1_v2_eq]
  simp only [lidx_v0_eq, ridx_v0_eq]
  rfl

/-- The key projection read at an index: row `i` of batch `b` against row `e` of the weight matrix, plus the bias. -/
theorem proj_at_v7 (x0 : (⟨S4x4096x1024, .f32⟩ : BufTy).Contents (Elt Ideal)) (x3 : (⟨S1024x1024, .f32⟩ : BufTy).Contents (Elt Ideal)) (x4 : (⟨S1024, .f32⟩ : BufTy).Contents (Elt Ideal)) (b : Fin 4) (i : Fin 4096) (e : Fin 1024) :
    val_main_v7 (F := Ideal) x0 x3 x4 (ix3 b i e)
      = AttnSpec.proj (fun bb s d => x0 (ix3 bb s d)) (fun o d => x3 (ix2 o d)) (fun o => x4 (ix1 o)) b i e := by
  rw [val_main_v7_apply, val_main_v4_apply, val_main_v6_apply, val_main_v5_apply, idx_v5_v6_eq]
  simp only [lidx_v4_eq, ridx_v4_eq]
  rfl

/-- The value projection read at an index: row `i` of batch `b` against row `e` of the weight matrix, plus the bias. -/
theorem proj_at_v11 (x0 : (⟨S4x4096x1024, .f32⟩ : BufTy).Contents (Elt Ideal)) (x5 : (⟨S1024x1024, .f32⟩ : BufTy).Contents (Elt Ideal)) (x6 : (⟨S1024, .f32⟩ : BufTy).Contents (Elt Ideal)) (b : Fin 4) (i : Fin 4096) (e : Fin 1024) :
    val_main_v11 (F := Ideal) x0 x5 x6 (ix3 b i e)
      = AttnSpec.proj (fun bb s d => x0 (ix3 bb s d)) (fun o d => x5 (ix2 o d)) (fun o => x6 (ix1 o)) b i e := by
  rw [val_main_v11_apply, val_main_v8_apply, val_main_v10_apply, val_main_v9_apply, idx_v9_v10_eq]
  simp only [lidx_v8_eq, ridx_v8_eq]
  rfl

/-! ## Scores, row maximum, weights -/

/-- The scaled score of query `i` against key `j`. -/
theorem score_at (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i j : Fin 4096) :
    val_main_v14 (F := Ideal) x0 x1 x2 x3 x4 (ix3 b i j) = AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i j := by
  rw [val_main_v14_apply, val_main_v12_apply, val_main_v13_apply, val_main_cst_apply]
  simp only [lidx_v12_eq, ridx_v12_eq, proj_at_v3, proj_at_v7]
  rfl

/-- The maximum-reduction over the keys, read at (b, i): the fold of `max` from `-∞` over the row of scores. -/
theorem fold_at (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i : Fin 4096) :
    val_main_v15 (F := Ideal) x0 x1 x2 x3 x4 (ix2 b i)
      = (Finset.univ : Finset (Fin 4096)).fold max (Ideal.ofBits .f32 0xFF800000#32) (fun j => AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i j) := by
  unfold val_main_v15
  have h : S4x4096x4096.Reduces [2] S4x4096 := by decide
  rw [Host.reduce_eq_fold_single FloatOps.maximumf _ _ reducesTo_S4x4096x4096_S4x4096_d2 h h_S_]
  have hf : (val_main_v14 (F := Ideal) x0 x1 x2 x3 x4 ∘ h.lift (ix2 b i))
      = fun j : Fin 4096 => AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i j :=
    funext fun k => (congrArg (val_main_v14 (F := Ideal) x0 x1 x2 x3 x4) (lift_eq h b i k)).trans
      (score_at x0 x1 x2 x3 x4 b i ⟨k.val, k.isLt⟩)
  exact congrArg (fun f => Finset.fold max (Ideal.ofBits .f32 0xFF800000#32) f (Finset.univ : Finset (Fin 4096))) hf

/-- The row maximum as the reference takes it: `max` of `-∞` and the fold. -/
theorem rowmax_at (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i : Fin 4096) :
    val_main_v17 (F := Ideal) x0 x1 x2 x3 x4 (ix2 b i) = AttnSpec.rowMax (fun j' => AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i j') := by
  rw [val_main_v17_apply, val_main_v16_apply, val_main_cst_1_apply, fold_at]
  rfl

/-- The exponential of a score minus its row's maximum. -/
theorem exp_at (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i j : Fin 4096) :
    val_main_v21 (F := Ideal) x0 x1 x2 x3 x4 (ix3 b i j) = Ideal.exp (AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i j - AttnSpec.rowMax (fun j' => AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i j')) := by
  rw [val_main_v21_apply, val_main_v20_apply, val_main_v19_apply, val_main_v18_apply, idx_v18_v19_eq, rowmax_at,
    score_at]
  rfl

/-- The row's normaliser: zero plus the sum of the exponentials. -/
theorem den_at (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i : Fin 4096) :
    val_main_v22 (F := Ideal) x0 x1 x2 x3 x4 (ix2 b i) = (Ideal.ofBits .f32 0x00000000#32 + ∑ k' : Fin 4096, Ideal.exp (AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i k' - AttnSpec.rowMax (fun j' => AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i j'))) := by
  rw [val_main_v22_apply, val_main_cst_2_apply]
  simp only [idx_v22_eq, exp_at]
  rfl

/-- The softmax weight of key `j` for query `i`. -/
theorem weight_at (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (i j : Fin 4096) :
    val_main_v25 (F := Ideal) x0 x1 x2 x3 x4 (ix3 b i j) = Ideal.div (Ideal.exp (AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i j - AttnSpec.rowMax (fun j' => AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i j'))) (Ideal.ofBits .f32 0x00000000#32 + ∑ k' : Fin 4096, Ideal.exp (AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i k' - AttnSpec.rowMax (fun j' => AttnSpec.score (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) b i j'))) := by
  rw [val_main_v25_apply, val_main_v24_apply, val_main_v23_apply, idx_v23_v24_eq, den_at, exp_at]
  rfl

/-! ## Context and output -/

/-- The attention context: the softmax-weighted sum of the values. -/
theorem ctx_at (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (i : Fin 4096) (d : Fin 1024) :
    val_main_v26 (F := Ideal) x0 x1 x2 x3 x4 x5 x6 (ix3 b i d) = AttnSpec.ctx (AttnSpec.proj (fun bb s d => x0 (ix3 bb s d)) (fun o d => x1 (ix2 o d)) (fun o => x2 (ix1 o))) (AttnSpec.proj (fun bb s d => x0 (ix3 bb s d)) (fun o d => x3 (ix2 o d)) (fun o => x4 (ix1 o))) (AttnSpec.proj (fun bb s d => x0 (ix3 bb s d)) (fun o d => x5 (ix2 o d)) (fun o => x6 (ix1 o))) b i d := by
  rw [val_main_v26_apply]
  simp only [lidx_v26_eq, ridx_v26_eq, weight_at, proj_at_v11]
  rfl

/-- The reference's output at (b, i, e) is the specification's attention layer there. -/
theorem ref_at (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (b : Fin 4) (i : Fin 4096) (e : Fin 1024) :
    val_main_v30 (F := Ideal) x0 x1 x2 x3 x4 x5 x6 x7 x8 (ix3 b i e)
      = AttnSpec.attn (fun bb s d => x0 (ix3 bb s d)) (fun o d => x1 (ix2 o d)) (fun o => x2 (ix1 o)) (fun o d => x3 (ix2 o d)) (fun o => x4 (ix1 o)) (fun o d => x5 (ix2 o d)) (fun o => x6 (ix1 o)) (fun o d => x7 (ix2 o d)) (fun o => x8 (ix1 o)) b i e := by
  rw [val_main_v30_apply, val_main_v27_apply, val_main_v29_apply, val_main_v28_apply, idx_v28_v29_eq]
  simp only [lidx_v27_eq, ridx_v27_eq, ctx_at]
  rfl

end Cert.ReferenceIdeal.RefValue

end
-- ==== Proof.lean ====
/-
  Single-head attention over float32[4, 4096, 1024] with 1024×1024 projections: a kernel in two launches against the
  plain reference, both read over the extended reals.

  The kernel first projects the input to queries, keys and values, 512 rows at a time (x·Wᵀ + b with the weights
  transposed beforehand). Its second launch walks 16 query blocks by 16 key blocks of 256 rows: per query row it keeps
  a running maximum m of the scaled scores, a running sum l of exp (score - m) and a running weighted sum of the value
  rows with the same weights; a new key block raises m to the larger of m and the block's maximum, rescales l and the
  weighted sum by exp (old m - new m) and adds the block's terms; after the last key block the weighted sum is divided
  by l, projected through the output weight and offset by the bias. The reference forms all 4096 scores of a query row
  at once, subtracts their maximum, exponentiates, divides by the sum and takes the weighted sum of the values.

  With finite inputs every projected entry is a real number, and on the reals the two agree: by induction over the key
  blocks the kept triple is (max over the keys seen so far, Σ exp (score - that max), Σ exp (score - that max)·value),
  because exp (m - m')·exp (s - m) = exp (s - m'); at the end the quotient of the weighted sum by the sum is the
  softmax-weighted sum over all keys, whichever maximum is subtracted. Both programs' results are then the same
  output projection of the same context, index by index. Changes of float format are the identity over the extended
  reals, a product into a zero accumulator is the plain sum of products on both sides, and the scale 1/32 is the same
  dyadic constant in both programs.

  Each launch's frame (it runs to its end, nothing faults, the arguments end as launched) is proved for the first
  launch from one triple of its body, and for the second from a triple per case — first key block, middle key block,
  last key block — with the three kept buffers' contents stated after every grid point by recursion on the point.
-/
import proofs.«125791_j3195455668383_2_alg».proof.Defs
import proofs.«125791_j3195455668383_2_alg».proof.Proof.Gen.Kernel
import proofs.«125791_j3195455668383_2_alg».proof.Proof.Gen.KernelIdeal
import proofs.«125791_j3195455668383_2_alg».proof.Proof.Gen.ReferenceIdeal
import proofs.«125791_j3195455668383_2_alg».proof.Proof.Gen.Pre_finite_inputs
import proofs.«125791_j3195455668383_2_alg».proof.Proof.Gen.ReferenceIdeal.Run
import proofs.«125791_j3195455668383_2_alg».proof.Proof.K.Run
import proofs.«125791_j3195455668383_2_alg».proof.Proof.KI.KernelValue
import proofs.«125791_j3195455668383_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to its end and leaves its arguments as launched. -/
theorem frame_kernel : Cert.frame_Kernel := fun m ρ _ => Cert.Kernel.Gen.frame_all (F := Bits) m ρ

/-- So does the kernel read over the extended reals. -/
theorem frame_kernelIdeal : Cert.frame_KernelIdeal := fun m ρ _ => Cert.KernelIdeal.Gen.frame_all (F := Ideal) m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- From memories agreeing on the arguments, the kernel's result array and the reference's are the same attention
    output of the arguments, entry by entry. -/
theorem algebraic : Cert.algebraic_KernelIdeal_ReferenceIdeal := by
  intro m ρ m' ρ' hpre hagree
  refine ⟨fun c => Cert.KernelIdeal.Gen.bnd4 (F := Ideal) m c (Proc.devRef .tc Cert.KernelIdeal.main_v18), ?_, ?_⟩
  · exact (θ_run Cert.KernelIdeal.defs _ _).mono (fun r h c =>
      ⟨h c _ (Cert.KernelIdeal.Gen.mem_unscoped Cert.KernelIdeal.main_v18 (by decide)),
       (h c _ (Cert.KernelIdeal.Gen.mem_unscoped Cert.KernelIdeal.main_arg0 (by decide))).trans (Cert.KernelIdeal.Gen.endsAs_main_arg0 m c),
       (h c _ (Cert.KernelIdeal.Gen.mem_unscoped Cert.KernelIdeal.main_arg1 (by decide))).trans (Cert.KernelIdeal.Gen.endsAs_main_arg1 m c),
       (h c _ (Cert.KernelIdeal.Gen.mem_unscoped Cert.KernelIdeal.main_arg2 (by decide))).trans (Cert.KernelIdeal.Gen.endsAs_main_arg2 m c),
       (h c _ (Cert.KernelIdeal.Gen.mem_unscoped Cert.KernelIdeal.main_arg3 (by decide))).trans (Cert.KernelIdeal.Gen.endsAs_main_arg3 m c),
       (h c _ (Cert.KernelIdeal.Gen.mem_unscoped Cert.KernelIdeal.main_arg4 (by decide))).trans (Cert.KernelIdeal.Gen.endsAs_main_arg4 m c),
       (h c _ (Cert.KernelIdeal.Gen.mem_unscoped Cert.KernelIdeal.main_arg5 (by decide))).trans (Cert.KernelIdeal.Gen.endsAs_main_arg5 m c),
       (h c _ (Cert.KernelIdeal.Gen.mem_unscoped Cert.KernelIdeal.main_arg6 (by decide))).trans (Cert.KernelIdeal.Gen.endsAs_main_arg6 m c),
       (h c _ (Cert.KernelIdeal.Gen.mem_unscoped Cert.KernelIdeal.main_arg7 (by decide))).trans (Cert.KernelIdeal.Gen.endsAs_main_arg7 m c),
       (h c _ (Cert.KernelIdeal.Gen.mem_unscoped Cert.KernelIdeal.main_arg8 (by decide))).trans (Cert.KernelIdeal.Gen.endsAs_main_arg8 m c)⟩)
      (Cert.KernelIdeal.Gen.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq]
    obtain ⟨a0, a1, a2, a3, a4, a5, a6, a7, a8⟩ := hagree c
    rw [a0, a1, a2, a3, a4, a5, a6, a7, a8]
    funext i
    obtain ⟨b, s, e, rfl⟩ : ∃ (b : Fin 4) (s : Fin 4096) (e : Fin 1024), i = ix3 b s e := ⟨i 0, i 1, i 2, eq_ix3 i⟩
    rw [Cert.ReferenceIdeal.RefValue.ref_at]
    exact (Cert.KernelIdeal.Gen.kernel_value m c hpre b s e).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
